-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S64x1024 : Shape := ⟨2, ![64, 1024]⟩
abbrev S64 : Shape := ⟨1, ![64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x1024 .f32) (main_arg6 : FVec F S64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x2048x1024 .f32) (main_arg1 : FVec F S64x1024 .f32) (main_arg2 : FVec F S64 .f32) (main_arg3 : FVec F S64x1024 .f32) (main_arg4 : FVec F S64 .f32) (main_arg5 : FVec F S64x1024 .f32) (main_arg6 : FVec F S64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S8x2048x1024 : Shape := ⟨3, ![8, 2048, 1024]⟩
abbrev S64x1024 : Shape := ⟨2, ![64, 1024]⟩
abbrev S64 : Shape := ⟨1, ![64]⟩
abbrev S8x2048x64 : Shape := ⟨3, ![8, 2048, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024x64 : Shape := ⟨2, ![1024, 64]⟩
abbrev S1x64 : Shape := ⟨2, ![1, 64]⟩
abbrev S1024x1 : Shape := ⟨2, ![1024, 1]⟩
abbrev S1024 : Shape := ⟨1, ![1024]⟩

abbrev nBuf : Space → Nat
  | .hbm => 11
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S8x2048x64, .f32⟩
  | .hbm, ⟨8, _⟩ => ⟨S8x2048x64, .f32⟩
  | .hbm, ⟨9, _⟩ => ⟨S8x2048x64, .f32⟩
  | .hbm, ⟨10, _⟩ => ⟨S8x2048x64, .f32⟩
  | .local _ .vmem, ⟨0, _⟩ => ⟨S1x1024x1024, .f32⟩
  | .local _ .vmem, ⟨1, _⟩ => ⟨S1x1024x1024, .f32⟩
  | .local _ .vmem, ⟨2, _⟩ => ⟨S64x1024, .f32⟩
  | .local _ .vmem, ⟨3, _⟩ => ⟨S64, .f32⟩
  | .local _ .vmem, ⟨4, _⟩ => ⟨S64x1024, .f32⟩
  | .local _ .vmem, ⟨5, _⟩ => ⟨S64, .f32⟩
  | .local _ .vmem, ⟨6, _⟩ => ⟨S64x1024, .f32⟩
  | .local _ .vmem, ⟨7, _⟩ => ⟨S64, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x64, .f32⟩
  | .local _ .vmem, ⟨11, _⟩ => ⟨S1x1024x64, .f32⟩
  | .local _ .vmem, ⟨12, _⟩ => ⟨S1x1024x64, .f32⟩
  | .local _ .vmem, ⟨13, _⟩ => ⟨S1x1024x64, .f32⟩
  | .local _ .vmem, ⟨14, _⟩ => ⟨S1x1024x64, .f32⟩
  | .local _ .vmem, ⟨15, _⟩ => ⟨S1x1024x64, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x64, .f32⟩
  | .local _ .vmem, ⟨19, _⟩ => ⟨S1x1024x64, .f32⟩
  | .local _ .vmem, ⟨20, _⟩ => ⟨S1x1024x64, .f32⟩
  | .local _ .vmem, ⟨21, _⟩ => ⟨S1x1024x64, .f32⟩
  | .local _ .vmem, ⟨22, _⟩ => ⟨S1024x1, .f32⟩
  | .local _ .vmem, ⟨23, _⟩ => ⟨S1024x1, .f32⟩
  | .local _ .vmem, ⟨24, _⟩ => ⟨S1024x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![8, 2, 2], ![false, false, false]⟩

def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  dot_S1024x1024_S64x1024_S1024x64_1_1_0_0_n_n_wf : DotDims.WF S1024x1024 S64x1024 S1024x64 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .f32 = 32 ∨ (Rect.block (s := S64x1024) S64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x64.size a ≤ S8x2048x64.size a
  hwx0_7 : ∀ i : grid0.Coords, EltTy.bits .f32 = 32 ∨ (Rect.block (s := S8x2048x64) S1x1024x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x64.size a ≤ S8x2048x64.size a
  hwx0_8 : ∀ i : grid0.Coords, EltTy.bits .f32 = 32 ∨ (Rect.block (s := S8x2048x64) S1x1024x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x64.size a ≤ S8x2048x64.size a
  hwx0_9 : ∀ i : grid0.Coords, EltTy.bits .f32 = 32 ∨ (Rect.block (s := S8x2048x64) S1x1024x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S8x2048x64.size a
  hwx1_0 : ∀ i : grid1.Coords, EltTy.bits .f32 = 32 ∨ (Rect.block (s := S8x2048x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S8x2048x64.size a
  hwx1_1 : ∀ i : grid1.Coords, EltTy.bits .f32 = 32 ∨ (Rect.block (s := S8x2048x64) S1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S8x2048x64.size a
  hwx1_2 : ∀ i : grid1.Coords, EltTy.bits .f32 = 32 ∨ (Rect.block (s := S8x2048x64) S1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S8x2048x64.size a
  hwx1_3 : ∀ i : grid1.Coords, EltTy.bits .f32 = 32 ∨ (Rect.block (s := S8x2048x64) S1x1024x64.size (cc1_transform_3 i) (hinb1_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1024x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1024x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S64x1024 : Shape := ⟨2, ![64, 1024]⟩
abbrev S64 : Shape := ⟨1, ![64]⟩
abbrev S8x2048x64 : Shape := ⟨3, ![8, 2048, 64]⟩
abbrev S1x1x64 : Shape := ⟨3, ![1, 1, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S64x1024, .f32⟩
  | .hbm, ⟨2, _⟩ => ⟨S64, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S8x2048x64, .f32⟩
  | .hbm, ⟨8, _⟩ => ⟨S1x1x64, .f32⟩
  | .hbm, ⟨9, _⟩ => ⟨S8x2048x64, .f32⟩
  | .hbm, ⟨10, _⟩ => ⟨S8x2048x64, .f32⟩
  | .hbm, ⟨11, _⟩ => ⟨S8x2048x64, .f32⟩
  | .hbm, ⟨12, _⟩ => ⟨S1x1x64, .f32⟩
  | .hbm, ⟨13, _⟩ => ⟨S8x2048x64, .f32⟩
  | .hbm, ⟨14, _⟩ => ⟨S8x2048x64, .f32⟩
  | .hbm, ⟨15, _⟩ => ⟨S8x2048x64, .f32⟩
  | .hbm, ⟨16, _⟩ => ⟨S1x1x64, .f32⟩
  | .hbm, ⟨17, _⟩ => ⟨S8x2048x64, .f32⟩
  | .hbm, ⟨18, _⟩ => ⟨S8x2048x64, .f32⟩
  | .hbm, ⟨19, _⟩ => ⟨S8x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S8x2048x2048, .i1⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S8x2048x2048, .f32⟩
  | .hbm, ⟨54, _⟩ => ⟨S8x2048x2048, .f32⟩
  | .hbm, ⟨55, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v14 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_cst_0 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S64x1024_S8x2048x64_2_1_01_0_n_n_wf : DotDims.WF S8x2048x1024 S64x1024 S8x2048x64 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S64x1024_S8x2048x64_2_1_01_0_n_n : DotDims S8x2048x1024 S64x1024 S8x2048x64 where
  lhsContracting := [2]
  rhsContracting := [1]
  lhsNonContracting := [0, 1]
  rhsNonContracting := [0]
  lhsBatch := []
  rhsBatch := []
  wf := dot_S8x2048x1024_S64x1024_S8x2048x64_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.FrameK0.lean ====
import proofs.«129131_j53901839564972_2_alg».proof.Proof.Gen.Kernel.Launch
import proofs.«129131_j53901839564972_2_alg».proof.Proof.Gen.Kernel.Skeleton
import proofs.«129131_j53901839564972_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection kernel (the first region), at the contents `V` its region is entered from

  A grid point `(b, s)` stages one block of 1024 rows of `x` and the three weight matrices and bias vectors whole,
  and stores the three projected blocks.  Each stored block is one pure function of the staged inputs. -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's block index has not moved). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (an unfetched window's block index has not moved). -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (an unfetched window's block index has not moved). -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (an unfetched window's block index has not moved). -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (an unfetched window's block index has not moved). -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (an unfetched window's block index has not moved). -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not (an unfetched window's block index has not moved). -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S1x1024x1024 := Rect.unit (s := S1x1024x1024) ![0, 0, 0] S1x1024x1024.size inb_S1x1024x1024_S1x1024x1024_0_0_0
abbrev rW : Rect S64x1024 := Rect.unit (s := S64x1024) ![0, 0] S64x1024.size inb_S64x1024_S64x1024_0_0
abbrev rB : Rect S64 := Rect.unit (s := S64) ![0] S64.size inb_S64_S64_0
abbrev rO : Rect S1x1024x64 := Rect.unit (s := S1x1024x64) ![0, 0, 0] S1x1024x64.size inb_S1x1024x64_S1x1024x64_0_0_0

/-! ## What the body leaves in each output window's buffer -/

/-- The q block: the x block against the first staged matrix and bias. -/
def outQ (x0 : Vec F S1x1024x1024 .f32) (x1 : Vec F S64x1024 .f32) (x2 : Vec F S64 .f32) : Vec F S1x1024x64 .f32 :=
  View.canon [⟨rO, k0_pay4 (View.ld x0 rX) (View.ld x1 rW) (View.ld x2 rB)⟩]
/-- The k block: against the second. -/
def outK (x0 : Vec F S1x1024x1024 .f32) (x3 : Vec F S64x1024 .f32) (x4 : Vec F S64 .f32) : Vec F S1x1024x64 .f32 :=
  View.canon [⟨rO, k0_pay5 (View.ld x0 rX) (View.ld x3 rW) (View.ld x4 rB)⟩]
/-- The v block: against the third. -/
def outV (x0 : Vec F S1x1024x1024 .f32) (x5 : Vec F S64x1024 .f32) (x6 : Vec F S64 .f32) : Vec F S1x1024x64 .f32 :=
  View.canon [⟨rO, k0_pay1 (k0_pay3 (View.ld x0 rX) (View.ld x5 rW) (View.ld x6 rB))⟩]

/-- One whole-buffer store covers the buffer. -/
theorem coverO (p0 : Vec F S1x1024x64 .f32) (y : S1x1024x64.Idx) :
    ∃ pc ∈ ([⟨rO, p0⟩] : List (View.Piece (Elt F) S1x1024x64 .f32)), y ∈ pc.1.set :=
  View.cover_of_tiled [⟨rO, p0⟩] S1x1024x64.size (by rfl) y

/-! ## The body's triple -/

set_option maxHeartbeats 4000000 in
/-- On whole staging memrefs, the inputs' at contents `x·` and the outputs' at anything, the body runs to the
    continuation with the inputs' as they were and the three outputs' at the projected blocks. -/
theorem sound_kernel (c : Dev nD) (E : Set ℕ) (i : grid0.Coords)
    (arg2 : Memref sig .tc .vmem S1x1024x1024 .f32) (harg2 : arg2.IsWhole) (arg3 : Memref sig .tc .vmem S64x1024 .f32) (harg3 : arg3.IsWhole) (arg4 : Memref sig .tc .vmem S64 .f32) (harg4 : arg4.IsWhole) (arg5 : Memref sig .tc .vmem S64x1024 .f32) (harg5 : arg5.IsWhole) (arg6 : Memref sig .tc .vmem S64 .f32) (harg6 : arg6.IsWhole) (arg7 : Memref sig .tc .vmem S64x1024 .f32) (harg7 : arg7.IsWhole) (arg8 : Memref sig .tc .vmem S64 .f32) (harg8 : arg8.IsWhole) (arg9 : Memref sig .tc .vmem S1x1024x64 .f32) (harg9 : arg9.IsWhole) (arg10 : Memref sig .tc .vmem S1x1024x64 .f32) (harg10 : arg10.IsWhole) (arg11 : Memref sig .tc .vmem S1x1024x64 .f32) (harg11 : arg11.IsWhole)
    (x0 : Vec F S1x1024x1024 .f32) (x1 : Vec F S64x1024 .f32) (x2 : Vec F S64 .f32) (x3 : Vec F S64x1024 .f32) (x4 : Vec F S64 .f32) (x5 : Vec F S64x1024 .f32) (x6 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (outQ x0 x1 x2) ∗ owns (c : Thread nD τ) arg10 fullShare (outK x0 x3 x4) ∗ owns (c : Thread nD τ) arg11 fullShare (outV x0 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  isplitl [H8]
  · iexists _; isplitr
    swap; · iexact H8
    ipureintro
    exact View.read_writes_eq_canon _ _ _ (coverO _)
  iexists _; isplitr
  swap; · iexact H9
  ipureintro
  exact View.read_writes_eq_canon _ _ _ (coverO _)

/-! ## The pipeline's proof data -/

/-- The proof data of the projection pipeline on core `c`: the arrays as the region finds them; after the body at a point
    each input's buffer at its block and the three outputs' at the projected blocks of that point's input blocks; the
    invariant is the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outQ (iblk V c 0 t) (iblk V c 1 t) (iblk V c 2 t)
    | ⟨8, _⟩ => outK (iblk V c 0 t) (iblk V c 3 t) (iblk V c 4 t)
    | ⟨9, _⟩ => outV (iblk V c 0 t) (iblk V c 5 t) (iblk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = outQ (iblk V c 0 t) (iblk V c 1 t) (iblk V c 2 t) := by dsimp only [dat]
theorem after8 (c : Dev nD) (t : Fin cfg0.N) : (dat V c).after 8 t = outK (iblk V c 0 t) (iblk V c 3 t) (iblk V c 4 t) := by dsimp only [dat]
theorem after9 (c : Dev nD) (t : Fin cfg0.N) : (dat V c).after 9 t = outV (iblk V c 0 t) (iblk V c 5 t) (iblk V c 6 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d
theorem before6 (c : Dev nD) (t : Fin cfg0.N) (d) : (dat V c).before 6 t d = iblk V c 6 t :=
  before6_of V (dat V c) (A_eq V c 6) (after6 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 2000000 in
/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, -/
theorem hin (c : Dev nD) : Pipeline.ΦA spec0 c ⊢ (dat V c).Φ 0 := .rfl
/-- and after the last. -/
theorem hout (c : Dev nD) : (dat V c).Φ (Fin.last cfg0.N) ⊢ Pipeline.ΦA spec0 c := .rfl

end Cert.Kernel.Fr0

end
-- ==== Proof.FrameK1a.lean ====
import proofs.«129131_j53901839564972_2_alg».proof.Proof.Gen.Kernel.Launch
import proofs.«129131_j53901839564972_2_alg».proof.Proof.Gen.Kernel.Skeleton
import proofs.«129131_j53901839564972_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention kernel (the second region), at the contents `V` its region is entered from

  A grid point is `(b, i, j)`: batch `b`, query tile `i`, key tile `j` (point number `t = 4 b + 2 i + j`).  The body has
  three conditionals: at `j = 0` it resets the running maximum, denominator and numerator it keeps in three scratch
  buffers; when `j ≤ i` it adds tile `j` to them; at `j = 1` it stores numerator / denominator into the output block. -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (an unfetched window's block index has not moved). -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (an unfetched window's block index has not moved). -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (an unfetched window's block index has not moved). -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the point number -/

/-- "key tile 0": the reset branch. -/
abbrev condReset (i : grid1.Coords) : Prop := (Scalar.cmpi .ne (Scalar.extui (Scalar.cmpi .eq (BitVec.ofNat 32 (i 2).val) 0#32)) 0#32) = 1#1
theorem hcondReset : ∀ t : Fin cfg1.N, condReset (grid1.coords t) ↔ t.val % 2 = 0 :=
  (by decide +kernel : ∀ t : Fin grid1.N, condReset (grid1.coords t) ↔ t.val % 2 = 0)

/-- "key tile ≤ query tile": the accumulation branch. -/
abbrev condStep (i : grid1.Coords) : Prop := (Scalar.cmpi .ne (Scalar.extui (Scalar.cmpi .sle (BitVec.ofNat 32 (i 2).val) (BitVec.ofNat 32 (i 1).val))) 0#32) = 1#1
theorem hcondStep : ∀ t : Fin cfg1.N, condStep (grid1.coords t) ↔ ¬ t.val % 4 = 1 :=
  (by decide +kernel : ∀ t : Fin grid1.N, condStep (grid1.coords t) ↔ ¬ t.val % 4 = 1)

/-- "key tile 1 (the last)": the output branch. -/
abbrev condOut (i : grid1.Coords) : Prop := k1_cond3 i = 1#1
theorem hcondOut : ∀ t : Fin cfg1.N, condOut (grid1.coords t) ↔ t.val % 2 = 1 :=
  (by decide +kernel : ∀ t : Fin grid1.N, condOut (grid1.coords t) ↔ t.val % 2 = 1)

/-! ## Where the output window is idle -/

theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
/-- At a point that is not the last key tile the output window is idle (nothing is stored into it) -/
theorem idleAt3 : ∀ t : Fin cfg1.N, ¬condOut (grid1.coords t) → cfg1.idle 3 (grid1.coords t) = true := by decide +kernel
/-- and not written back. -/
theorem noFlush3 : ∀ t : Fin cfg1.N, ¬condOut (grid1.coords t) → (cfg1.win 3).flush t = false := by decide +kernel
/-- At the last key tile it is live. -/
theorem liveAt3 : ∀ t : Fin cfg1.N, condOut (grid1.coords t) → cfg1.idle 3 (grid1.coords t) = false := by decide +kernel

/-! ## The memrefs the body is called on -/

abbrev ms0 (t : Fin cfg1.N) : Memref sig .tc .vmem S1x1024x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x64 .f32 := win1_3.stage (cfg1.slots t 3)
abbrev hs3 (t : Fin cfg1.N) : (ms3 t).IsWhole := hstage1_3 ((cfg1.slots t 3).cast nbuf1_3)
/-- The three scratch operands: the running maximum, denominator and numerator. -/
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2
abbrev VO : View sig .tc .vmem S1x1024x64 .f32 := (Memref.whole cc1_stg3_0 : Memref sig .tc .vmem S1x1024x64 .f32).view
abbrev VSM : View sig .tc .vmem S1024x1 .f32 := scM.view
abbrev VSL : View sig .tc .vmem S1024x1 .f32 := scL.view
abbrev VSA : View sig .tc .vmem S1024x64 .f32 := scA.view

/-! ## The invariant's parts -/

/-- The other kernel's staging buffers, each whole at some contents: they ride through this region untouched. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- What the launch hands the region, with the three scratch buffers set apart. -/
theorem PhiA_split (c : Dev nD) :
    (Pipeline.ΦA spec1 c : sProp 𝕄) ⊢ iprop(otherStaging c ∗ (∃ d, owns (c : Thread nD τ) scM fullShare d) ∗ (∃ d, owns (c : Thread nD τ) scL fullShare d)
      ∗ (∃ d, owns (c : Thread nD τ) scA fullShare d) ∗ (∃ r, prngReg c r)) := by
  unfold Pipeline.ΦA otherStaging; rw [scopedRest1_eq]; simp only [scM, scL, scA, owns_whole]
  iintro ⟨⟨R0, R1, R2, R3, R4, R5, R6, R7, R8, R9, R10, R11, R12, R13, S0, S1, S2⟩, Hg⟩
  isplitl [R0 R1 R2 R3 R4 R5 R6 R7 R8 R9 R10 R11 R12 R13]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  isplitl [S0]; · iexact S0
  isplitl [S1]; · iexact S1
  isplitl [S2]; · iexact S2
  iexact Hg

/-- And back. -/
theorem PhiA_join (c : Dev nD) :
    iprop(otherStaging c ∗ (∃ d, owns (c : Thread nD τ) scM fullShare d) ∗ (∃ d, owns (c : Thread nD τ) scL fullShare d)
      ∗ (∃ d, owns (c : Thread nD τ) scA fullShare d) ∗ (∃ r, prngReg c r)) ⊢ (Pipeline.ΦA spec1 c : sProp 𝕄) := by
  unfold Pipeline.ΦA otherStaging; rw [scopedRest1_eq]; simp only [scM, scL, scA, owns_whole]
  iintro ⟨⟨R0, R1, R2, R3, R4, R5, R6, R7, R8, R9, R10, R11, R12, R13⟩, S0, S1, S2, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [S0]; · iexact S0
  isplitl [S1]; · iexact S1
  iexact S2

end Cert.Kernel.Fr1

end
-- ==== Proof.FrameK1RunA.lean ====
import proofs.«129131_j53901839564972_2_alg».proof.Proof.Gen.Kernel.Launch
import proofs.«129131_j53901839564972_2_alg».proof.Proof.Gen.Kernel.Skeleton
import proofs.«129131_j53901839564972_2_alg».proof.Proof.Gen.Kernel.Points
import proofs.«129131_j53901839564972_2_alg».proof.Proof.FrameK1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of key tile 0 (reset taken, accumulation taken, no output): on whole memrefs, the three input
    blocks at their contents, the output buffer handed back untouched, the scratch buffers at anything, it runs to the
    continuation with the three scratch buffers at the pieces its stores wrote (found by running it). -/
noncomputable def kernelRunA (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i)
    (x0 x1 x2 : Vec F S1x1024x64 .f32) :
    Σ' (LM : List (View.Piece (Elt F) S1024x1 .f32)) (LL : List (View.Piece (Elt F) S1024x1 .f32)), { LA : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact H6

end Cert.Kernel.Fr1

end
-- ==== Proof.FrameK1RunB.lean ====
import proofs.«129131_j53901839564972_2_alg».proof.Proof.Gen.Kernel.Launch
import proofs.«129131_j53901839564972_2_alg».proof.Proof.Gen.Kernel.Skeleton
import proofs.«129131_j53901839564972_2_alg».proof.Proof.Gen.Kernel.Points
import proofs.«129131_j53901839564972_2_alg».proof.Proof.FrameK1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point above the diagonal (query tile 0, key tile 1: no reset, no accumulation, the output taken): the
    scratch buffers at the contents the point before left are handed back as they were, and the output buffer ends at the
    pieces the body's store wrote. -/
noncomputable def kernelRunB (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : ¬condStep i) (hc2 : condOut i)
    (x0 x1 x2 : Vec F S1x1024x64 .f32) (xsM xsL : Vec F S1024x1 .f32) (xsA : Vec F S1024x64 .f32) :
    { LO : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ owns (c : Thread nD τ) arg7 fullShare xsM ∗ owns (c : Thread nD τ) arg8 fullShare xsL ∗ owns (c : Thread nD τ) arg9 fullShare xsA) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    isplitl [H5]
    · iexists _; isplitr; · ipureintro; exact harg8.read_unread _
      iexact H5
    iexists _; isplitr; · ipureintro; exact harg9.read_unread _
    iexact H6

end Cert.Kernel.Fr1

end
-- ==== Proof.FrameK1RunC.lean ====
import proofs.«129131_j53901839564972_2_alg».proof.Proof.Gen.Kernel.Launch
import proofs.«129131_j53901839564972_2_alg».proof.Proof.Gen.Kernel.Skeleton
import proofs.«129131_j53901839564972_2_alg».proof.Proof.Gen.Kernel.Points
import proofs.«129131_j53901839564972_2_alg».proof.Proof.FrameK1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a diagonal point of the last key tile (query tile 1, key tile 1: no reset, the accumulation and the output
    taken): from the scratch buffers at the contents the point before left, all three and the output buffer end at the
    pieces the body's stores wrote. -/
noncomputable def kernelRunC (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i)
    (x0 x1 x2 : Vec F S1x1024x64 .f32) (xsM xsL : Vec F S1024x1 .f32) (xsA : Vec F S1024x64 .f32) :
    Σ' (LO : List (View.Piece (Elt F) S1x1024x64 .f32)) (LM : List (View.Piece (Elt F) S1024x1 .f32)) (LL : List (View.Piece (Elt F) S1024x1 .f32)), { LA : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    iexists _; iexact H6

end Cert.Kernel.Fr1

end
-- ==== Proof.FrameK1.lean ====
import proofs.«129131_j53901839564972_2_alg».proof.Proof.Gen.Kernel.Launch
import proofs.«129131_j53901839564972_2_alg».proof.Proof.Gen.Kernel.Skeleton
import proofs.«129131_j53901839564972_2_alg».proof.Proof.Gen.Kernel.Points
import proofs.«129131_j53901839564972_2_alg».proof.Proof.FrameK1RunA
import proofs.«129131_j53901839564972_2_alg».proof.Proof.FrameK1RunB
import proofs.«129131_j53901839564972_2_alg».proof.Proof.FrameK1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave: the pieces cover their buffers, and the contents they read back as -/

theorem scoverA_M (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) (y : S1024x1.Idx) :
    ∃ pc ∈ (kernelRunA c i arg3 harg3 arg4 harg4 arg5 harg5 arg6 harg6 arg7 harg7 arg8 harg8 arg9 harg9 hc0 hc1 hc2 x0 x1 x2).1, y ∈ pc.1.set :=
  View.cover_of_tiledL (kernelRunA c i arg3 harg3 arg4 harg4 arg5 harg5 arg6 harg6 arg7 harg7 arg8 harg8 arg9 harg9 hc0 hc1 hc2 x0 x1 x2).1 S1024x1.size (by sl_kernel_rfl) y
theorem scoverA_L (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) (y : S1024x1.Idx) :
    ∃ pc ∈ (kernelRunA c i arg3 harg3 arg4 harg4 arg5 harg5 arg6 harg6 arg7 harg7 arg8 harg8 arg9 harg9 hc0 hc1 hc2 x0 x1 x2).2.1, y ∈ pc.1.set :=
  View.cover_of_tiledL (kernelRunA c i arg3 harg3 arg4 harg4 arg5 harg5 arg6 harg6 arg7 harg7 arg8 harg8 arg9 harg9 hc0 hc1 hc2 x0 x1 x2).2.1 S1024x1.size (by sl_kernel_rfl) y
theorem scoverA_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) (y : S1024x64.Idx) :
    ∃ pc ∈ (kernelRunA c i arg3 harg3 arg4 harg4 arg5 harg5 arg6 harg6 arg7 harg7 arg8 harg8 arg9 harg9 hc0 hc1 hc2 x0 x1 x2).2.2.1, y ∈ pc.1.set :=
  View.cover_of_tiledL (kernelRunA c i arg3 harg3 arg4 harg4 arg5 harg5 arg6 harg6 arg7 harg7 arg8 harg8 arg9 harg9 hc0 hc1 hc2 x0 x1 x2).2.2.1 S1024x64.size (by sl_kernel_rfl) y
theorem coverB_O (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : ¬condStep i) (hc2 : condOut i) (x0 x1 x2 : Vec F S1x1024x64 .f32) (xsM xsL : Vec F S1024x1 .f32) (xsA : Vec F S1024x64 .f32) (y : S1x1024x64.Idx) :
    ∃ pc ∈ (kernelRunB c i arg3 harg3 arg4 harg4 arg5 harg5 arg6 harg6 arg7 harg7 arg8 harg8 arg9 harg9 hc0 hc1 hc2 x0 x1 x2 xsM xsL xsA).1, y ∈ pc.1.set :=
  View.cover_of_tiledL (kernelRunB c i arg3 harg3 arg4 harg4 arg5 harg5 arg6 harg6 arg7 harg7 arg8 harg8 arg9 harg9 hc0 hc1 hc2 x0 x1 x2 xsM xsL xsA).1 S1x1024x64.size (by sl_kernel_rfl) y
theorem coverC_O (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) (y : S1x1024x64.Idx) :
    ∃ pc ∈ (kernelRunC c i arg3 harg3 arg4 harg4 arg5 harg5 arg6 harg6 arg7 harg7 arg8 harg8 arg9 harg9 hc0 hc1 hc2 x0 x1 x2 xsM xsL xsA).1, y ∈ pc.1.set :=
  View.cover_of_tiledL (kernelRunC c i arg3 harg3 arg4 harg4 arg5 harg5 arg6 harg6 arg7 harg7 arg8 harg8 arg9 harg9 hc0 hc1 hc2 x0 x1 x2 xsM xsL xsA).1 S1x1024x64.size (by sl_kernel_rfl) y
theorem scoverC_M (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) (y : S1024x1.Idx) :
    ∃ pc ∈ (kernelRunC c i arg3 harg3 arg4 harg4 arg5 harg5 arg6 harg6 arg7 harg7 arg8 harg8 arg9 harg9 hc0 hc1 hc2 x0 x1 x2 xsM xsL xsA).2.1, y ∈ pc.1.set :=
  View.cover_of_tiledL (kernelRunC c i arg3 harg3 arg4 harg4 arg5 harg5 arg6 harg6 arg7 harg7 arg8 harg8 arg9 harg9 hc0 hc1 hc2 x0 x1 x2 xsM xsL xsA).2.1 S1024x1.size (by sl_kernel_rfl) y
theorem scoverC_L (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) (y : S1024x1.Idx) :
    ∃ pc ∈ (kernelRunC c i arg3 harg3 arg4 harg4 arg5 harg5 arg6 harg6 arg7 harg7 arg8 harg8 arg9 harg9 hc0 hc1 hc2 x0 x1 x2 xsM xsL xsA).2.2.1, y ∈ pc.1.set :=
  View.cover_of_tiledL (kernelRunC c i arg3 harg3 arg4 harg4 arg5 harg5 arg6 harg6 arg7 harg7 arg8 harg8 arg9 harg9 hc0 hc1 hc2 x0 x1 x2 xsM xsL xsA).2.2.1 S1024x1.size (by sl_kernel_rfl) y
theorem scoverC_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) (y : S1024x64.Idx) :
    ∃ pc ∈ (kernelRunC c i arg3 harg3 arg4 harg4 arg5 harg5 arg6 harg6 arg7 harg7 arg8 harg8 arg9 harg9 hc0 hc1 hc2 x0 x1 x2 xsM xsL xsA).2.2.2.1, y ∈ pc.1.set :=
  View.cover_of_tiledL (kernelRunC c i arg3 harg3 arg4 harg4 arg5 harg5 arg6 harg6 arg7 harg7 arg8 harg8 arg9 harg9 hc0 hc1 hc2 x0 x1 x2 xsM xsL xsA).2.2.2.1 S1024x64.size (by sl_kernel_rfl) y

def soutA_M (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) : Vec F S1024x1 .f32 :=
  VSM.read (Elt F) (VSM.writes (Elt F) VSM.junk (kernelRunA c i arg3 harg3 arg4 harg4 arg5 harg5 arg6 harg6 arg7 harg7 arg8 harg8 arg9 harg9 hc0 hc1 hc2 x0 x1 x2).1)
def soutA_L (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) : Vec F S1024x1 .f32 :=
  VSL.read (Elt F) (VSL.writes (Elt F) VSL.junk (kernelRunA c i arg3 harg3 arg4 harg4 arg5 harg5 arg6 harg6 arg7 harg7 arg8 harg8 arg9 harg9 hc0 hc1 hc2 x0 x1 x2).2.1)
def soutA_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) : Vec F S1024x64 .f32 :=
  VSA.read (Elt F) (VSA.writes (Elt F) VSA.junk (kernelRunA c i arg3 harg3 arg4 harg4 arg5 harg5 arg6 harg6 arg7 harg7 arg8 harg8 arg9 harg9 hc0 hc1 hc2 x0 x1 x2).2.2.1)
def outB_O (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : ¬condStep i) (hc2 : condOut i) (x0 x1 x2 : Vec F S1x1024x64 .f32) (xsM xsL : Vec F S1024x1 .f32) (xsA : Vec F S1024x64 .f32) : Vec F S1x1024x64 .f32 :=
  VO.read (Elt F) (VO.writes (Elt F) VO.junk (kernelRunB c i arg3 harg3 arg4 harg4 arg5 harg5 arg6 harg6 arg7 harg7 arg8 harg8 arg9 harg9 hc0 hc1 hc2 x0 x1 x2 xsM xsL xsA).1)
def outC_O (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) : Vec F S1x1024x64 .f32 :=
  VO.read (Elt F) (VO.writes (Elt F) VO.junk (kernelRunC c i arg3 harg3 arg4 harg4 arg5 harg5 arg6 harg6 arg7 harg7 arg8 harg8 arg9 harg9 hc0 hc1 hc2 x0 x1 x2 xsM xsL xsA).1)
def soutC_M (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) : Vec F S1024x1 .f32 :=
  VSM.read (Elt F) (VSM.writes (Elt F) VSM.junk (kernelRunC c i arg3 harg3 arg4 harg4 arg5 harg5 arg6 harg6 arg7 harg7 arg8 harg8 arg9 harg9 hc0 hc1 hc2 x0 x1 x2 xsM xsL xsA).2.1)
def soutC_L (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) : Vec F S1024x1 .f32 :=
  VSL.read (Elt F) (VSL.writes (Elt F) VSL.junk (kernelRunC c i arg3 harg3 arg4 harg4 arg5 harg5 arg6 harg6 arg7 harg7 arg8 harg8 arg9 harg9 hc0 hc1 hc2 x0 x1 x2 xsM xsL xsA).2.2.1)
def soutC_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) : Vec F S1024x64 .f32 :=
  VSA.read (Elt F) (VSA.writes (Elt F) VSA.junk (kernelRunC c i arg3 harg3 arg4 harg4 arg5 harg5 arg6 harg6 arg7 harg7 arg8 harg8 arg9 harg9 hc0 hc1 hc2 x0 x1 x2 xsM xsL xsA).2.2.2.1)

/-! ## What the scratch buffers and the output buffer hold after each point -/

/-- After a point of key tile 0: the reset state with the point's tile added (a function of the point's blocks alone). -/
def caseA (c : Dev nD) (t : Fin cfg1.N) (h0 : t.val % 2 = 0) : Vec F S1024x1 .f32 × Vec F S1024x1 .f32 × Vec F S1024x64 .f32 :=
  (soutA_M c (grid1.coords t) (ms0 t) (hs0 t) (ms1 t) (hs1 t) (ms2 t) (hs2 t) (ms3 t) (hs3 t) scM (Memref.isWhole_whole _) scL (Memref.isWhole_whole _) scA (Memref.isWhole_whole _) ((hcondReset t).mpr h0) ((hcondStep t).mpr (by omega)) (fun h => by have := (hcondOut t).mp h; omega) (iblk V c 0 t) (iblk V c 1 t) (iblk V c 2 t),
   soutA_L c (grid1.coords t) (ms0 t) (hs0 t) (ms1 t) (hs1 t) (ms2 t) (hs2 t) (ms3 t) (hs3 t) scM (Memref.isWhole_whole _) scL (Memref.isWhole_whole _) scA (Memref.isWhole_whole _) ((hcondReset t).mpr h0) ((hcondStep t).mpr (by omega)) (fun h => by have := (hcondOut t).mp h; omega) (iblk V c 0 t) (iblk V c 1 t) (iblk V c 2 t),
   soutA_A c (grid1.coords t) (ms0 t) (hs0 t) (ms1 t) (hs1 t) (ms2 t) (hs2 t) (ms3 t) (hs3 t) scM (Memref.isWhole_whole _) scL (Memref.isWhole_whole _) scA (Memref.isWhole_whole _) ((hcondReset t).mpr h0) ((hcondStep t).mpr (by omega)) (fun h => by have := (hcondOut t).mp h; omega) (iblk V c 0 t) (iblk V c 1 t) (iblk V c 2 t))

/-- After a diagonal point of key tile 1: the state `xs` the point before left with the point's tile added. -/
def caseC (c : Dev nD) (t : Fin cfg1.N) (h3 : t.val % 4 = 3) (xs : Vec F S1024x1 .f32 × Vec F S1024x1 .f32 × Vec F S1024x64 .f32) : Vec F S1024x1 .f32 × Vec F S1024x1 .f32 × Vec F S1024x64 .f32 :=
  (soutC_M c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) ((hcondStep t).mpr (by omega)) ((hcondOut t).mpr (by omega)) (iblk V c 0 t) (iblk V c 1 t) (iblk V c 2 t) xs.1 xs.2.1 xs.2.2,
   soutC_L c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) ((hcondStep t).mpr (by omega)) ((hcondOut t).mpr (by omega)) (iblk V c 0 t) (iblk V c 1 t) (iblk V c 2 t) xs.1 xs.2.1 xs.2.2,
   soutC_A c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) ((hcondStep t).mpr (by omega)) ((hcondOut t).mpr (by omega)) (iblk V c 0 t) (iblk V c 1 t) (iblk V c 2 t) xs.1 xs.2.1 xs.2.2)

/-- The output block stored at a point above the diagonal, from the state `xs` the point before left. -/
def outB (c : Dev nD) (t : Fin cfg1.N) (h1 : t.val % 4 = 1) (xs : Vec F S1024x1 .f32 × Vec F S1024x1 .f32 × Vec F S1024x64 .f32) : Vec F S1x1024x64 .f32 :=
  outB_O c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) (fun h => ((hcondStep t).mp h) h1) ((hcondOut t).mpr (by omega)) (iblk V c 0 t) (iblk V c 1 t) (iblk V c 2 t) xs.1 xs.2.1 xs.2.2

/-- The output block stored at a diagonal point of key tile 1. -/
def outC (c : Dev nD) (t : Fin cfg1.N) (h3 : t.val % 4 = 3) (xs : Vec F S1024x1 .f32 × Vec F S1024x1 .f32 × Vec F S1024x64 .f32) : Vec F S1x1024x64 .f32 :=
  outC_O c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) ((hcondStep t).mpr (by omega)) ((hcondOut t).mpr (by omega)) (iblk V c 0 t) (iblk V c 1 t) (iblk V c 2 t) xs.1 xs.2.1 xs.2.2

/-- THE RUNNING STATE: what the three scratch buffers hold after the body at position `n`. -/
def scAt (c : Dev nD) : (n : ℕ) → n < cfg1.N → Vec F S1024x1 .f32 × Vec F S1024x1 .f32 × Vec F S1024x64 .f32
  | 0, hn => caseA V c ⟨0, hn⟩ (Nat.zero_mod 2)
  | n + 1, hn =>
    if h0 : (n + 1) % 2 = 0 then caseA V c ⟨n + 1, hn⟩ h0
    else if h1 : (n + 1) % 4 = 1 then scAt c n (Nat.lt_of_succ_lt hn)
    else caseC V c ⟨n + 1, hn⟩ (by show (n + 1) % 4 = 3; omega) (scAt c n (Nat.lt_of_succ_lt hn))

theorem scAt_A (c : Dev nD) (t : Fin cfg1.N) (h0 : t.val % 2 = 0) : scAt V c t.val t.isLt = caseA V c t h0 := by
  obtain ⟨n, hn⟩ := t
  cases n with
  | zero => exact rfl
  | succ n => exact (dif_pos h0).trans rfl

theorem scAt_B (c : Dev nD) (t : Fin cfg1.N) (h1 : t.val % 4 = 1) :
    scAt V c t.val t.isLt = scAt V c (t.val - 1) (Nat.lt_of_le_of_lt (Nat.sub_le _ _) t.isLt) := by
  obtain ⟨n, hn⟩ := t
  cases n with
  | zero => exact (by exfalso; (try dsimp only at h1); omega)
  | succ n => exact (dif_neg (by dsimp only at h1; omega)).trans ((dif_pos h1).trans rfl)

theorem scAt_C (c : Dev nD) (t : Fin cfg1.N) (h3 : t.val % 4 = 3) :
    scAt V c t.val t.isLt = caseC V c t h3 (scAt V c (t.val - 1) (Nat.lt_of_le_of_lt (Nat.sub_le _ _) t.isLt)) := by
  obtain ⟨n, hn⟩ := t
  cases n with
  | zero => exact (by exfalso; (try dsimp only at h3); omega)
  | succ n => exact (dif_neg (by dsimp only at h3; omega)).trans ((dif_neg (by dsimp only at h3; omega)).trans rfl)

/-- What the output window's buffer holds after the body at `t`: at a point of key tile 1 the stored quotient; at a point
    of key tile 0 the window is idle and nothing is claimed. -/
def outAt (c : Dev nD) (t : Fin cfg1.N) : Vec F S1x1024x64 .f32 :=
  if h0 : t.val % 2 = 0 then VO.read (Elt F) VO.junk
  else if h1 : t.val % 4 = 1 then outB V c t h1 (scAt V c (t.val - 1) (Nat.lt_of_le_of_lt (Nat.sub_le _ _) t.isLt))
  else outC V c t (by omega) (scAt V c (t.val - 1) (Nat.lt_of_le_of_lt (Nat.sub_le _ _) t.isLt))

theorem outAt_B (c : Dev nD) (t : Fin cfg1.N) (h1 : t.val % 4 = 1) :
    outAt V c t = outB V c t h1 (scAt V c (t.val - 1) (Nat.lt_of_le_of_lt (Nat.sub_le _ _) t.isLt)) := by
  unfold outAt; rw [dif_neg (by omega), dif_pos h1]
theorem outAt_C (c : Dev nD) (t : Fin cfg1.N) (h3 : t.val % 4 = 3) :
    outAt V c t = outC V c t h3 (scAt V c (t.val - 1) (Nat.lt_of_le_of_lt (Nat.sub_le _ _) t.isLt)) := by
  unfold outAt; rw [dif_neg (by omega), dif_neg (by omega)]

/-! ## The invariant: the scratch buffers at the running state -/

def PhiS (c : Dev nD) : (n : ℕ) → n ≤ cfg1.N → sProp 𝕄
  | 0, _ => Pipeline.ΦA spec1 c
  | n + 1, hn => iprop(otherStaging c ∗ owns (c : Thread nD τ) scM fullShare (scAt V c n hn).1 ∗ owns (c : Thread nD τ) scL fullShare (scAt V c n hn).2.1
      ∗ owns (c : Thread nD τ) scA fullShare (scAt V c n hn).2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(otherStaging c ∗ owns (c : Thread nD τ) scM fullShare (scAt V c n hn).1 ∗ owns (c : Thread nD τ) scL fullShare (scAt V c n hn).2.1
      ∗ owns (c : Thread nD τ) scA fullShare (scAt V c n hn).2.2 ∗ (∃ r, prngReg c r)) := rfl

theorem PhiS_pos (c : Dev nD) (n : ℕ) (h : n ≤ cfg1.N) (hz : n ≠ 0) :
    PhiS V c n h = iprop(otherStaging c ∗ owns (c : Thread nD τ) scM fullShare (scAt V c (n - 1) (by omega)).1 ∗ owns (c : Thread nD τ) scL fullShare (scAt V c (n - 1) (by omega)).2.1
      ∗ owns (c : Thread nD τ) scA fullShare (scAt V c (n - 1) (by omega)).2.2 ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-- At a live window the body's post is the buffer at `after`. -/
theorem leaves0 (c : Dev nD) (t : Fin cfg1.N) : (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt0 t]]
  rw [after0]
theorem leaves1 (c : Dev nD) (t : Fin cfg1.N) : (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt1 t]]
  rw [after1]
theorem leaves2 (c : Dev nD) (t : Fin cfg1.N) : (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt2 t]]
  rw [after2]
theorem leaves3 (c : Dev nD) (t : Fin cfg1.N) (h : condOut (grid1.coords t)) : (dat V c).leavesExact 3 t = owns (c : Thread nD τ) (ms3 t) fullShare (outAt V c t) := by
  rw [show (dat V c).leavesExact 3 t = owns (c : Thread nD τ) (ms3 t) fullShare ((dat V c).after 3 t) from by
    unfold Dat.leavesExact; rw [liveAt3 t h]]
  rw [after3]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 8000000 in
/-- The body at any point: the inputs' memrefs hold their blocks; the closed forms say which of the three cases the point
    is in; the invariant hands the body the scratch buffers at the running state (at anything before the first point) and
    takes them back at the next. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 2 = 0
  · rw [leaves0, leaves1, leaves2]
    rw [Dat.leavesExact_idle (dat V c) 3 t (idleAt3 t (fun h => by have := (hcondOut t).mp h; omega)) (noFlush3 t (fun h => by have := (hcondOut t).mp h; omega))]
    rw [scAt_A V c t h0]
    unfold caseA soutA_M soutA_L soutA_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨HR, HS0, HS1, HS2, Hg⟩
      iapply ((kernelRunA c (grid1.coords t) _ _ _ _ _ _ _ _ _ _ _ _ _ _ ((hcondReset t).mpr h0) ((hcondStep t).mpr (by omega)) (fun h => by have := (hcondOut t).mp h; omega) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scoverA_M c _ _ _ _ _ _ _ _ _ _ _ _ _ _ _ _ _ _ _ _ _)
        isplitl [HS1]
        · unfold owns; iexists _; isplitr
          swap; · iexact HS1
          ipureintro; exact View.read_writes_of_cover _ _ _ _ _ (scoverA_L c _ _ _ _ _ _ _ _ _ _ _ _ _ _ _ _ _ _ _ _ _)
        isplitl [HS2]
        · unfold owns; iexists _; isplitr
          swap; · iexact HS2
          ipureintro; exact View.read_writes_of_cover _ _ _ _ _ (scoverA_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩⟩
      iapply ((kernelRunA c (grid1.coords t) _ _ _ _ _ _ _ _ _ _ _ _ _ _ ((hcondReset t).mpr h0) ((hcondStep t).mpr (by omega)) (fun h => by have := (hcondOut t).mp h; omega) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scoverA_M c _ _ _ _ _ _ _ _ _ _ _ _ _ _ _ _ _ _ _ _ _)
        isplitl [HS1]
        · unfold owns; iexists _; isplitr
          swap; · iexact HS1
          ipureintro; exact View.read_writes_of_cover _ _ _ _ _ (scoverA_L c _ _ _ _ _ _ _ _ _ _ _ _ _ _ _ _ _ _ _ _ _)
        isplitl [HS2]
        · unfold owns; iexists _; isplitr
          swap; · iexact HS2
          ipureintro; exact View.read_writes_of_cover _ _ _ _ _ (scoverA_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    rw [leaves0, leaves1, leaves2]
    rw [leaves3 V c t ((hcondOut t).mpr (by omega))]
    rw [PhiS_castSucc V c t, PhiS_pos V c _ _ hz]
    by_cases h1 : t.val % 4 = 1
    · rw [scAt_B V c t h1, outAt_B V c t h1]
      unfold outB outB_O; (try dsimp only)
      iintro ⟨⟨HR, HS0, HS1, HS2, Hg⟩, Ho, ⟨%d0, H0⟩, ⟨%d1, H1⟩, ⟨%d2, H2⟩, ⟨%d3, H3⟩⟩
      iapply ((kernelRunB c (grid1.coords t) _ _ _ _ _ _ _ _ _ _ _ _ _ _ (fun h => by have := (hcondReset t).mp h; omega) (fun h => ((hcondStep t).mp h) h1) ((hcondOut t).mpr (by omega)) (iblk V c 0 t) (iblk V c 1 t) (iblk V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_O c _ _ _ _ _ _ _ _ _ _ _ _ _ _ _ _ _ _ _ _ _ _ _ _)
    · have h3 : t.val % 4 = 3 := by omega
      rw [scAt_C V c t h3, outAt_C V c t h3]
      unfold caseC outC outC_O soutC_M soutC_L soutC_A; (try dsimp only)
      iintro ⟨⟨HR, HS0, HS1, HS2, Hg⟩, Ho, ⟨%d0, H0⟩, ⟨%d1, H1⟩, ⟨%d2, H2⟩, ⟨%d3, H3⟩⟩
      iapply ((kernelRunC c (grid1.coords t) _ _ _ _ _ _ _ _ _ _ _ _ _ _ (fun h => by have := (hcondReset t).mp h; omega) ((hcondStep t).mpr (by omega)) ((hcondOut t).mpr (by omega)) (iblk V c 0 t) (iblk V c 1 t) (iblk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scoverC_M c _ _ _ _ _ _ _ _ _ _ _ _ _ _ _ _ _ _ _ _ _ _ _ _)
        isplitl [HS1]
        · unfold owns; iexists _; isplitr
          swap; · iexact HS1
          ipureintro; exact View.read_writes_of_cover _ _ _ _ _ (scoverC_L c _ _ _ _ _ _ _ _ _ _ _ _ _ _ _ _ _ _ _ _ _ _ _ _)
        isplitl [HS2]
        · unfold owns; iexists _; isplitr
          swap; · iexact HS2
          ipureintro; exact View.read_writes_of_cover _ _ _ _ _ (scoverC_A c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_O c _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives it back: the scratch buffers' named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  refine .trans ?_ (PhiA_join (F := F) c)
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

end Cert.Kernel.Fr1

end
-- ==== Proof.FrameK.lean ====
import proofs.«129131_j53901839564972_2_alg».proof.Proof.Gen.Kernel.Launch
import proofs.«129131_j53901839564972_2_alg».proof.Proof.Gen.Kernel.Skeleton
import proofs.«129131_j53901839564972_2_alg».proof.Proof.Gen.Kernel.Points
import proofs.«129131_j53901839564972_2_alg».proof.Proof.FrameK0
import proofs.«129131_j53901839564972_2_alg».proof.Proof.FrameK1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: the two regions in order

  The buffer contents at each region boundary: the launch memory; after the projection region its three output arrays at
  what its write-backs leave; after the attention region its output array at what its write-backs leave. -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection region. -/
def W1 (c : Dev nD) : Valuation τ sig (Elt F) :=
  Pipeline.withArrays spec0 c (W0 m ρ c) fun w => (Fr0.dat (V0 m ρ) c).arrAt w cfg0.N
theorem W1_arr (c : Dev nD) (w : Fin cfg0.W) :
    W1 m ρ c (Proc.devRef .tc (Pipeline.arrRef spec0 w)) = (Fr0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Fr0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the attention region. -/
def W2 (c : Dev nD) : Valuation τ sig (Elt F) :=
  Pipeline.withArrays spec1 c (W1 m ρ c) fun w => (Fr1.dat (V1 m ρ) c).arrAt w cfg1.N
theorem W2_arr (c : Dev nD) (w : Fin cfg1.W) :
    W2 m ρ c (Proc.devRef .tc (Pipeline.arrRef spec1 w)) = (Fr1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (Fr1.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched: the attention region does not touch them, the projection region only reads them -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((Fr0.dat (V0 m ρ) c).arrAt_in 0 rfl _).trans (Fr0.A_eq (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 3).trans (((Fr0.dat (V0 m ρ) c).arrAt_in 3 rfl _).trans (Fr0.A_eq (V0 m ρ) c 3))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 4).trans (((Fr0.dat (V0 m ρ) c).arrAt_in 4 rfl _).trans (Fr0.A_eq (V0 m ρ) c 4))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 1).trans (((Fr0.dat (V0 m ρ) c).arrAt_in 1 rfl _).trans (Fr0.A_eq (V0 m ρ) c 1))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 2).trans (((Fr0.dat (V0 m ρ) c).arrAt_in 2 rfl _).trans (Fr0.A_eq (V0 m ρ) c 2))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (W1_arr m ρ c 5).trans (((Fr0.dat (V0 m ρ) c).arrAt_in 5 rfl _).trans (Fr0.A_eq (V0 m ρ) c 5))
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (W1_arr m ρ c 6).trans (((Fr0.dat (V0 m ρ) c).arrAt_in 6 rfl _).trans (Fr0.A_eq (V0 m ρ) c 6))
    _ = m ((c : Thread nD τ).loc main_arg6) := rfl

/-- The result array ends at what the attention region's write-backs leave. -/
theorem W2_main_v1 (c : Dev nD) : W2 m ρ c (Proc.devRef .tc main_v1) = (Fr1.dat (V1 m ρ) c).arrAt 3 cfg1.N :=
  W2_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Fr0.dat (V0 m ρ) c
  | ⟨1, _⟩ => fun c => Fr1.dat (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state "every unscoped buffer at the boundary's contents, the generator register at some
    state, nothing owed": its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Fr0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Fr0.hin (V0 m ρ) c)
    unfold Pipeline.ΦA
    iintro ⟨Hp, -, Hr⟩
    isplitl [Hr]; · iexact Hr
    iexact Hp
  hout c := by
    refine (Fr0.hout (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fr1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Fr1.hin (V1 m ρ) c)
    unfold Pipeline.ΦA
    iintro ⟨Hp, -, Hr⟩
    isplitl [Hr]; · iexact Hr
    iexact Hp
  hout c := by
    refine (Fr1.hout (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ), .region (reg1 m ρ) ]

set_option backward.isDefEq.respectTransparency.types false in
/-- From any memory with zero counters every weakly fair execution of the program terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c)⟩) (run_all m ρ)

/-- The run with the result named: the result array at what the attention region's write-backs leave, the arguments as launched. -/
theorem run_value : θ_run defs (onTc (τ := τ) (main (F := F))) ⟨m, fun _ => 0, ρ⟩ (fun r => ∀ c : Dev nD,
      r.2.mem ((c.tc : Thread nD τ).loc main_v1) = (Fr1.dat (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v1 (by decide))).trans (W2_main_v1 m ρ c), (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c)⟩) (run_all m ρ)

end Cert.Kernel.Fr

end
-- ==== Proof.FrameI0.lean ====
import proofs.«129131_j53901839564972_2_alg».proof.Proof.Gen.KernelIdeal.Launch
import proofs.«129131_j53901839564972_2_alg».proof.Proof.Gen.KernelIdeal.Skeleton
import proofs.«129131_j53901839564972_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The projection kernel (the first region), at the contents `V` its region is entered from

  A grid point `(b, s)` stages one block of 1024 rows of `x` and the three weight matrices and bias vectors whole,
  and stores the three projected blocks.  Each stored block is one pure function of the staged inputs. -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (an unfetched window's block index has not moved). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (an unfetched window's block index has not moved). -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (an unfetched window's block index has not moved). -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (an unfetched window's block index has not moved). -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (an unfetched window's block index has not moved). -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (an unfetched window's block index has not moved). -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or not (an unfetched window's block index has not moved). -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S1x1024x1024 := Rect.unit (s := S1x1024x1024) ![0, 0, 0] S1x1024x1024.size inb_S1x1024x1024_S1x1024x1024_0_0_0
abbrev rW : Rect S64x1024 := Rect.unit (s := S64x1024) ![0, 0] S64x1024.size inb_S64x1024_S64x1024_0_0
abbrev rB : Rect S64 := Rect.unit (s := S64) ![0] S64.size inb_S64_S64_0
abbrev rO : Rect S1x1024x64 := Rect.unit (s := S1x1024x64) ![0, 0, 0] S1x1024x64.size inb_S1x1024x64_S1x1024x64_0_0_0

/-! ## What the body leaves in each output window's buffer -/

/-- The q block: the x block against the first staged matrix and bias. -/
def outQ (x0 : Vec F S1x1024x1024 .f32) (x1 : Vec F S64x1024 .f32) (x2 : Vec F S64 .f32) : Vec F S1x1024x64 .f32 :=
  View.canon [⟨rO, k0_pay4 (View.ld x0 rX) (View.ld x1 rW) (View.ld x2 rB)⟩]
/-- The k block: against the second. -/
def outK (x0 : Vec F S1x1024x1024 .f32) (x3 : Vec F S64x1024 .f32) (x4 : Vec F S64 .f32) : Vec F S1x1024x64 .f32 :=
  View.canon [⟨rO, k0_pay5 (View.ld x0 rX) (View.ld x3 rW) (View.ld x4 rB)⟩]
/-- The v block: against the third. -/
def outV (x0 : Vec F S1x1024x1024 .f32) (x5 : Vec F S64x1024 .f32) (x6 : Vec F S64 .f32) : Vec F S1x1024x64 .f32 :=
  View.canon [⟨rO, k0_pay1 (k0_pay3 (View.ld x0 rX) (View.ld x5 rW) (View.ld x6 rB))⟩]

/-- One whole-buffer store covers the buffer. -/
theorem coverO (p0 : Vec F S1x1024x64 .f32) (y : S1x1024x64.Idx) :
    ∃ pc ∈ ([⟨rO, p0⟩] : List (View.Piece (Elt F) S1x1024x64 .f32)), y ∈ pc.1.set :=
  View.cover_of_tiled [⟨rO, p0⟩] S1x1024x64.size (by rfl) y

/-! ## The body's triple -/

set_option maxHeartbeats 4000000 in
/-- On whole staging memrefs, the inputs' at contents `x·` and the outputs' at anything, the body runs to the
    continuation with the inputs' as they were and the three outputs' at the projected blocks. -/
theorem sound_kernel (c : Dev nD) (E : Set ℕ) (i : grid0.Coords)
    (arg2 : Memref sig .tc .vmem S1x1024x1024 .f32) (harg2 : arg2.IsWhole) (arg3 : Memref sig .tc .vmem S64x1024 .f32) (harg3 : arg3.IsWhole) (arg4 : Memref sig .tc .vmem S64 .f32) (harg4 : arg4.IsWhole) (arg5 : Memref sig .tc .vmem S64x1024 .f32) (harg5 : arg5.IsWhole) (arg6 : Memref sig .tc .vmem S64 .f32) (harg6 : arg6.IsWhole) (arg7 : Memref sig .tc .vmem S64x1024 .f32) (harg7 : arg7.IsWhole) (arg8 : Memref sig .tc .vmem S64 .f32) (harg8 : arg8.IsWhole) (arg9 : Memref sig .tc .vmem S1x1024x64 .f32) (harg9 : arg9.IsWhole) (arg10 : Memref sig .tc .vmem S1x1024x64 .f32) (harg10 : arg10.IsWhole) (arg11 : Memref sig .tc .vmem S1x1024x64 .f32) (harg11 : arg11.IsWhole)
    (x0 : Vec F S1x1024x1024 .f32) (x1 : Vec F S64x1024 .f32) (x2 : Vec F S64 .f32) (x3 : Vec F S64x1024 .f32) (x4 : Vec F S64 .f32) (x5 : Vec F S64x1024 .f32) (x6 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (outQ x0 x1 x2) ∗ owns (c : Thread nD τ) arg10 fullShare (outK x0 x3 x4) ∗ owns (c : Thread nD τ) arg11 fullShare (outV x0 x5 x6)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  isplitl [H8]
  · iexists _; isplitr
    swap; · iexact H8
    ipureintro
    exact View.read_writes_eq_canon _ _ _ (coverO _)
  iexists _; isplitr
  swap; · iexact H9
  ipureintro
  exact View.read_writes_eq_canon _ _ _ (coverO _)

/-! ## The pipeline's proof data -/

/-- The proof data of the projection pipeline on core `c`: the arrays as the region finds them; after the body at a point
    each input's buffer at its block and the three outputs' at the projected blocks of that point's input blocks; the
    invariant is the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outQ (iblk V c 0 t) (iblk V c 1 t) (iblk V c 2 t)
    | ⟨8, _⟩ => outK (iblk V c 0 t) (iblk V c 3 t) (iblk V c 4 t)
    | ⟨9, _⟩ => outV (iblk V c 0 t) (iblk V c 5 t) (iblk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = outQ (iblk V c 0 t) (iblk V c 1 t) (iblk V c 2 t) := by dsimp only [dat]
theorem after8 (c : Dev nD) (t : Fin cfg0.N) : (dat V c).after 8 t = outK (iblk V c 0 t) (iblk V c 3 t) (iblk V c 4 t) := by dsimp only [dat]
theorem after9 (c : Dev nD) (t : Fin cfg0.N) : (dat V c).after 9 t = outV (iblk V c 0 t) (iblk V c 5 t) (iblk V c 6 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d
theorem before6 (c : Dev nD) (t : Fin cfg0.N) (d) : (dat V c).before 6 t d = iblk V c 6 t :=
  before6_of V (dat V c) (A_eq V c 6) (after6 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 2000000 in
/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, -/
theorem hin (c : Dev nD) : Pipeline.ΦA spec0 c ⊢ (dat V c).Φ 0 := .rfl
/-- and after the last. -/
theorem hout (c : Dev nD) : (dat V c).Φ (Fin.last cfg0.N) ⊢ Pipeline.ΦA spec0 c := .rfl

end Cert.KernelIdeal.Fr0

end
-- ==== Proof.FrameI1a.lean ====
import proofs.«129131_j53901839564972_2_alg».proof.Proof.Gen.KernelIdeal.Launch
import proofs.«129131_j53901839564972_2_alg».proof.Proof.Gen.KernelIdeal.Skeleton
import proofs.«129131_j53901839564972_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The attention kernel (the second region), at the contents `V` its region is entered from

  A grid point is `(b, i, j)`: batch `b`, query tile `i`, key tile `j` (point number `t = 4 b + 2 i + j`).  The body has
  three conditionals: at `j = 0` it resets the running maximum, denominator and numerator it keeps in three scratch
  buffers; when `j ≤ i` it adds tile `j` to them; at `j = 1` it stores numerator / denominator into the output block. -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (an unfetched window's block index has not moved). -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (an unfetched window's block index has not moved). -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (an unfetched window's block index has not moved). -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, in closed form over the point number -/

/-- "key tile 0": the reset branch. -/
abbrev condReset (i : grid1.Coords) : Prop := (Scalar.cmpi .ne (Scalar.extui (Scalar.cmpi .eq (BitVec.ofNat 32 (i 2).val) 0#32)) 0#32) = 1#1
theorem hcondReset : ∀ t : Fin cfg1.N, condReset (grid1.coords t) ↔ t.val % 2 = 0 :=
  (by decide +kernel : ∀ t : Fin grid1.N, condReset (grid1.coords t) ↔ t.val % 2 = 0)

/-- "key tile ≤ query tile": the accumulation branch. -/
abbrev condStep (i : grid1.Coords) : Prop := (Scalar.cmpi .ne (Scalar.extui (Scalar.cmpi .sle (BitVec.ofNat 32 (i 2).val) (BitVec.ofNat 32 (i 1).val))) 0#32) = 1#1
theorem hcondStep : ∀ t : Fin cfg1.N, condStep (grid1.coords t) ↔ ¬ t.val % 4 = 1 :=
  (by decide +kernel : ∀ t : Fin grid1.N, condStep (grid1.coords t) ↔ ¬ t.val % 4 = 1)

/-- "key tile 1 (the last)": the output branch. -/
abbrev condOut (i : grid1.Coords) : Prop := k1_cond3 i = 1#1
theorem hcondOut : ∀ t : Fin cfg1.N, condOut (grid1.coords t) ↔ t.val % 2 = 1 :=
  (by decide +kernel : ∀ t : Fin grid1.N, condOut (grid1.coords t) ↔ t.val % 2 = 1)

/-! ## Where the output window is idle -/

theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
/-- At a point that is not the last key tile the output window is idle (nothing is stored into it) -/
theorem idleAt3 : ∀ t : Fin cfg1.N, ¬condOut (grid1.coords t) → cfg1.idle 3 (grid1.coords t) = true := by decide +kernel
/-- and not written back. -/
theorem noFlush3 : ∀ t : Fin cfg1.N, ¬condOut (grid1.coords t) → (cfg1.win 3).flush t = false := by decide +kernel
/-- At the last key tile it is live. -/
theorem liveAt3 : ∀ t : Fin cfg1.N, condOut (grid1.coords t) → cfg1.idle 3 (grid1.coords t) = false := by decide +kernel

/-! ## The memrefs the body is called on -/

abbrev ms0 (t : Fin cfg1.N) : Memref sig .tc .vmem S1x1024x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x64 .f32 := win1_3.stage (cfg1.slots t 3)
abbrev hs3 (t : Fin cfg1.N) : (ms3 t).IsWhole := hstage1_3 ((cfg1.slots t 3).cast nbuf1_3)
/-- The three scratch operands: the running maximum, denominator and numerator. -/
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2
abbrev VO : View sig .tc .vmem S1x1024x64 .f32 := (Memref.whole cc1_stg3_0 : Memref sig .tc .vmem S1x1024x64 .f32).view
abbrev VSM : View sig .tc .vmem S1024x1 .f32 := scM.view
abbrev VSL : View sig .tc .vmem S1024x1 .f32 := scL.view
abbrev VSA : View sig .tc .vmem S1024x64 .f32 := scA.view

/-! ## The invariant's parts -/

/-- The other kernel's staging buffers, each whole at some contents: they ride through this region untouched. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- What the launch hands the region, with the three scratch buffers set apart. -/
theorem PhiA_split (c : Dev nD) :
    (Pipeline.ΦA spec1 c : sProp 𝕄) ⊢ iprop(otherStaging c ∗ (∃ d, owns (c : Thread nD τ) scM fullShare d) ∗ (∃ d, owns (c : Thread nD τ) scL fullShare d)
      ∗ (∃ d, owns (c : Thread nD τ) scA fullShare d) ∗ (∃ r, prngReg c r)) := by
  unfold Pipeline.ΦA otherStaging; rw [scopedRest1_eq]; simp only [scM, scL, scA, owns_whole]
  iintro ⟨⟨R0, R1, R2, R3, R4, R5, R6, R7, R8, R9, R10, R11, R12, R13, S0, S1, S2⟩, Hg⟩
  isplitl [R0 R1 R2 R3 R4 R5 R6 R7 R8 R9 R10 R11 R12 R13]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  isplitl [S0]; · iexact S0
  isplitl [S1]; · iexact S1
  isplitl [S2]; · iexact S2
  iexact Hg

/-- And back. -/
theorem PhiA_join (c : Dev nD) :
    iprop(otherStaging c ∗ (∃ d, owns (c : Thread nD τ) scM fullShare d) ∗ (∃ d, owns (c : Thread nD τ) scL fullShare d)
      ∗ (∃ d, owns (c : Thread nD τ) scA fullShare d) ∗ (∃ r, prngReg c r)) ⊢ (Pipeline.ΦA spec1 c : sProp 𝕄) := by
  unfold Pipeline.ΦA otherStaging; rw [scopedRest1_eq]; simp only [scM, scL, scA, owns_whole]
  iintro ⟨⟨R0, R1, R2, R3, R4, R5, R6, R7, R8, R9, R10, R11, R12, R13⟩, S0, S1, S2, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [S0]; · iexact S0
  isplitl [S1]; · iexact S1
  iexact S2

end Cert.KernelIdeal.Fr1

end
-- ==== Proof.FrameI1RunA.lean ====
import proofs.«129131_j53901839564972_2_alg».proof.Proof.Gen.KernelIdeal.Launch
import proofs.«129131_j53901839564972_2_alg».proof.Proof.Gen.KernelIdeal.Skeleton
import proofs.«129131_j53901839564972_2_alg».proof.Proof.Gen.KernelIdeal.Points
import proofs.«129131_j53901839564972_2_alg».proof.Proof.FrameI1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of key tile 0 (reset taken, accumulation taken, no output): on whole memrefs, the three input
    blocks at their contents, the output buffer handed back untouched, the scratch buffers at anything, it runs to the
    continuation with the three scratch buffers at the pieces its stores wrote (found by running it). -/
noncomputable def kernelRunA (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i)
    (x0 x1 x2 : Vec F S1x1024x64 .f32) :
    Σ' (LM : List (View.Piece (Elt F) S1024x1 .f32)) (LL : List (View.Piece (Elt F) S1024x1 .f32)), { LA : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact H6

end Cert.KernelIdeal.Fr1

end
-- ==== Proof.FrameI1RunB.lean ====
import proofs.«129131_j53901839564972_2_alg».proof.Proof.Gen.KernelIdeal.Launch
import proofs.«129131_j53901839564972_2_alg».proof.Proof.Gen.KernelIdeal.Skeleton
import proofs.«129131_j53901839564972_2_alg».proof.Proof.Gen.KernelIdeal.Points
import proofs.«129131_j53901839564972_2_alg».proof.Proof.FrameI1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point above the diagonal (query tile 0, key tile 1: no reset, no accumulation, the output taken): the
    scratch buffers at the contents the point before left are handed back as they were, and the output buffer ends at the
    pieces the body's store wrote. -/
noncomputable def kernelRunB (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : ¬condStep i) (hc2 : condOut i)
    (x0 x1 x2 : Vec F S1x1024x64 .f32) (xsM xsL : Vec F S1024x1 .f32) (xsA : Vec F S1024x64 .f32) :
    { LO : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ owns (c : Thread nD τ) arg7 fullShare xsM ∗ owns (c : Thread nD τ) arg8 fullShare xsL ∗ owns (c : Thread nD τ) arg9 fullShare xsA) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    isplitl [H5]
    · iexists _; isplitr; · ipureintro; exact harg8.read_unread _
      iexact H5
    iexists _; isplitr; · ipureintro; exact harg9.read_unread _
    iexact H6

end Cert.KernelIdeal.Fr1

end
-- ==== Proof.FrameI1RunC.lean ====
import proofs.«129131_j53901839564972_2_alg».proof.Proof.Gen.KernelIdeal.Launch
import proofs.«129131_j53901839564972_2_alg».proof.Proof.Gen.KernelIdeal.Skeleton
import proofs.«129131_j53901839564972_2_alg».proof.Proof.Gen.KernelIdeal.Points
import proofs.«129131_j53901839564972_2_alg».proof.Proof.FrameI1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a diagonal point of the last key tile (query tile 1, key tile 1: no reset, the accumulation and the output
    taken): from the scratch buffers at the contents the point before left, all three and the output buffer end at the
    pieces the body's stores wrote. -/
noncomputable def kernelRunC (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i)
    (x0 x1 x2 : Vec F S1x1024x64 .f32) (xsM xsL : Vec F S1024x1 .f32) (xsA : Vec F S1024x64 .f32) :
    Σ' (LO : List (View.Piece (Elt F) S1x1024x64 .f32)) (LM : List (View.Piece (Elt F) S1024x1 .f32)) (LL : List (View.Piece (Elt F) S1024x1 .f32)), { LA : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xsM ∗ owns (c : Thread nD τ) arg8 fullShare xsL ∗ owns (c : Thread nD τ) arg9 fullShare xsA
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2
    obtain rfl := harg7.eq_unread hf4; obtain rfl := harg8.eq_unread hf5; obtain rfl := harg9.eq_unread hf6
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [H5]; · iexists _; iexact H5
    iexists _; iexact H6

end Cert.KernelIdeal.Fr1

end
-- ==== Proof.FrameI1.lean ====
import proofs.«129131_j53901839564972_2_alg».proof.Proof.Gen.KernelIdeal.Launch
import proofs.«129131_j53901839564972_2_alg».proof.Proof.Gen.KernelIdeal.Skeleton
import proofs.«129131_j53901839564972_2_alg».proof.Proof.Gen.KernelIdeal.Points
import proofs.«129131_j53901839564972_2_alg».proof.Proof.FrameI1RunA
import proofs.«129131_j53901839564972_2_alg».proof.Proof.FrameI1RunB
import proofs.«129131_j53901839564972_2_alg».proof.Proof.FrameI1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case's stores leave: the pieces cover their buffers, and the contents they read back as -/

theorem scoverA_M (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) (y : S1024x1.Idx) :
    ∃ pc ∈ (kernelRunA c i arg3 harg3 arg4 harg4 arg5 harg5 arg6 harg6 arg7 harg7 arg8 harg8 arg9 harg9 hc0 hc1 hc2 x0 x1 x2).1, y ∈ pc.1.set :=
  View.cover_of_tiledL (kernelRunA c i arg3 harg3 arg4 harg4 arg5 harg5 arg6 harg6 arg7 harg7 arg8 harg8 arg9 harg9 hc0 hc1 hc2 x0 x1 x2).1 S1024x1.size (by sl_kernel_rfl) y
theorem scoverA_L (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) (y : S1024x1.Idx) :
    ∃ pc ∈ (kernelRunA c i arg3 harg3 arg4 harg4 arg5 harg5 arg6 harg6 arg7 harg7 arg8 harg8 arg9 harg9 hc0 hc1 hc2 x0 x1 x2).2.1, y ∈ pc.1.set :=
  View.cover_of_tiledL (kernelRunA c i arg3 harg3 arg4 harg4 arg5 harg5 arg6 harg6 arg7 harg7 arg8 harg8 arg9 harg9 hc0 hc1 hc2 x0 x1 x2).2.1 S1024x1.size (by sl_kernel_rfl) y
theorem scoverA_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) (y : S1024x64.Idx) :
    ∃ pc ∈ (kernelRunA c i arg3 harg3 arg4 harg4 arg5 harg5 arg6 harg6 arg7 harg7 arg8 harg8 arg9 harg9 hc0 hc1 hc2 x0 x1 x2).2.2.1, y ∈ pc.1.set :=
  View.cover_of_tiledL (kernelRunA c i arg3 harg3 arg4 harg4 arg5 harg5 arg6 harg6 arg7 harg7 arg8 harg8 arg9 harg9 hc0 hc1 hc2 x0 x1 x2).2.2.1 S1024x64.size (by sl_kernel_rfl) y
theorem coverB_O (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : ¬condStep i) (hc2 : condOut i) (x0 x1 x2 : Vec F S1x1024x64 .f32) (xsM xsL : Vec F S1024x1 .f32) (xsA : Vec F S1024x64 .f32) (y : S1x1024x64.Idx) :
    ∃ pc ∈ (kernelRunB c i arg3 harg3 arg4 harg4 arg5 harg5 arg6 harg6 arg7 harg7 arg8 harg8 arg9 harg9 hc0 hc1 hc2 x0 x1 x2 xsM xsL xsA).1, y ∈ pc.1.set :=
  View.cover_of_tiledL (kernelRunB c i arg3 harg3 arg4 harg4 arg5 harg5 arg6 harg6 arg7 harg7 arg8 harg8 arg9 harg9 hc0 hc1 hc2 x0 x1 x2 xsM xsL xsA).1 S1x1024x64.size (by sl_kernel_rfl) y
theorem coverC_O (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) (y : S1x1024x64.Idx) :
    ∃ pc ∈ (kernelRunC c i arg3 harg3 arg4 harg4 arg5 harg5 arg6 harg6 arg7 harg7 arg8 harg8 arg9 harg9 hc0 hc1 hc2 x0 x1 x2 xsM xsL xsA).1, y ∈ pc.1.set :=
  View.cover_of_tiledL (kernelRunC c i arg3 harg3 arg4 harg4 arg5 harg5 arg6 harg6 arg7 harg7 arg8 harg8 arg9 harg9 hc0 hc1 hc2 x0 x1 x2 xsM xsL xsA).1 S1x1024x64.size (by sl_kernel_rfl) y
theorem scoverC_M (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) (y : S1024x1.Idx) :
    ∃ pc ∈ (kernelRunC c i arg3 harg3 arg4 harg4 arg5 harg5 arg6 harg6 arg7 harg7 arg8 harg8 arg9 harg9 hc0 hc1 hc2 x0 x1 x2 xsM xsL xsA).2.1, y ∈ pc.1.set :=
  View.cover_of_tiledL (kernelRunC c i arg3 harg3 arg4 harg4 arg5 harg5 arg6 harg6 arg7 harg7 arg8 harg8 arg9 harg9 hc0 hc1 hc2 x0 x1 x2 xsM xsL xsA).2.1 S1024x1.size (by sl_kernel_rfl) y
theorem scoverC_L (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) (y : S1024x1.Idx) :
    ∃ pc ∈ (kernelRunC c i arg3 harg3 arg4 harg4 arg5 harg5 arg6 harg6 arg7 harg7 arg8 harg8 arg9 harg9 hc0 hc1 hc2 x0 x1 x2 xsM xsL xsA).2.2.1, y ∈ pc.1.set :=
  View.cover_of_tiledL (kernelRunC c i arg3 harg3 arg4 harg4 arg5 harg5 arg6 harg6 arg7 harg7 arg8 harg8 arg9 harg9 hc0 hc1 hc2 x0 x1 x2 xsM xsL xsA).2.2.1 S1024x1.size (by sl_kernel_rfl) y
theorem scoverC_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) (y : S1024x64.Idx) :
    ∃ pc ∈ (kernelRunC c i arg3 harg3 arg4 harg4 arg5 harg5 arg6 harg6 arg7 harg7 arg8 harg8 arg9 harg9 hc0 hc1 hc2 x0 x1 x2 xsM xsL xsA).2.2.2.1, y ∈ pc.1.set :=
  View.cover_of_tiledL (kernelRunC c i arg3 harg3 arg4 harg4 arg5 harg5 arg6 harg6 arg7 harg7 arg8 harg8 arg9 harg9 hc0 hc1 hc2 x0 x1 x2 xsM xsL xsA).2.2.2.1 S1024x64.size (by sl_kernel_rfl) y

def soutA_M (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) : Vec F S1024x1 .f32 :=
  VSM.read (Elt F) (VSM.writes (Elt F) VSM.junk (kernelRunA c i arg3 harg3 arg4 harg4 arg5 harg5 arg6 harg6 arg7 harg7 arg8 harg8 arg9 harg9 hc0 hc1 hc2 x0 x1 x2).1)
def soutA_L (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) : Vec F S1024x1 .f32 :=
  VSL.read (Elt F) (VSL.writes (Elt F) VSL.junk (kernelRunA c i arg3 harg3 arg4 harg4 arg5 harg5 arg6 harg6 arg7 harg7 arg8 harg8 arg9 harg9 hc0 hc1 hc2 x0 x1 x2).2.1)
def soutA_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) : Vec F S1024x64 .f32 :=
  VSA.read (Elt F) (VSA.writes (Elt F) VSA.junk (kernelRunA c i arg3 harg3 arg4 harg4 arg5 harg5 arg6 harg6 arg7 harg7 arg8 harg8 arg9 harg9 hc0 hc1 hc2 x0 x1 x2).2.2.1)
def outB_O (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : ¬condStep i) (hc2 : condOut i) (x0 x1 x2 : Vec F S1x1024x64 .f32) (xsM xsL : Vec F S1024x1 .f32) (xsA : Vec F S1024x64 .f32) : Vec F S1x1024x64 .f32 :=
  VO.read (Elt F) (VO.writes (Elt F) VO.junk (kernelRunB c i arg3 harg3 arg4 harg4 arg5 harg5 arg6 harg6 arg7 harg7 arg8 harg8 arg9 harg9 hc0 hc1 hc2 x0 x1 x2 xsM xsL xsA).1)
def outC_O (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) : Vec F S1x1024x64 .f32 :=
  VO.read (Elt F) (VO.writes (Elt F) VO.junk (kernelRunC c i arg3 harg3 arg4 harg4 arg5 harg5 arg6 harg6 arg7 harg7 arg8 harg8 arg9 harg9 hc0 hc1 hc2 x0 x1 x2 xsM xsL xsA).1)
def soutC_M (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) : Vec F S1024x1 .f32 :=
  VSM.read (Elt F) (VSM.writes (Elt F) VSM.junk (kernelRunC c i arg3 harg3 arg4 harg4 arg5 harg5 arg6 harg6 arg7 harg7 arg8 harg8 arg9 harg9 hc0 hc1 hc2 x0 x1 x2 xsM xsL xsA).2.1)
def soutC_L (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) : Vec F S1024x1 .f32 :=
  VSL.read (Elt F) (VSL.writes (Elt F) VSL.junk (kernelRunC c i arg3 harg3 arg4 harg4 arg5 harg5 arg6 harg6 arg7 harg7 arg8 harg8 arg9 harg9 hc0 hc1 hc2 x0 x1 x2 xsM xsL xsA).2.2.1)
def soutC_A (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) : Vec F S1024x64 .f32 :=
  VSA.read (Elt F) (VSA.writes (Elt F) VSA.junk (kernelRunC c i arg3 harg3 arg4 harg4 arg5 harg5 arg6 harg6 arg7 harg7 arg8 harg8 arg9 harg9 hc0 hc1 hc2 x0 x1 x2 xsM xsL xsA).2.2.2.1)

/-! ## What the scratch buffers and the output buffer hold after each point -/

/-- After a point of key tile 0: the reset state with the point's tile added (a function of the point's blocks alone). -/
def caseA (c : Dev nD) (t : Fin cfg1.N) (h0 : t.val % 2 = 0) : Vec F S1024x1 .f32 × Vec F S1024x1 .f32 × Vec F S1024x64 .f32 :=
  (soutA_M c (grid1.coords t) (ms0 t) (hs0 t) (ms1 t) (hs1 t) (ms2 t) (hs2 t) (ms3 t) (hs3 t) scM (Memref.isWhole_whole _) scL (Memref.isWhole_whole _) scA (Memref.isWhole_whole _) ((hcondReset t).mpr h0) ((hcondStep t).mpr (by omega)) (fun h => by have := (hcondOut t).mp h; omega) (iblk V c 0 t) (iblk V c 1 t) (iblk V c 2 t),
   soutA_L c (grid1.coords t) (ms0 t) (hs0 t) (ms1 t) (hs1 t) (ms2 t) (hs2 t) (ms3 t) (hs3 t) scM (Memref.isWhole_whole _) scL (Memref.isWhole_whole _) scA (Memref.isWhole_whole _) ((hcondReset t).mpr h0) ((hcondStep t).mpr (by omega)) (fun h => by have := (hcondOut t).mp h; omega) (iblk V c 0 t) (iblk V c 1 t) (iblk V c 2 t),
   soutA_A c (grid1.coords t) (ms0 t) (hs0 t) (ms1 t) (hs1 t) (ms2 t) (hs2 t) (ms3 t) (hs3 t) scM (Memref.isWhole_whole _) scL (Memref.isWhole_whole _) scA (Memref.isWhole_whole _) ((hcondReset t).mpr h0) ((hcondStep t).mpr (by omega)) (fun h => by have := (hcondOut t).mp h; omega) (iblk V c 0 t) (iblk V c 1 t) (iblk V c 2 t))

/-- After a diagonal point of key tile 1: the state `xs` the point before left with the point's tile added. -/
def caseC (c : Dev nD) (t : Fin cfg1.N) (h3 : t.val % 4 = 3) (xs : Vec F S1024x1 .f32 × Vec F S1024x1 .f32 × Vec F S1024x64 .f32) : Vec F S1024x1 .f32 × Vec F S1024x1 .f32 × Vec F S1024x64 .f32 :=
  (soutC_M c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) ((hcondStep t).mpr (by omega)) ((hcondOut t).mpr (by omega)) (iblk V c 0 t) (iblk V c 1 t) (iblk V c 2 t) xs.1 xs.2.1 xs.2.2,
   soutC_L c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) ((hcondStep t).mpr (by omega)) ((hcondOut t).mpr (by omega)) (iblk V c 0 t) (iblk V c 1 t) (iblk V c 2 t) xs.1 xs.2.1 xs.2.2,
   soutC_A c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) ((hcondStep t).mpr (by omega)) ((hcondOut t).mpr (by omega)) (iblk V c 0 t) (iblk V c 1 t) (iblk V c 2 t) xs.1 xs.2.1 xs.2.2)

/-- The output block stored at a point above the diagonal, from the state `xs` the point before left. -/
def outB (c : Dev nD) (t : Fin cfg1.N) (h1 : t.val % 4 = 1) (xs : Vec F S1024x1 .f32 × Vec F S1024x1 .f32 × Vec F S1024x64 .f32) : Vec F S1x1024x64 .f32 :=
  outB_O c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) (fun h => ((hcondStep t).mp h) h1) ((hcondOut t).mpr (by omega)) (iblk V c 0 t) (iblk V c 1 t) (iblk V c 2 t) xs.1 xs.2.1 xs.2.2

/-- The output block stored at a diagonal point of key tile 1. -/
def outC (c : Dev nD) (t : Fin cfg1.N) (h3 : t.val % 4 = 3) (xs : Vec F S1024x1 .f32 × Vec F S1024x1 .f32 × Vec F S1024x64 .f32) : Vec F S1x1024x64 .f32 :=
  outC_O c (grid1.coords t) (ms0 t) (hs0 t) (ms1 t) (hs1 t) (ms2 t) (hs2 t) (ms3 t) (hs3 t) scM (Memref.isWhole_whole _) scL (Memref.isWhole_whole _) scA (Memref.isWhole_whole _) (fun h => by have := (hcondReset t).mp h; omega) ((hcondStep t).mpr (by omega)) ((hcondOut t).mpr (by omega)) (iblk V c 0 t) (iblk V c 1 t) (iblk V c 2 t) xs.1 xs.2.1 xs.2.2

/-- THE RUNNING STATE: what the three scratch buffers hold after the body at position `n`. -/
def scAt (c : Dev nD) : (n : ℕ) → n < cfg1.N → Vec F S1024x1 .f32 × Vec F S1024x1 .f32 × Vec F S1024x64 .f32
  | 0, hn => caseA V c ⟨0, hn⟩ (Nat.zero_mod 2)
  | n + 1, hn =>
    if h0 : (n + 1) % 2 = 0 then caseA V c ⟨n + 1, hn⟩ h0
    else if h1 : (n + 1) % 4 = 1 then scAt c n (Nat.lt_of_succ_lt hn)
    else caseC V c ⟨n + 1, hn⟩ (by show (n + 1) % 4 = 3; omega) (scAt c n (Nat.lt_of_succ_lt hn))

theorem scAt_A (c : Dev nD) (t : Fin cfg1.N) (h0 : t.val % 2 = 0) : scAt V c t.val t.isLt = caseA V c t h0 := by
  obtain ⟨n, hn⟩ := t
  cases n with
  | zero => exact rfl
  | succ n => exact (dif_pos h0).trans rfl

theorem scAt_B (c : Dev nD) (t : Fin cfg1.N) (h1 : t.val % 4 = 1) :
    scAt V c t.val t.isLt = scAt V c (t.val - 1) (Nat.lt_of_le_of_lt (Nat.sub_le _ _) t.isLt) := by
  obtain ⟨n, hn⟩ := t
  cases n with
  | zero => exact (by exfalso; (try dsimp only at h1); omega)
  | succ n => exact (dif_neg (by dsimp only at h1; omega)).trans ((dif_pos h1).trans rfl)

theorem scAt_C (c : Dev nD) (t : Fin cfg1.N) (h3 : t.val % 4 = 3) :
    scAt V c t.val t.isLt = caseC V c t h3 (scAt V c (t.val - 1) (Nat.lt_of_le_of_lt (Nat.sub_le _ _) t.isLt)) := by
  obtain ⟨n, hn⟩ := t
  cases n with
  | zero => exact (by exfalso; (try dsimp only at h3); omega)
  | succ n => exact (dif_neg (by dsimp only at h3; omega)).trans ((dif_neg (by dsimp only at h3; omega)).trans rfl)

/-- What the output window's buffer holds after the body at `t`: at a point of key tile 1 the stored quotient; at a point
    of key tile 0 the window is idle and nothing is claimed. -/
def outAt (c : Dev nD) (t : Fin cfg1.N) : Vec F S1x1024x64 .f32 :=
  if h0 : t.val % 2 = 0 then VO.read (Elt F) VO.junk
  else if h1 : t.val % 4 = 1 then outB V c t h1 (scAt V c (t.val - 1) (Nat.lt_of_le_of_lt (Nat.sub_le _ _) t.isLt))
  else outC V c t (by omega) (scAt V c (t.val - 1) (Nat.lt_of_le_of_lt (Nat.sub_le _ _) t.isLt))

theorem outAt_B (c : Dev nD) (t : Fin cfg1.N) (h1 : t.val % 4 = 1) :
    outAt V c t = outB V c t h1 (scAt V c (t.val - 1) (Nat.lt_of_le_of_lt (Nat.sub_le _ _) t.isLt)) := by
  unfold outAt; rw [dif_neg (by omega), dif_pos h1]
theorem outAt_C (c : Dev nD) (t : Fin cfg1.N) (h3 : t.val % 4 = 3) :
    outAt V c t = outC V c t h3 (scAt V c (t.val - 1) (Nat.lt_of_le_of_lt (Nat.sub_le _ _) t.isLt)) := by
  unfold outAt; rw [dif_neg (by omega), dif_neg (by omega)]

/-! ## The invariant: the scratch buffers at the running state -/

def PhiS (c : Dev nD) : (n : ℕ) → n ≤ cfg1.N → sProp 𝕄
  | 0, _ => Pipeline.ΦA spec1 c
  | n + 1, hn => iprop(otherStaging c ∗ owns (c : Thread nD τ) scM fullShare (scAt V c n hn).1 ∗ owns (c : Thread nD τ) scL fullShare (scAt V c n hn).2.1
      ∗ owns (c : Thread nD τ) scA fullShare (scAt V c n hn).2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(otherStaging c ∗ owns (c : Thread nD τ) scM fullShare (scAt V c n hn).1 ∗ owns (c : Thread nD τ) scL fullShare (scAt V c n hn).2.1
      ∗ owns (c : Thread nD τ) scA fullShare (scAt V c n hn).2.2 ∗ (∃ r, prngReg c r)) := rfl

theorem PhiS_pos (c : Dev nD) (n : ℕ) (h : n ≤ cfg1.N) (hz : n ≠ 0) :
    PhiS V c n h = iprop(otherStaging c ∗ owns (c : Thread nD τ) scM fullShare (scAt V c (n - 1) (by omega)).1 ∗ owns (c : Thread nD τ) scL fullShare (scAt V c (n - 1) (by omega)).2.1
      ∗ owns (c : Thread nD τ) scA fullShare (scAt V c (n - 1) (by omega)).2.2 ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-- At a live window the body's post is the buffer at `after`. -/
theorem leaves0 (c : Dev nD) (t : Fin cfg1.N) : (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt0 t]]
  rw [after0]
theorem leaves1 (c : Dev nD) (t : Fin cfg1.N) : (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt1 t]]
  rw [after1]
theorem leaves2 (c : Dev nD) (t : Fin cfg1.N) : (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt2 t]]
  rw [after2]
theorem leaves3 (c : Dev nD) (t : Fin cfg1.N) (h : condOut (grid1.coords t)) : (dat V c).leavesExact 3 t = owns (c : Thread nD τ) (ms3 t) fullShare (outAt V c t) := by
  rw [show (dat V c).leavesExact 3 t = owns (c : Thread nD τ) (ms3 t) fullShare ((dat V c).after 3 t) from by
    unfold Dat.leavesExact; rw [liveAt3 t h]]
  rw [after3]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 8000000 in
/-- The body at any point: the inputs' memrefs hold their blocks; the closed forms say which of the three cases the point
    is in; the invariant hands the body the scratch buffers at the running state (at anything before the first point) and
    takes them back at the next. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 2 = 0
  · rw [leaves0, leaves1, leaves2]
    rw [Dat.leavesExact_idle (dat V c) 3 t (idleAt3 t (fun h => by have := (hcondOut t).mp h; omega)) (noFlush3 t (fun h => by have := (hcondOut t).mp h; omega))]
    rw [scAt_A V c t h0]
    unfold caseA soutA_M soutA_L soutA_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨HR, HS0, HS1, HS2, Hg⟩
      iapply ((kernelRunA c (grid1.coords t) _ _ _ _ _ _ _ _ _ _ _ _ _ _ ((hcondReset t).mpr h0) ((hcondStep t).mpr (by omega)) (fun h => by have := (hcondOut t).mp h; omega) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scoverA_M c _ _ _ _ _ _ _ _ _ _ _ _ _ _ _ _ _ _ _ _ _)
        isplitl [HS1]
        · unfold owns; iexists _; isplitr
          swap; · iexact HS1
          ipureintro; exact View.read_writes_of_cover _ _ _ _ _ (scoverA_L c _ _ _ _ _ _ _ _ _ _ _ _ _ _ _ _ _ _ _ _ _)
        isplitl [HS2]
        · unfold owns; iexists _; isplitr
          swap; · iexact HS2
          ipureintro; exact View.read_writes_of_cover _ _ _ _ _ (scoverA_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩⟩
      iapply ((kernelRunA c (grid1.coords t) _ _ _ _ _ _ _ _ _ _ _ _ _ _ ((hcondReset t).mpr h0) ((hcondStep t).mpr (by omega)) (fun h => by have := (hcondOut t).mp h; omega) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scoverA_M c _ _ _ _ _ _ _ _ _ _ _ _ _ _ _ _ _ _ _ _ _)
        isplitl [HS1]
        · unfold owns; iexists _; isplitr
          swap; · iexact HS1
          ipureintro; exact View.read_writes_of_cover _ _ _ _ _ (scoverA_L c _ _ _ _ _ _ _ _ _ _ _ _ _ _ _ _ _ _ _ _ _)
        isplitl [HS2]
        · unfold owns; iexists _; isplitr
          swap; · iexact HS2
          ipureintro; exact View.read_writes_of_cover _ _ _ _ _ (scoverA_A c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    rw [leaves0, leaves1, leaves2]
    rw [leaves3 V c t ((hcondOut t).mpr (by omega))]
    rw [PhiS_castSucc V c t, PhiS_pos V c _ _ hz]
    by_cases h1 : t.val % 4 = 1
    · rw [scAt_B V c t h1, outAt_B V c t h1]
      unfold outB outB_O; (try dsimp only)
      iintro ⟨⟨HR, HS0, HS1, HS2, Hg⟩, Ho, ⟨%d0, H0⟩, ⟨%d1, H1⟩, ⟨%d2, H2⟩, ⟨%d3, H3⟩⟩
      iapply ((kernelRunB c (grid1.coords t) _ _ _ _ _ _ _ _ _ _ _ _ _ _ (fun h => by have := (hcondReset t).mp h; omega) (fun h => ((hcondStep t).mp h) h1) ((hcondOut t).mpr (by omega)) (iblk V c 0 t) (iblk V c 1 t) (iblk V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_O c _ _ _ _ _ _ _ _ _ _ _ _ _ _ _ _ _ _ _ _ _ _ _ _)
    · have h3 : t.val % 4 = 3 := by omega
      rw [scAt_C V c t h3, outAt_C V c t h3]
      unfold caseC outC outC_O soutC_M soutC_L soutC_A; (try dsimp only)
      iintro ⟨⟨HR, HS0, HS1, HS2, Hg⟩, Ho, ⟨%d0, H0⟩, ⟨%d1, H1⟩, ⟨%d2, H2⟩, ⟨%d3, H3⟩⟩
      iapply ((kernelRunC c (grid1.coords t) _ _ _ _ _ _ _ _ _ _ _ _ _ _ (fun h => by have := (hcondReset t).mp h; omega) ((hcondStep t).mpr (by omega)) ((hcondOut t).mpr (by omega)) (iblk V c 0 t) (iblk V c 1 t) (iblk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scoverC_M c _ _ _ _ _ _ _ _ _ _ _ _ _ _ _ _ _ _ _ _ _ _ _ _)
        isplitl [HS1]
        · unfold owns; iexists _; isplitr
          swap; · iexact HS1
          ipureintro; exact View.read_writes_of_cover _ _ _ _ _ (scoverC_L c _ _ _ _ _ _ _ _ _ _ _ _ _ _ _ _ _ _ _ _ _ _ _ _)
        isplitl [HS2]
        · unfold owns; iexists _; isplitr
          swap; · iexact HS2
          ipureintro; exact View.read_writes_of_cover _ _ _ _ _ (scoverC_A c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_O c _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives it back: the scratch buffers' named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  refine .trans ?_ (PhiA_join (F := F) c)
  iintro ⟨HR, HS0, HS1, HS2, Hg⟩
  isplitl [HR]; · iexact HR
  isplitl [HS0]; · iexists _; iexact HS0
  isplitl [HS1]; · iexists _; iexact HS1
  isplitl [HS2]; · iexists _; iexact HS2
  iexact Hg

end Cert.KernelIdeal.Fr1

end
-- ==== Proof.FrameI.lean ====
import proofs.«129131_j53901839564972_2_alg».proof.Proof.Gen.KernelIdeal.Launch
import proofs.«129131_j53901839564972_2_alg».proof.Proof.Gen.KernelIdeal.Skeleton
import proofs.«129131_j53901839564972_2_alg».proof.Proof.Gen.KernelIdeal.Points
import proofs.«129131_j53901839564972_2_alg».proof.Proof.FrameI0
import proofs.«129131_j53901839564972_2_alg».proof.Proof.FrameI1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run of the whole program: the two regions in order

  The buffer contents at each region boundary: the launch memory; after the projection region its three output arrays at
  what its write-backs leave; after the attention region its output array at what its write-backs leave. -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection region. -/
def W1 (c : Dev nD) : Valuation τ sig (Elt F) :=
  Pipeline.withArrays spec0 c (W0 m ρ c) fun w => (Fr0.dat (V0 m ρ) c).arrAt w cfg0.N
theorem W1_arr (c : Dev nD) (w : Fin cfg0.W) :
    W1 m ρ c (Proc.devRef .tc (Pipeline.arrRef spec0 w)) = (Fr0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Fr0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the attention region. -/
def W2 (c : Dev nD) : Valuation τ sig (Elt F) :=
  Pipeline.withArrays spec1 c (W1 m ρ c) fun w => (Fr1.dat (V1 m ρ) c).arrAt w cfg1.N
theorem W2_arr (c : Dev nD) (w : Fin cfg1.W) :
    W2 m ρ c (Proc.devRef .tc (Pipeline.arrRef spec1 w)) = (Fr1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (Fr1.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched: the attention region does not touch them, the projection region only reads them -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((Fr0.dat (V0 m ρ) c).arrAt_in 0 rfl _).trans (Fr0.A_eq (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 3).trans (((Fr0.dat (V0 m ρ) c).arrAt_in 3 rfl _).trans (Fr0.A_eq (V0 m ρ) c 3))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 4).trans (((Fr0.dat (V0 m ρ) c).arrAt_in 4 rfl _).trans (Fr0.A_eq (V0 m ρ) c 4))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 1).trans (((Fr0.dat (V0 m ρ) c).arrAt_in 1 rfl _).trans (Fr0.A_eq (V0 m ρ) c 1))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 2).trans (((Fr0.dat (V0 m ρ) c).arrAt_in 2 rfl _).trans (Fr0.A_eq (V0 m ρ) c 2))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (W1_arr m ρ c 5).trans (((Fr0.dat (V0 m ρ) c).arrAt_in 5 rfl _).trans (Fr0.A_eq (V0 m ρ) c 5))
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (W1_arr m ρ c 6).trans (((Fr0.dat (V0 m ρ) c).arrAt_in 6 rfl _).trans (Fr0.A_eq (V0 m ρ) c 6))
    _ = m ((c : Thread nD τ).loc main_arg6) := rfl

/-- The result array ends at what the attention region's write-backs leave. -/
theorem W2_main_v1 (c : Dev nD) : W2 m ρ c (Proc.devRef .tc main_v1) = (Fr1.dat (V1 m ρ) c).arrAt 3 cfg1.N :=
  W2_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Fr0.dat (V0 m ρ) c
  | ⟨1, _⟩ => fun c => Fr1.dat (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state "every unscoped buffer at the boundary's contents, the generator register at some
    state, nothing owed": its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Fr0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Fr0.hin (V0 m ρ) c)
    unfold Pipeline.ΦA
    iintro ⟨Hp, -, Hr⟩
    isplitl [Hr]; · iexact Hr
    iexact Hp
  hout c := by
    refine (Fr0.hout (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fr1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Fr1.hin (V1 m ρ) c)
    unfold Pipeline.ΦA
    iintro ⟨Hp, -, Hr⟩
    isplitl [Hr]; · iexact Hr
    iexact Hp
  hout c := by
    refine (Fr1.hout (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ), .region (reg1 m ρ) ]

set_option backward.isDefEq.respectTransparency.types false in
/-- From any memory with zero counters every weakly fair execution of the program terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c)⟩) (run_all m ρ)

/-- The run with the result named: the result array at what the attention region's write-backs leave, the arguments as launched. -/
theorem run_value : θ_run defs (onTc (τ := τ) (main (F := F))) ⟨m, fun _ => 0, ρ⟩ (fun r => ∀ c : Dev nD,
      r.2.mem ((c.tc : Thread nD τ).loc main_v1) = (Fr1.dat (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v1 (by decide))).trans (W2_main_v1 m ρ c), (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c)⟩) (run_all m ρ)

end Cert.KernelIdeal.Fr

end
-- ==== Proof.Spec.lean ====
/-
  Causal single-head attention over f32[8, 2048, 1024] inputs, as one function of the argument arrays on the
  extended reals: three linear projections, the scores of every query row against every key row scaled by 8
  and masked to the lower triangle with -infinity, a row softmax (subtract the row maximum, exponentiate,
  divide by the row sum), and the weighted sum of the value rows.  Beside it, the same quantity computed tile
  by tile (1024 key rows at a time) with a running maximum, a running denominator and a running numerator,
  each rescaled by exp(old maximum - new maximum) when a tile is added.
-/
import Idealize.ShloMosaic.PureOps.Ideal
import Idealize.ShloMosaic.Lib.ValueIdx

noncomputable section

open scoped BigOperators

namespace Cert.Attn

open Idealize.ShloMosaic Idealize.ShloMosaic.ValueIdx

/-! ## The projections -/

/-- Entry `(b, s, h)` of `x · Wᵀ + bias`: row `(b, s)` of `x` against row `h` of `W`, plus `bias h`. -/
def proj (x : (⟨3, ![8, 2048, 1024]⟩ : Shape).Idx → EReal) (W : (⟨2, ![64, 1024]⟩ : Shape).Idx → EReal)
    (bias : (⟨1, ![64]⟩ : Shape).Idx → EReal) (b : Fin 8) (s : Fin 2048) (h : Fin 64) : EReal :=
  (∑ e : Fin 1024, x (ix3 b s e) * W (ix2 h e)) + bias (ix1 h)

/-! ## The whole-row softmax (the reference's arrangement) -/

section Whole

variable (q k v : Fin 8 → Fin 2048 → Fin 64 → EReal)

/-- The score of query row `r` against key row `c`: their inner product times 8 on and below the diagonal,
    -infinity above it. -/
def score (b : Fin 8) (r c : Fin 2048) : EReal :=
  if c.val ≤ r.val then (∑ h : Fin 64, q b r h * k b c h) * 8 else ⊥

/-- The greatest score of a row (the supremum over all 2048 key rows; -infinity is its identity). -/
def rowMax (b : Fin 8) (r : Fin 2048) : EReal := Finset.univ.sup fun c : Fin 2048 => score q k b r c

/-- The unnormalised softmax weight. -/
def weight (b : Fin 8) (r c : Fin 2048) : EReal := Ideal.exp (score q k b r c - rowMax q k b r)

/-- The row's normaliser. -/
def denom (b : Fin 8) (r : Fin 2048) : EReal := ∑ c : Fin 2048, weight q k b r c

/-- The attention output: the softmax weights of row `r` against the value rows. -/
def out (b : Fin 8) (r : Fin 2048) (h : Fin 64) : EReal :=
  ∑ c : Fin 2048, Ideal.div (weight q k b r c) (denom q k b r) * v b c h

end Whole

/-! ## The same, one tile of 1024 key rows at a time (the kernel's arrangement) -/

/-- The running state of one query row: maximum so far, denominator so far, numerator so far. -/
structure RowState where
  m : EReal
  l : EReal
  acc : Fin 64 → EReal

/-- Before any tile: maximum -infinity, sums zero. -/
def RowState.init : RowState := ⟨⊥, 0, fun _ => 0⟩

/-- Add one tile of scores `s` and value rows `vt`: the new maximum, and both sums rescaled by
    `exp (old maximum - new maximum)` before the tile's terms are added. -/
def RowState.step (st : RowState) (s : Fin 1024 → EReal) (vt : Fin 1024 → Fin 64 → EReal) : RowState :=
  let m' := max st.m (Finset.univ.sup s)
  ⟨m', Ideal.exp (st.m - m') * st.l + ∑ c : Fin 1024, Ideal.exp (s c - m'),
    fun h => Ideal.exp (st.m - m') * st.acc h + ∑ c : Fin 1024, Ideal.exp (s c - m') * vt c h⟩

/-- The quotient a row ends with. -/
def RowState.result (st : RowState) (h : Fin 64) : EReal := Ideal.div (st.acc h) st.l

/-- Key row `c` of tile `j`. -/
def tileRow (j : Fin 2) (c : Fin 1024) : Fin 2048 := ⟨j.val * 1024 + c.val, by omega⟩

/-- Query row `r` of query tile `i`. -/
abbrev qRow (i : Fin 2) (r : Fin 1024) : Fin 2048 := tileRow i r

section Tiled

variable (q k v : Fin 8 → Fin 2048 → Fin 64 → EReal)

/-- Row `r` of query tile `i` after key tiles `0 … n-1` (only tiles `j ≤ i` are ever added: those above the
    diagonal hold nothing but masked scores and are skipped). -/
def tiledState (b : Fin 8) (i : Fin 2) (r : Fin 1024) : ℕ → RowState
  | 0 => RowState.init
  | n + 1 =>
    if h : n < 2 ∧ n ≤ i.val then
      (tiledState b i r n).step (fun c => score q k b (qRow i r) (tileRow ⟨n, h.1⟩ c)) (fun c => v b (tileRow ⟨n, h.1⟩ c))
    else tiledState b i r n

/-- What the tiled computation leaves for row `r` of query tile `i`. -/
def tiledOut (b : Fin 8) (i : Fin 2) (r : Fin 1024) (h : Fin 64) : EReal :=
  (tiledState q k v b i r 2).result h

end Tiled

/-! ## The law joining the two arrangements (proved in the algebra module)

  For real-valued `q`, `k`, `v`:  `tiledOut q k v b i r h = out q k v b (qRow i r) h`. -/

end Cert.Attn

end
-- ==== Proof.Payload0.lean ====
/-
  The projection kernel's arithmetic read at an index: each of the three blocks it stores (query, key and value rows of a
  block of 1024 input rows) is, at row `r` and column `h`, the inner product of input row `r` with weight row `h` plus
  the bias at `h`.
-/
import proofs.«129131_j53901839564972_2_alg».proof.Proof.Gen.KernelIdeal.Skeleton
import proofs.«129131_j53901839564972_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.SL.Sem

/-! ## The product of a projection -/

/-- Input rows against weight rows: both operands contract their second axis. -/
abbrev Dproj := dot_S1024x1024_S64x1024_S1024x64_1_1_0_0_n_n

theorem Dproj_lhs0 (i : S1024x64.Idx) (q : Dproj.contr.Idx) : (Dproj.lhsIdx i q 0).val = (i 0).val := by
  unfold DotDims.lhsIdx
  rw [dif_neg (show ¬(0 : Fin S1024x1024.rank) ∈ Dproj.lhsBatch by decide), dif_pos (show (0 : Fin S1024x1024.rank) ∈ Dproj.lhsNonContracting by decide)]
  rfl
theorem Dproj_lhs1 (i : S1024x64.Idx) (q : Dproj.contr.Idx) : (Dproj.lhsIdx i q 1).val = (q ⟨0, by decide⟩).val :=
  Dproj.lhsIdx_val_of_single rfl i q
theorem Dproj_rhs0 (i : S1024x64.Idx) (q : Dproj.contr.Idx) : (Dproj.rhsIdx i q 0).val = (i 1).val := by
  unfold DotDims.rhsIdx
  rw [dif_neg (show ¬(0 : Fin S64x1024.rank) ∈ Dproj.rhsBatch by decide), dif_pos (show (0 : Fin S64x1024.rank) ∈ Dproj.rhsNonContracting by decide)]
  rfl
theorem Dproj_rhs1 (i : S1024x64.Idx) (q : Dproj.contr.Idx) : (Dproj.rhsIdx i q 1).val = (q ⟨0, by decide⟩).val :=
  Dproj.rhsIdx_val_of_single rfl i q

/-- The left operand's index at output `(r, h)` and contraction coordinate `e` is `(r, e)`. -/
theorem Dproj_lhsIdx (r : Fin 1024) (h : Fin 64) (e : Fin 1024) :
    Dproj.lhsIdx (ix2 r h) ((contrEquiv1 Dproj 1024 rfl rfl).symm e) = ix2 r e :=
  funext fun a => Fin.ext (by
    match a with
    | ⟨0, _⟩ => exact Dproj_lhs0 _ _
    | ⟨1, _⟩ => exact (Dproj_lhs1 _ _).trans (contrEquiv1_symm_val Dproj 1024 rfl rfl e))
/-- The right operand's is `(h, e)`. -/
theorem Dproj_rhsIdx (r : Fin 1024) (h : Fin 64) (e : Fin 1024) :
    Dproj.rhsIdx (ix2 r h) ((contrEquiv1 Dproj 1024 rfl rfl).symm e) = ix2 h e :=
  funext fun a => Fin.ext (by
    match a with
    | ⟨0, _⟩ => exact Dproj_rhs0 _ _
    | ⟨1, _⟩ => exact (Dproj_rhs1 _ _).trans (contrEquiv1_symm_val Dproj 1024 rfl rfl e))

/-- One projection at `(r, h)`: input row `r` against weight row `h`, plus the bias at `h`. -/
theorem proj_apply (xb : Vec Ideal S1x1024x1024 .f32) (W : Vec Ideal S64x1024 .f32) (bias : Vec Ideal S64 .f32)
    (r : Fin 1024) (h : Fin 64) :
    addf (matmul Dproj none (k0_pay2 (F := Ideal) xb) (truncf .bf16 W bitsLt_bf16_f32) (constant (F := Ideal) S1024x64 .f32 0x00000000#32))
      (broadcastTo S1024x64 (shapeCast S1x64 bias shapeCasts_S64_S1x64) broadcasts_S1x64_S1024x64) (ix2 r h)
    = (∑ e : Fin 1024, xb (ix3 0 r e) * W (ix2 h e)) + bias (ix1 h) := by
  rw [addf_apply, broadcastTo_1b_ab_apply, shapeCast_a_1a_apply]
  simp only [matmul]
  rw [Ideal.matmul_constant_zero_apply, ← Equiv.sum_comp (contrEquiv1 Dproj 1024 rfl rfl).symm]
  refine congrArg (· + _) (Finset.sum_congr rfl fun e _ => ?_)
  unfold k0_pay2
  rw [Dproj_lhsIdx, Dproj_rhsIdx, truncf_apply, truncf_apply, shapeCast_1ab_ab_apply]

/-! ## The three stored blocks -/

/-- The block stored to the first output's staging buffer. -/
theorem proj_pay4_apply (xb : Vec Ideal S1x1024x1024 .f32) (W : Vec Ideal S64x1024 .f32) (bias : Vec Ideal S64 .f32)
    (r : Fin 1024) (h : Fin 64) :
    k0_pay4 (F := Ideal) xb W bias (ix3 (0 : Fin 1) r h) = (∑ e : Fin 1024, xb (ix3 0 r e) * W (ix2 h e)) + bias (ix1 h) := by
  unfold k0_pay4
  rw [shapeCast_ab_1ab_apply]
  exact proj_apply xb W bias r h

/-- The block stored to the second output's staging buffer. -/
theorem proj_pay5_apply (xb : Vec Ideal S1x1024x1024 .f32) (W : Vec Ideal S64x1024 .f32) (bias : Vec Ideal S64 .f32)
    (r : Fin 1024) (h : Fin 64) :
    k0_pay5 (F := Ideal) xb W bias (ix3 (0 : Fin 1) r h) = (∑ e : Fin 1024, xb (ix3 0 r e) * W (ix2 h e)) + bias (ix1 h) := by
  unfold k0_pay5
  rw [shapeCast_ab_1ab_apply]
  exact proj_apply xb W bias r h

/-- The block stored to the third output's staging buffer. -/
theorem proj_pay1_apply (xb : Vec Ideal S1x1024x1024 .f32) (W : Vec Ideal S64x1024 .f32) (bias : Vec Ideal S64 .f32)
    (r : Fin 1024) (h : Fin 64) :
    k0_pay1 (F := Ideal) (k0_pay3 xb W bias) (ix3 (0 : Fin 1) r h) = (∑ e : Fin 1024, xb (ix3 0 r e) * W (ix2 h e)) + bias (ix1 h) := by
  unfold k0_pay1 k0_pay3
  dsimp only
  rw [shapeCast_ab_1ab_apply]
  exact proj_apply xb W bias r h

end Cert.KernelIdeal.Pay

end
-- ==== Proof.Value0.lean ====
import proofs.«129131_j53901839564972_2_alg».proof.Proof.FrameI0
import proofs.«129131_j53901839564972_2_alg».proof.Proof.Payload0
import proofs.«129131_j53901839564972_2_alg».proof.Proof.Spec
import Idealize.ShloMosaic.Lib.Pipeline.Value
import Idealize.ShloMosaic.Lib.ValueIdx

set_option maxRecDepth 16384

noncomputable section

namespace Cert.KernelIdeal.Val0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # What the projection region leaves: each of its three output arrays is one linear projection of the arguments

  Point `t = 2 b + s` stages rows `1024 s … 1024 s + 1023` of batch `b` of `x` and writes back the same rows of the three
  outputs; the blocks tile the arrays, so each whole array is `x · Wᵀ + bias`. -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The projected array: entry `(b, s, h)` is row `(b, s)` of `x` against row `h` of `W`, plus `bias h`. -/
def Gproj (x : S8x2048x1024.Idx → EReal) (W : S64x1024.Idx → EReal) (bias : S64.Idx → EReal) : S8x2048x64.Idx → EReal :=
  fun i => Cert.Attn.proj x W bias (i 0) (i 1) (i 2)

/-- A staged row against the staged matrix and bias is the projection's entry, once the staged blocks are read where the
    arrays hold them. -/
theorem proj_block (X : S8x2048x1024.Idx → EReal) (W : S64x1024.Idx → EReal) (B : S64.Idx → EReal)
    (xb : Vec Ideal S1x1024x1024 .f32) (Wb : Vec Ideal S64x1024 .f32) (Bb : Vec Ideal S64 .f32) (b : Fin 8) (s : Fin 2048) (r : Fin 1024) (h : Fin 64)
    (hx : ∀ e : Fin 1024, xb (ix3 (0 : Fin 1) r e) = X (ix3 b s e)) (hW : ∀ (h' : Fin 64) (e : Fin 1024), Wb (ix2 h' e) = W (ix2 h' e))
    (hB : ∀ h' : Fin 64, Bb (ix1 h') = B (ix1 h')) :
    (∑ e : Fin 1024, xb (ix3 (0 : Fin 1) r e) * Wb (ix2 h e)) + Bb (ix1 h) = Cert.Attn.proj X W B b s h := by
  unfold Cert.Attn.proj
  simp only [hx, hW, hB]

/-! ## The printed index maps, decided over the grid -/

theorem idx_facts7 : ∀ t : Fin cfg0.N, win0_0.index t (0 : Fin 3) = win0_7.index t (0 : Fin 3) ∧ win0_0.index t (1 : Fin 3) = win0_7.index t (1 : Fin 3)
    ∧ win0_0.index t (2 : Fin 3) = 0 ∧ win0_7.index t (0 : Fin 3) ≤ 7 ∧ win0_7.index t (1 : Fin 3) ≤ 1 ∧ win0_7.index t (2 : Fin 3) = 0
    ∧ win0_1.index t (0 : Fin 2) = 0 ∧ win0_1.index t (1 : Fin 2) = 0 ∧ win0_2.index t (0 : Fin 1) = 0 :=
  (by decide +kernel : ∀ t : Fin grid0.N, _)
theorem idx_onto7 : ∀ (q0 : Fin 8) (q1 : Fin 2), ∃ t : Fin cfg0.N, win0_7.index t = ![q0.val, q1.val, 0] :=
  (by decide +kernel : ∀ (q0 : Fin 8) (q1 : Fin 2), ∃ t : Fin grid0.N, win0_7.index t = ![q0.val, q1.val, 0])
theorem idx_facts8 : ∀ t : Fin cfg0.N, win0_0.index t (0 : Fin 3) = win0_8.index t (0 : Fin 3) ∧ win0_0.index t (1 : Fin 3) = win0_8.index t (1 : Fin 3)
    ∧ win0_0.index t (2 : Fin 3) = 0 ∧ win0_8.index t (0 : Fin 3) ≤ 7 ∧ win0_8.index t (1 : Fin 3) ≤ 1 ∧ win0_8.index t (2 : Fin 3) = 0
    ∧ win0_3.index t (0 : Fin 2) = 0 ∧ win0_3.index t (1 : Fin 2) = 0 ∧ win0_4.index t (0 : Fin 1) = 0 :=
  (by decide +kernel : ∀ t : Fin grid0.N, _)
theorem idx_onto8 : ∀ (q0 : Fin 8) (q1 : Fin 2), ∃ t : Fin cfg0.N, win0_8.index t = ![q0.val, q1.val, 0] :=
  (by decide +kernel : ∀ (q0 : Fin 8) (q1 : Fin 2), ∃ t : Fin grid0.N, win0_8.index t = ![q0.val, q1.val, 0])
theorem idx_facts9 : ∀ t : Fin cfg0.N, win0_0.index t (0 : Fin 3) = win0_9.index t (0 : Fin 3) ∧ win0_0.index t (1 : Fin 3) = win0_9.index t (1 : Fin 3)
    ∧ win0_0.index t (2 : Fin 3) = 0 ∧ win0_9.index t (0 : Fin 3) ≤ 7 ∧ win0_9.index t (1 : Fin 3) ≤ 1 ∧ win0_9.index t (2 : Fin 3) = 0
    ∧ win0_5.index t (0 : Fin 2) = 0 ∧ win0_5.index t (1 : Fin 2) = 0 ∧ win0_6.index t (0 : Fin 1) = 0 :=
  (by decide +kernel : ∀ t : Fin grid0.N, _)
theorem idx_onto9 : ∀ (q0 : Fin 8) (q1 : Fin 2), ∃ t : Fin cfg0.N, win0_9.index t = ![q0.val, q1.val, 0] :=
  (by decide +kernel : ∀ (q0 : Fin 8) (q1 : Fin 2), ∃ t : Fin grid0.N, win0_9.index t = ![q0.val, q1.val, 0])

/-! ## Output window 7 -/

/-- The stored block is the payload of the whole staged inputs. -/
theorem outQ_eq (x0 : Vec Ideal S1x1024x1024 .f32) (x1 : Vec Ideal S64x1024 .f32) (x2 : Vec Ideal S64 .f32) :
    Fr0.outQ (F := Ideal) x0 x1 x2 = k0_pay4 x0 x1 x2 := by
  unfold Fr0.outQ
  rw [View.canon_unit_zero hz3]
  simp only [View.ld_unit_zero (S := S1x1024x1024) hz3, View.ld_unit_zero (S := S64x1024) hz2, View.ld_unit_zero (S := S64) hz1]

/-- WHAT POINT `t` WRITES BACK is block `t` of the projected array. -/
theorem flushed7_eq (c : Dev nD) (t : Fin cfg0.N) :
    (Fr0.dat V c).flushed 7 t = ((cfg0.win 7).blk t).view.read (Elt Ideal) (Gproj (V c main_arg0) (V c main_arg3) (V c main_arg4)) := by
  show (cfg0.win 7).cut (grid0.coords t) ((Fr0.dat V c).after 7 t) = _
  rw [Fr0.after7, outQ_eq]
  obtain ⟨e0, e1, e2, o0, o1, o2, hW0, hW1, hB0⟩ := idx_facts7 t
  funext j
  obtain ⟨r, h, rfl⟩ : ∃ (r : Fin 1024) (h : Fin 64), j = ix3 (0 : Fin 1) r h :=
    ⟨j 1, j 2, (eq_ix3 j).trans (congrArg (fun z : Fin 1 => ix3 z (j 1) (j 2)) (Fin.ext (by have h0 : (j 0).val < 1 := (j 0).isLt; show (j 0).val = 0; omega)))⟩
  show k0_pay4 (F := Ideal) (Fr0.iblk V c 0 t) (Fr0.iblk V c 1 t) (Fr0.iblk V c 2 t) (ix3 (0 : Fin 1) r h)
    = Gproj (V c main_arg0) (V c main_arg3) (V c main_arg4) (((cfg0.win 7).blk t).view.emb (ix3 (0 : Fin 1) r h))
  rw [Pay.proj_pay4_apply]
  have hI2 : (((cfg0.win 7).blk t).view.emb (ix3 (0 : Fin 1) r h)) 2 = h :=
    Fin.ext (by show win0_7.index t (2 : Fin 3) * 64 + 1 * h.val = h.val; omega)
  refine (proj_block (V c main_arg0) (V c main_arg3) (V c main_arg4) _ _ _ ((((cfg0.win 7).blk t).view.emb (ix3 (0 : Fin 1) r h)) 0) ((((cfg0.win 7).blk t).view.emb (ix3 (0 : Fin 1) r h)) 1) r h ?_ ?_ ?_).trans ?_
  · intro e
    show V c main_arg0 (((cfg0.win 0).blk t).view.emb (ix3 (0 : Fin 1) r e)) = V c main_arg0 (ix3 ((((cfg0.win 7).blk t).view.emb (ix3 (0 : Fin 1) r h)) 0) ((((cfg0.win 7).blk t).view.emb (ix3 (0 : Fin 1) r h)) 1) e)
    refine congrArg _ (funext fun a => Fin.ext ?_)
    match a with
    | ⟨0, _⟩ => show win0_0.index t (0 : Fin 3) * 1 + 1 * 0 = win0_7.index t (0 : Fin 3) * 1 + 1 * 0; omega
    | ⟨1, _⟩ => show win0_0.index t (1 : Fin 3) * 1024 + 1 * r.val = win0_7.index t (1 : Fin 3) * 1024 + 1 * r.val; omega
    | ⟨2, _⟩ => show win0_0.index t (2 : Fin 3) * 1024 + 1 * e.val = e.val; omega
  · intro h' e
    show V c main_arg3 (((cfg0.win 1).blk t).view.emb (ix2 h' e)) = V c main_arg3 (ix2 h' e)
    refine congrArg _ (funext fun a => Fin.ext ?_)
    match a with
    | ⟨0, _⟩ => show win0_1.index t (0 : Fin 2) * 64 + 1 * h'.val = h'.val; omega
    | ⟨1, _⟩ => show win0_1.index t (1 : Fin 2) * 1024 + 1 * e.val = e.val; omega
  · intro h'
    show V c main_arg4 (((cfg0.win 2).blk t).view.emb (ix1 h')) = V c main_arg4 (ix1 h')
    refine congrArg _ (funext fun a => Fin.ext ?_)
    match a with
    | ⟨0, _⟩ => show win0_2.index t (0 : Fin 1) * 64 + 1 * h'.val = h'.val; omega
  · show Cert.Attn.proj _ _ _ _ _ h = Cert.Attn.proj _ _ _ _ _ ((((cfg0.win 7).blk t).view.emb (ix3 (0 : Fin 1) r h)) 2)
    rw [hI2]

/-- An index of the array is in point `t`'s block iff each coordinate is in the block's range on its axis. -/
theorem mem_blk7 (t : Fin cfg0.N) (i : S8x2048x64.Idx) :
    i ∈ ((cfg0.win 7).blk t).view.set ↔ ∀ a : Fin 3, win0_7.index t a * S1x1024x64.size a ≤ (i a).val ∧ (i a).val < win0_7.index t a * S1x1024x64.size a + S1x1024x64.size a := by
  show i ∈ ((View.whole main_v0_0).slice (win0_7.rect t)).set ↔ _
  rw [View.set_slice_whole, Rect.mem_set_unit]
  exact Iff.rfl

/-- Every index of the array lies in some point's block. -/
theorem cover7 (i : S8x2048x64.Idx) : ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 64 := (i 2).isLt
  obtain ⟨t, ht⟩ := idx_onto7 ⟨(i 0).val, hi0⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 64 ≤ (i 2).val ∧ (i 2).val < win0_7.index t (2 : Fin 3) * 64 + 64; omega

/-- THE ARRAY after the region: the projection of the argument arrays, index by index. -/
theorem final7 (c : Dev nD) : (Fr0.dat V c).arrAt 7 cfg0.N = Gproj (V c main_arg0) (V c main_arg3) (V c main_arg4) :=
  (Fr0.dat V c).arrAt_eq_of_cover 7 _ (fun t _ => flushed7_eq V c t) (cover7)

/-! ## Output window 8 -/

/-- The stored block is the payload of the whole staged inputs. -/
theorem outK_eq (x0 : Vec Ideal S1x1024x1024 .f32) (x1 : Vec Ideal S64x1024 .f32) (x2 : Vec Ideal S64 .f32) :
    Fr0.outK (F := Ideal) x0 x1 x2 = k0_pay5 x0 x1 x2 := by
  unfold Fr0.outK
  rw [View.canon_unit_zero hz3]
  simp only [View.ld_unit_zero (S := S1x1024x1024) hz3, View.ld_unit_zero (S := S64x1024) hz2, View.ld_unit_zero (S := S64) hz1]

/-- WHAT POINT `t` WRITES BACK is block `t` of the projected array. -/
theorem flushed8_eq (c : Dev nD) (t : Fin cfg0.N) :
    (Fr0.dat V c).flushed 8 t = ((cfg0.win 8).blk t).view.read (Elt Ideal) (Gproj (V c main_arg0) (V c main_arg1) (V c main_arg2)) := by
  show (cfg0.win 8).cut (grid0.coords t) ((Fr0.dat V c).after 8 t) = _
  rw [Fr0.after8, outK_eq]
  obtain ⟨e0, e1, e2, o0, o1, o2, hW0, hW1, hB0⟩ := idx_facts8 t
  funext j
  obtain ⟨r, h, rfl⟩ : ∃ (r : Fin 1024) (h : Fin 64), j = ix3 (0 : Fin 1) r h :=
    ⟨j 1, j 2, (eq_ix3 j).trans (congrArg (fun z : Fin 1 => ix3 z (j 1) (j 2)) (Fin.ext (by have h0 : (j 0).val < 1 := (j 0).isLt; show (j 0).val = 0; omega)))⟩
  show k0_pay5 (F := Ideal) (Fr0.iblk V c 0 t) (Fr0.iblk V c 3 t) (Fr0.iblk V c 4 t) (ix3 (0 : Fin 1) r h)
    = Gproj (V c main_arg0) (V c main_arg1) (V c main_arg2) (((cfg0.win 8).blk t).view.emb (ix3 (0 : Fin 1) r h))
  rw [Pay.proj_pay5_apply]
  have hI2 : (((cfg0.win 8).blk t).view.emb (ix3 (0 : Fin 1) r h)) 2 = h :=
    Fin.ext (by show win0_8.index t (2 : Fin 3) * 64 + 1 * h.val = h.val; omega)
  refine (proj_block (V c main_arg0) (V c main_arg1) (V c main_arg2) _ _ _ ((((cfg0.win 8).blk t).view.emb (ix3 (0 : Fin 1) r h)) 0) ((((cfg0.win 8).blk t).view.emb (ix3 (0 : Fin 1) r h)) 1) r h ?_ ?_ ?_).trans ?_
  · intro e
    show V c main_arg0 (((cfg0.win 0).blk t).view.emb (ix3 (0 : Fin 1) r e)) = V c main_arg0 (ix3 ((((cfg0.win 8).blk t).view.emb (ix3 (0 : Fin 1) r h)) 0) ((((cfg0.win 8).blk t).view.emb (ix3 (0 : Fin 1) r h)) 1) e)
    refine congrArg _ (funext fun a => Fin.ext ?_)
    match a with
    | ⟨0, _⟩ => show win0_0.index t (0 : Fin 3) * 1 + 1 * 0 = win0_8.index t (0 : Fin 3) * 1 + 1 * 0; omega
    | ⟨1, _⟩ => show win0_0.index t (1 : Fin 3) * 1024 + 1 * r.val = win0_8.index t (1 : Fin 3) * 1024 + 1 * r.val; omega
    | ⟨2, _⟩ => show win0_0.index t (2 : Fin 3) * 1024 + 1 * e.val = e.val; omega
  · intro h' e
    show V c main_arg1 (((cfg0.win 3).blk t).view.emb (ix2 h' e)) = V c main_arg1 (ix2 h' e)
    refine congrArg _ (funext fun a => Fin.ext ?_)
    match a with
    | ⟨0, _⟩ => show win0_3.index t (0 : Fin 2) * 64 + 1 * h'.val = h'.val; omega
    | ⟨1, _⟩ => show win0_3.index t (1 : Fin 2) * 1024 + 1 * e.val = e.val; omega
  · intro h'
    show V c main_arg2 (((cfg0.win 4).blk t).view.emb (ix1 h')) = V c main_arg2 (ix1 h')
    refine congrArg _ (funext fun a => Fin.ext ?_)
    match a with
    | ⟨0, _⟩ => show win0_4.index t (0 : Fin 1) * 64 + 1 * h'.val = h'.val; omega
  · show Cert.Attn.proj _ _ _ _ _ h = Cert.Attn.proj _ _ _ _ _ ((((cfg0.win 8).blk t).view.emb (ix3 (0 : Fin 1) r h)) 2)
    rw [hI2]

/-- An index of the array is in point `t`'s block iff each coordinate is in the block's range on its axis. -/
theorem mem_blk8 (t : Fin cfg0.N) (i : S8x2048x64.Idx) :
    i ∈ ((cfg0.win 8).blk t).view.set ↔ ∀ a : Fin 3, win0_8.index t a * S1x1024x64.size a ≤ (i a).val ∧ (i a).val < win0_8.index t a * S1x1024x64.size a + S1x1024x64.size a := by
  show i ∈ ((View.whole main_v0_1).slice (win0_8.rect t)).set ↔ _
  rw [View.set_slice_whole, Rect.mem_set_unit]
  exact Iff.rfl

/-- Every index of the array lies in some point's block. -/
theorem cover8 (i : S8x2048x64.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 64 := (i 2).isLt
  obtain ⟨t, ht⟩ := idx_onto8 ⟨(i 0).val, hi0⟩ ⟨(i 1).val / 1024, by omega⟩
  have q0 : win0_8.index t (0 : Fin 3) = (i 0).val := congrFun ht 0
  have q1 : win0_8.index t (1 : Fin 3) = (i 1).val / 1024 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 64 ≤ (i 2).val ∧ (i 2).val < win0_8.index t (2 : Fin 3) * 64 + 64; omega

/-- THE ARRAY after the region: the projection of the argument arrays, index by index. -/
theorem final8 (c : Dev nD) : (Fr0.dat V c).arrAt 8 cfg0.N = Gproj (V c main_arg0) (V c main_arg1) (V c main_arg2) :=
  (Fr0.dat V c).arrAt_eq_of_cover 8 _ (fun t _ => flushed8_eq V c t) (cover8)

/-! ## Output window 9 -/

/-- The stored block is the payload of the whole staged inputs. -/
theorem outV_eq (x0 : Vec Ideal S1x1024x1024 .f32) (x1 : Vec Ideal S64x1024 .f32) (x2 : Vec Ideal S64 .f32) :
    Fr0.outV (F := Ideal) x0 x1 x2 = k0_pay1 (k0_pay3 x0 x1 x2) := by
  unfold Fr0.outV
  rw [View.canon_unit_zero hz3]
  simp only [View.ld_unit_zero (S := S1x1024x1024) hz3, View.ld_unit_zero (S := S64x1024) hz2, View.ld_unit_zero (S := S64) hz1]

/-- WHAT POINT `t` WRITES BACK is block `t` of the projected array. -/
theorem flushed9_eq (c : Dev nD) (t : Fin cfg0.N) :
    (Fr0.dat V c).flushed 9 t = ((cfg0.win 9).blk t).view.read (Elt Ideal) (Gproj (V c main_arg0) (V c main_arg5) (V c main_arg6)) := by
  show (cfg0.win 9).cut (grid0.coords t) ((Fr0.dat V c).after 9 t) = _
  rw [Fr0.after9, outV_eq]
  obtain ⟨e0, e1, e2, o0, o1, o2, hW0, hW1, hB0⟩ := idx_facts9 t
  funext j
  obtain ⟨r, h, rfl⟩ : ∃ (r : Fin 1024) (h : Fin 64), j = ix3 (0 : Fin 1) r h :=
    ⟨j 1, j 2, (eq_ix3 j).trans (congrArg (fun z : Fin 1 => ix3 z (j 1) (j 2)) (Fin.ext (by have h0 : (j 0).val < 1 := (j 0).isLt; show (j 0).val = 0; omega)))⟩
  show k0_pay1 (F := Ideal) (k0_pay3 (Fr0.iblk V c 0 t) (Fr0.iblk V c 5 t) (Fr0.iblk V c 6 t)) (ix3 (0 : Fin 1) r h)
    = Gproj (V c main_arg0) (V c main_arg5) (V c main_arg6) (((cfg0.win 9).blk t).view.emb (ix3 (0 : Fin 1) r h))
  rw [Pay.proj_pay1_apply]
  have hI2 : (((cfg0.win 9).blk t).view.emb (ix3 (0 : Fin 1) r h)) 2 = h :=
    Fin.ext (by show win0_9.index t (2 : Fin 3) * 64 + 1 * h.val = h.val; omega)
  refine (proj_block (V c main_arg0) (V c main_arg5) (V c main_arg6) _ _ _ ((((cfg0.win 9).blk t).view.emb (ix3 (0 : Fin 1) r h)) 0) ((((cfg0.win 9).blk t).view.emb (ix3 (0 : Fin 1) r h)) 1) r h ?_ ?_ ?_).trans ?_
  · intro e
    show V c main_arg0 (((cfg0.win 0).blk t).view.emb (ix3 (0 : Fin 1) r e)) = V c main_arg0 (ix3 ((((cfg0.win 9).blk t).view.emb (ix3 (0 : Fin 1) r h)) 0) ((((cfg0.win 9).blk t).view.emb (ix3 (0 : Fin 1) r h)) 1) e)
    refine congrArg _ (funext fun a => Fin.ext ?_)
    match a with
    | ⟨0, _⟩ => show win0_0.index t (0 : Fin 3) * 1 + 1 * 0 = win0_9.index t (0 : Fin 3) * 1 + 1 * 0; omega
    | ⟨1, _⟩ => show win0_0.index t (1 : Fin 3) * 1024 + 1 * r.val = win0_9.index t (1 : Fin 3) * 1024 + 1 * r.val; omega
    | ⟨2, _⟩ => show win0_0.index t (2 : Fin 3) * 1024 + 1 * e.val = e.val; omega
  · intro h' e
    show V c main_arg5 (((cfg0.win 5).blk t).view.emb (ix2 h' e)) = V c main_arg5 (ix2 h' e)
    refine congrArg _ (funext fun a => Fin.ext ?_)
    match a with
    | ⟨0, _⟩ => show win0_5.index t (0 : Fin 2) * 64 + 1 * h'.val = h'.val; omega
    | ⟨1, _⟩ => show win0_5.index t (1 : Fin 2) * 1024 + 1 * e.val = e.val; omega
  · intro h'
    show V c main_arg6 (((cfg0.win 6).blk t).view.emb (ix1 h')) = V c main_arg6 (ix1 h')
    refine congrArg _ (funext fun a => Fin.ext ?_)
    match a with
    | ⟨0, _⟩ => show win0_6.index t (0 : Fin 1) * 64 + 1 * h'.val = h'.val; omega
  · show Cert.Attn.proj _ _ _ _ _ h = Cert.Attn.proj _ _ _ _ _ ((((cfg0.win 9).blk t).view.emb (ix3 (0 : Fin 1) r h)) 2)
    rw [hI2]

/-- An index of the array is in point `t`'s block iff each coordinate is in the block's range on its axis. -/
theorem mem_blk9 (t : Fin cfg0.N) (i : S8x2048x64.Idx) :
    i ∈ ((cfg0.win 9).blk t).view.set ↔ ∀ a : Fin 3, win0_9.index t a * S1x1024x64.size a ≤ (i a).val ∧ (i a).val < win0_9.index t a * S1x1024x64.size a + S1x1024x64.size a := by
  show i ∈ ((View.whole main_v0_2).slice (win0_9.rect t)).set ↔ _
  rw [View.set_slice_whole, Rect.mem_set_unit]
  exact Iff.rfl

/-- Every index of the array lies in some point's block. -/
theorem cover9 (i : S8x2048x64.Idx) : ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 64 := (i 2).isLt
  obtain ⟨t, ht⟩ := idx_onto9 ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 64 ≤ (i 2).val ∧ (i 2).val < win0_9.index t (2 : Fin 3) * 64 + 64; omega

/-- THE ARRAY after the region: the projection of the argument arrays, index by index. -/
theorem final9 (c : Dev nD) : (Fr0.dat V c).arrAt 9 cfg0.N = Gproj (V c main_arg0) (V c main_arg5) (V c main_arg6) :=
  (Fr0.dat V c).arrAt_eq_of_cover 9 _ (fun t _ => flushed9_eq V c t) (cover9)

end Cert.KernelIdeal.Val0

end
-- ==== Proof.Pieces1.lean ====
/-
  What the attention kernel's body leaves in its three scratch buffers and in its output block, case by case, as values:
  each buffer is loaded and stored whole, so what the last store into a buffer wrote is what the buffer holds, and what
  that store's payload read is either an input block, the state the point before left, or — at a point of key tile 0 —
  the value the reset stored a moment earlier into the same buffer.
-/
import proofs.«129131_j53901839564972_2_alg».proof.Proof.FrameI1
import Idealize.ShloMosaic.Lib.Pipeline.Value

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of a rank-2 whole-buffer access. -/
theorem hz2 : (![0, 0] : Fin 2 → Nat) = fun _ => 0 := funext fun a => by fin_cases a <;> rfl
/-- The zero offsets of a rank-3 whole-buffer access. -/
theorem hz3 : (![0, 0, 0] : Fin 3 → Nat) = fun _ => 0 := funext fun a => by fin_cases a <;> rfl

/-- After a point of key tile 0 the running-maximum buffer holds the larger of the reset value (-infinity) and the
    tile's row maxima: the last store's payload, whose loads read the whole input blocks and the reset value back. -/
theorem soutA_M_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) :
    soutA_M c i arg3 harg3 arg4 harg4 arg5 harg5 arg6 harg6 arg7 harg7 arg8 harg8 arg9 harg9 hc0 hc1 hc2 x0 x1 x2 = k1_pay6 (k1_pay10 (BitVec.ofNat 32 (i 1).val) (BitVec.ofNat 32 (i 2).val) x0 x1 (k1_pay1 (F := F))) := by
  unfold soutA_M
  rw [View.read_writes_eq_canon _ _ _ (scoverA_M c i arg3 harg3 arg4 harg4 arg5 harg5 arg6 harg6 arg7 harg7 arg8 harg8 arg9 harg9 hc0 hc1 hc2 x0 x1 x2)]
  unfold kernelRunA
  dsimp only
  rw [View.canon_cons_unit_zero (S := S1024x1) hz2]
  sl_unfold_words
  rw [View.readCov_unit_zero (S := S1024x1) _ hz2]
  simp only [View.readAt_eq_ld, harg3.read_unread, harg4.read_unread, View.ld_unit_zero (S := S1x1024x64) hz3]

/-- After a point of key tile 0 the running-denominator buffer holds the reset denominator (zero) rescaled plus the
    tile's row sums, over the reset maximum. -/
theorem soutA_L_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) :
    soutA_L c i arg3 harg3 arg4 harg4 arg5 harg5 arg6 harg6 arg7 harg7 arg8 harg8 arg9 harg9 hc0 hc1 hc2 x0 x1 x2 = k1_pay4 (k1_pay13 (BitVec.ofNat 32 (i 1).val) (BitVec.ofNat 32 (i 2).val) x0 x1 (k1_pay1 (F := F)) (k1_pay2 (F := F))) := by
  unfold soutA_L
  rw [View.read_writes_eq_canon _ _ _ (scoverA_L c i arg3 harg3 arg4 harg4 arg5 harg5 arg6 harg6 arg7 harg7 arg8 harg8 arg9 harg9 hc0 hc1 hc2 x0 x1 x2)]
  unfold kernelRunA
  dsimp only
  rw [View.canon_cons_unit_zero (S := S1024x1) hz2]
  sl_unfold_words
  rw [View.readCov_unit_zero (S := S1024x1) _ hz2, View.readCov_unit_zero (S := S1024x1) _ hz2]
  simp only [View.readAt_eq_ld, harg3.read_unread, harg4.read_unread, View.ld_unit_zero (S := S1x1024x64) hz3]

/-- After a point of key tile 0 the running-numerator buffer holds the reset numerator (zero) rescaled plus the tile's
    weights against its value rows, over the reset maximum. -/
theorem soutA_A_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : condReset i) (hc1 : condStep i) (hc2 : ¬condOut i) (x0 x1 x2 : Vec F S1x1024x64 .f32) :
    soutA_A c i arg3 harg3 arg4 harg4 arg5 harg5 arg6 harg6 arg7 harg7 arg8 harg8 arg9 harg9 hc0 hc1 hc2 x0 x1 x2 = k1_pay5 (k1_pay8 x2) (k1_pay11 (BitVec.ofNat 32 (i 1).val) (BitVec.ofNat 32 (i 2).val) x0 x1 (k1_pay1 (F := F))) (k1_pay12 (BitVec.ofNat 32 (i 1).val) (BitVec.ofNat 32 (i 2).val) x0 x1 (k1_pay1 (F := F))) (k1_pay3 (F := F)) := by
  unfold soutA_A
  rw [View.read_writes_eq_canon _ _ _ (scoverA_A c i arg3 harg3 arg4 harg4 arg5 harg5 arg6 harg6 arg7 harg7 arg8 harg8 arg9 harg9 hc0 hc1 hc2 x0 x1 x2)]
  unfold kernelRunA
  dsimp only
  rw [View.canon_cons_unit_zero (S := S1024x64) hz2]
  sl_unfold_words
  rw [View.readCov_unit_zero (S := S1024x1) _ hz2, View.readCov_unit_zero (S := S1024x64) _ hz2]
  simp only [View.readAt_eq_ld, harg3.read_unread, harg4.read_unread, harg5.read_unread, View.ld_unit_zero (S := S1x1024x64) hz3]

/-- At a point above the diagonal the output block is the numerator the point before left over its denominator: the one
    store's payload, whose loads read the two scratch buffers whole. -/
theorem outB_O_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : ¬condStep i) (hc2 : condOut i) (x0 x1 x2 : Vec F S1x1024x64 .f32) (xsM xsL : Vec F S1024x1 .f32) (xsA : Vec F S1024x64 .f32) :
    outB_O c i arg3 harg3 arg4 harg4 arg5 harg5 arg6 harg6 arg7 harg7 arg8 harg8 arg9 harg9 hc0 hc1 hc2 x0 x1 x2 xsM xsL xsA = k1_pay7 xsA xsL := by
  unfold outB_O
  rw [View.read_writes_eq_canon _ _ _ (coverB_O c i arg3 harg3 arg4 harg4 arg5 harg5 arg6 harg6 arg7 harg7 arg8 harg8 arg9 harg9 hc0 hc1 hc2 x0 x1 x2 xsM xsL xsA)]
  unfold kernelRunB
  dsimp only
  rw [View.canon_unit_zero (S := S1x1024x64) hz3]
  simp only [View.readAt_eq_ld, harg8.read_unread, harg9.read_unread, View.ld_unit_zero (S := S1024x1) hz2, View.ld_unit_zero (S := S1024x64) hz2]

/-- After a diagonal point of key tile 1 the running-maximum buffer holds the larger of the maximum the point before left
    and the tile's row maxima. -/
theorem soutC_M_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) :
    soutC_M c i arg3 harg3 arg4 harg4 arg5 harg5 arg6 harg6 arg7 harg7 arg8 harg8 arg9 harg9 hc0 hc1 hc2 x0 x1 x2 xsM xsL xsA = k1_pay6 (k1_pay10 (BitVec.ofNat 32 (i 1).val) (BitVec.ofNat 32 (i 2).val) x0 x1 xsM) := by
  unfold soutC_M
  rw [View.read_writes_eq_canon _ _ _ (scoverC_M c i arg3 harg3 arg4 harg4 arg5 harg5 arg6 harg6 arg7 harg7 arg8 harg8 arg9 harg9 hc0 hc1 hc2 x0 x1 x2 xsM xsL xsA)]
  unfold kernelRunC
  dsimp only
  rw [View.canon_unit_zero (S := S1024x1) hz2]
  sl_unfold_words
  simp only [View.readAt_eq_ld, harg3.read_unread, harg4.read_unread, harg7.read_unread, View.ld_unit_zero (S := S1x1024x64) hz3, View.ld_unit_zero (S := S1024x1) hz2]

/-- After a diagonal point of key tile 1 the running-denominator buffer holds the denominator the point before left,
    rescaled, plus the tile's row sums. -/
theorem soutC_L_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) :
    soutC_L c i arg3 harg3 arg4 harg4 arg5 harg5 arg6 harg6 arg7 harg7 arg8 harg8 arg9 harg9 hc0 hc1 hc2 x0 x1 x2 xsM xsL xsA = k1_pay4 (k1_pay13 (BitVec.ofNat 32 (i 1).val) (BitVec.ofNat 32 (i 2).val) x0 x1 xsM xsL) := by
  unfold soutC_L
  rw [View.read_writes_eq_canon _ _ _ (scoverC_L c i arg3 harg3 arg4 harg4 arg5 harg5 arg6 harg6 arg7 harg7 arg8 harg8 arg9 harg9 hc0 hc1 hc2 x0 x1 x2 xsM xsL xsA)]
  unfold kernelRunC
  dsimp only
  sl_unfold_words
  rw [View.canon_unit_zero (S := S1024x1) hz2]
  simp only [View.readAt_eq_ld, harg3.read_unread, harg4.read_unread, harg7.read_unread, harg8.read_unread, View.ld_unit_zero (S := S1x1024x64) hz3, View.ld_unit_zero (S := S1024x1) hz2]

/-- After a diagonal point of key tile 1 the running-numerator buffer holds the numerator the point before left,
    rescaled, plus the tile's weights against its value rows. -/
theorem soutC_A_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) :
    soutC_A c i arg3 harg3 arg4 harg4 arg5 harg5 arg6 harg6 arg7 harg7 arg8 harg8 arg9 harg9 hc0 hc1 hc2 x0 x1 x2 xsM xsL xsA = k1_pay5 (k1_pay8 x2) (k1_pay11 (BitVec.ofNat 32 (i 1).val) (BitVec.ofNat 32 (i 2).val) x0 x1 xsM) (k1_pay12 (BitVec.ofNat 32 (i 1).val) (BitVec.ofNat 32 (i 2).val) x0 x1 xsM) xsA := by
  unfold soutC_A
  rw [View.read_writes_eq_canon _ _ _ (scoverC_A c i arg3 harg3 arg4 harg4 arg5 harg5 arg6 harg6 arg7 harg7 arg8 harg8 arg9 harg9 hc0 hc1 hc2 x0 x1 x2 xsM xsL xsA)]
  unfold kernelRunC
  dsimp only
  sl_unfold_words
  rw [View.canon_unit_zero (S := S1024x64) hz2]
  simp only [View.readAt_eq_ld, harg3.read_unread, harg4.read_unread, harg5.read_unread, harg7.read_unread, harg9.read_unread, View.ld_unit_zero (S := S1x1024x64) hz3, View.ld_unit_zero (S := S1024x1) hz2, View.ld_unit_zero (S := S1024x64) hz2]

/-- At a diagonal point of key tile 1 the output block is the numerator the point has just stored over the denominator
    it has just stored: the output store's loads read back what the accumulation stored into the two scratch buffers. -/
theorem outC_O_eq (c : Dev nD) (i : grid1.Coords) (arg3 : Memref sig .tc .vmem S1x1024x64 .f32) (harg3 : arg3.IsWhole) (arg4 : Memref sig .tc .vmem S1x1024x64 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬condReset i) (hc1 : condStep i) (hc2 : condOut i) (x0 x1 x2 : Vec F S1x1024x64 .f32) (xsM xsL : Vec F S1024x1 .f32) (xsA : Vec F S1024x64 .f32) :
    outC_O c i arg3 harg3 arg4 harg4 arg5 harg5 arg6 harg6 arg7 harg7 arg8 harg8 arg9 harg9 hc0 hc1 hc2 x0 x1 x2 xsM xsL xsA = k1_pay7 (k1_pay5 (k1_pay8 x2) (k1_pay11 (BitVec.ofNat 32 (i 1).val) (BitVec.ofNat 32 (i 2).val) x0 x1 xsM) (k1_pay12 (BitVec.ofNat 32 (i 1).val) (BitVec.ofNat 32 (i 2).val) x0 x1 xsM) xsA) (k1_pay4 (k1_pay13 (BitVec.ofNat 32 (i 1).val) (BitVec.ofNat 32 (i 2).val) x0 x1 xsM xsL)) := by
  unfold outC_O
  rw [View.read_writes_eq_canon _ _ _ (coverC_O c i arg3 harg3 arg4 harg4 arg5 harg5 arg6 harg6 arg7 harg7 arg8 harg8 arg9 harg9 hc0 hc1 hc2 x0 x1 x2 xsM xsL xsA)]
  unfold kernelRunC
  dsimp only
  rw [View.canon_unit_zero (S := S1x1024x64) hz3]
  sl_unfold_words
  rw [View.readCov_unit_zero (S := S1024x64) _ hz2, View.readCov_unit_zero (S := S1024x1) _ hz2]
  simp only [View.readAt_eq_ld, harg3.read_unread, harg4.read_unread, harg5.read_unread, harg7.read_unread, harg8.read_unread, harg9.read_unread, View.ld_unit_zero (S := S1x1024x64) hz3, View.ld_unit_zero (S := S1024x1) hz2, View.ld_unit_zero (S := S1024x64) hz2]

end Cert.KernelIdeal.Fr1

end
-- ==== Proof.Payload1.lean ====
/-
  The attention kernel's arithmetic read at an index: each value the flash-attention step stores back, at an explicit
  row and column, as the running-softmax update of the specification (new maximum, rescaled denominator, rescaled
  numerator), together with the initial values and the final quotient.
-/
import proofs.«129131_j53901839564972_2_alg».proof.Proof.Gen.KernelIdeal.Skeleton
import proofs.«129131_j53901839564972_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.SL.Sem

/-! ## The literals -/

/-- The pattern 0xFF800000 is minus infinity. -/
theorem ofBits_negInf : Ideal.ofBits .f32 0xFF800000#32 = ⊥ := by
  simp [Ideal.ofBits, Ideal.ieee]

/-- The pattern 0x41000000 is eight. -/
theorem ofBits_eight : Ideal.ofBits .f32 0x41000000#32 = 8 := by
  simp [Ideal.ofBits, Ideal.ieee, -EReal.coe_mul]; norm_num; rfl

/-- The masking constant is named minus infinity. -/
theorem neg_big : Named.named (F := Ideal) κ "neg_big" (φ := .f32) 0xFF333332#32 = ⊥ :=
  IdealRules.named_const.ideal_named_scalar _ _ _ _ rfl

/-! ## The two products of the step -/

/-- Query rows against key rows: both operands contract their second axis. -/
abbrev Dqk := dot_S1024x64_S1024x64_S1024x1024_1_1_0_0_n_n
/-- Weights against value rows: the weights' second axis against the values' first. -/
abbrev Dpv := dot_S1024x1024_S1024x64_S1024x64_1_0_0_1_n_n

theorem Dqk_lhs0 (i : S1024x1024.Idx) (q : Dqk.contr.Idx) : (Dqk.lhsIdx i q 0).val = (i 0).val := by
  unfold DotDims.lhsIdx
  rw [dif_neg (show ¬(0 : Fin S1024x64.rank) ∈ Dqk.lhsBatch by decide), dif_pos (show (0 : Fin S1024x64.rank) ∈ Dqk.lhsNonContracting by decide)]
  rfl
theorem Dqk_lhs1 (i : S1024x1024.Idx) (q : Dqk.contr.Idx) : (Dqk.lhsIdx i q 1).val = (q ⟨0, by decide⟩).val :=
  Dqk.lhsIdx_val_of_single rfl i q
theorem Dqk_rhs0 (i : S1024x1024.Idx) (q : Dqk.contr.Idx) : (Dqk.rhsIdx i q 0).val = (i 1).val := by
  unfold DotDims.rhsIdx
  rw [dif_neg (show ¬(0 : Fin S1024x64.rank) ∈ Dqk.rhsBatch by decide), dif_pos (show (0 : Fin S1024x64.rank) ∈ Dqk.rhsNonContracting by decide)]
  rfl
theorem Dqk_rhs1 (i : S1024x1024.Idx) (q : Dqk.contr.Idx) : (Dqk.rhsIdx i q 1).val = (q ⟨0, by decide⟩).val :=
  Dqk.rhsIdx_val_of_single rfl i q

/-- The left operand's index of the query-key product at output `(r, c)` and contraction coordinate `k` is `(r, k)`. -/
theorem Dqk_lhsIdx (r c : Fin 1024) (k : Fin 64) :
    Dqk.lhsIdx (ix2 r c) ((contrEquiv1 Dqk 64 rfl rfl).symm k) = ix2 r k :=
  funext fun a => Fin.ext (by
    match a with
    | ⟨0, _⟩ => exact Dqk_lhs0 _ _
    | ⟨1, _⟩ => exact (Dqk_lhs1 _ _).trans (contrEquiv1_symm_val Dqk 64 rfl rfl k))
/-- The right operand's is `(c, k)`. -/
theorem Dqk_rhsIdx (r c : Fin 1024) (k : Fin 64) :
    Dqk.rhsIdx (ix2 r c) ((contrEquiv1 Dqk 64 rfl rfl).symm k) = ix2 c k :=
  funext fun a => Fin.ext (by
    match a with
    | ⟨0, _⟩ => exact Dqk_rhs0 _ _
    | ⟨1, _⟩ => exact (Dqk_rhs1 _ _).trans (contrEquiv1_symm_val Dqk 64 rfl rfl k))

/-- The query-key product at `(r, c)`: row `r` of the query block against row `c` of the key block. -/
theorem qk_apply (qb kb : Vec Ideal S1x1024x64 .f32) (r c : Fin 1024) :
    matmul Dqk none
      (truncf .bf16 (shapeCast S1024x64 qb shapeCasts_S1x1024x64_S1024x64) bitsLt_bf16_f32)
      (truncf .bf16 (shapeCast S1024x64 kb shapeCasts_S1x1024x64_S1024x64) bitsLt_bf16_f32)
      (constant (F := Ideal) S1024x1024 .f32 0x00000000#32) (ix2 r c)
    = ∑ h : Fin 64, qb (ix3 0 r h) * kb (ix3 0 c h) := by
  simp only [matmul]
  rw [Ideal.matmul_constant_zero_apply, ← Equiv.sum_comp (contrEquiv1 Dqk 64 rfl rfl).symm]
  refine Finset.sum_congr rfl fun k _ => ?_
  rw [Dqk_lhsIdx, Dqk_rhsIdx, truncf_apply, truncf_apply, shapeCast_1ab_ab_apply, shapeCast_1ab_ab_apply]

theorem Dpv_lhs0 (i : S1024x64.Idx) (q : Dpv.contr.Idx) : (Dpv.lhsIdx i q 0).val = (i 0).val := by
  unfold DotDims.lhsIdx
  rw [dif_neg (show ¬(0 : Fin S1024x1024.rank) ∈ Dpv.lhsBatch by decide), dif_pos (show (0 : Fin S1024x1024.rank) ∈ Dpv.lhsNonContracting by decide)]
  rfl
theorem Dpv_lhs1 (i : S1024x64.Idx) (q : Dpv.contr.Idx) : (Dpv.lhsIdx i q 1).val = (q ⟨0, by decide⟩).val :=
  Dpv.lhsIdx_val_of_single rfl i q
theorem Dpv_rhs0 (i : S1024x64.Idx) (q : Dpv.contr.Idx) : (Dpv.rhsIdx i q 0).val = (q ⟨0, by decide⟩).val :=
  Dpv.rhsIdx_val_of_single rfl i q
theorem Dpv_rhs1 (i : S1024x64.Idx) (q : Dpv.contr.Idx) : (Dpv.rhsIdx i q 1).val = (i 1).val := by
  unfold DotDims.rhsIdx
  rw [dif_neg (show ¬(1 : Fin S1024x64.rank) ∈ Dpv.rhsBatch by decide), dif_pos (show (1 : Fin S1024x64.rank) ∈ Dpv.rhsNonContracting by decide)]
  rfl

/-- The left operand's index of the weights-values product at output `(r, h)` and contraction coordinate `c` is `(r, c)`. -/
theorem Dpv_lhsIdx (r : Fin 1024) (h : Fin 64) (c : Fin 1024) :
    Dpv.lhsIdx (ix2 r h) ((contrEquiv1 Dpv 1024 rfl rfl).symm c) = ix2 r c :=
  funext fun a => Fin.ext (by
    match a with
    | ⟨0, _⟩ => exact Dpv_lhs0 _ _
    | ⟨1, _⟩ => exact (Dpv_lhs1 _ _).trans (contrEquiv1_symm_val Dpv 1024 rfl rfl c))
/-- The right operand's is `(c, h)`. -/
theorem Dpv_rhsIdx (r : Fin 1024) (h : Fin 64) (c : Fin 1024) :
    Dpv.rhsIdx (ix2 r h) ((contrEquiv1 Dpv 1024 rfl rfl).symm c) = ix2 c h :=
  funext fun a => Fin.ext (by
    match a with
    | ⟨0, _⟩ => exact (Dpv_rhs0 _ _).trans (contrEquiv1_symm_val Dpv 1024 rfl rfl c)
    | ⟨1, _⟩ => exact Dpv_rhs1 _ _)

/-- The weights-values product at `(r, h)`: row `r` of the weights against column `h` of the value block. -/
theorem pv_apply (p : FVec Ideal S1024x1024 .f32) (vb : Vec Ideal S1x1024x64 .f32) (r : Fin 1024) (h : Fin 64) :
    matmul Dpv none (truncf .bf16 p bitsLt_bf16_f32)
      (truncf .bf16 (shapeCast S1024x64 vb shapeCasts_S1x1024x64_S1024x64) bitsLt_bf16_f32)
      (constant (F := Ideal) S1024x64 .f32 0x00000000#32) (ix2 r h)
    = ∑ c : Fin 1024, p (ix2 r c) * vb (ix3 0 c h) := by
  simp only [matmul]
  rw [Ideal.matmul_constant_zero_apply, ← Equiv.sum_comp (contrEquiv1 Dpv 1024 rfl rfl).symm]
  refine Finset.sum_congr rfl fun c _ => ?_
  rw [Dpv_lhsIdx, Dpv_rhsIdx, truncf_apply, truncf_apply, shapeCast_1ab_ab_apply]

/-! ## The causal mask -/

/-- Two small words compare as signed integers the way their numbers do. -/
theorem sle_ofNat (a b : ℕ) (ha : a < 2 ^ 31) (hb : b < 2 ^ 31) :
    (BitVec.ofNat 32 a).sle (BitVec.ofNat 32 b) = decide (a ≤ b) := by
  simp only [BitVec.sle, BitVec.toInt, BitVec.toNat_ofNat]
  rw [Nat.mod_eq_of_lt (by omega), Nat.mod_eq_of_lt (by omega)]
  rw [if_pos (by omega), if_pos (by omega)]
  simp

/-- A tile number times 1024 plus a coordinate inside the tile, as a word. -/
theorem tile_word (i : ℕ) (r : Fin 1024) :
    IntOp.addi (Scalar.muli (BitVec.ofNat 32 i) 1024#32) (BitVec.ofNat 32 r.val) = BitVec.ofNat 32 (i * 1024 + r.val) := by
  show BitVec.ofNat 32 i * 1024#32 + BitVec.ofNat 32 r.val = _
  rw [show (1024#32 : BitVec 32) = BitVec.ofNat 32 1024 from rfl, ← BitVec.ofNat_mul, ← BitVec.ofNat_add]

/-- The mask of the step at `(r, c)`: set exactly where the key row's number is at most the query row's. -/
theorem mask_apply (i j : ℕ) (hi : i < 2) (hj : j < 2) (r c : Fin 1024) :
    cmpi .sge (addi (broadcast S1024x1024 (Scalar.muli (BitVec.ofNat 32 i) 1024#32)) (iota .tc S1024x1024 32 [0] iota_S1024x1024_d0_w32))
      (addi (broadcast S1024x1024 (Scalar.muli (BitVec.ofNat 32 j) 1024#32)) (iota .tc S1024x1024 32 [1] iota_S1024x1024_d1_w32)) (ix2 r c)
    = BitVec.ofBool (decide (j * 1024 + c.val ≤ i * 1024 + r.val)) := by
  show IntOp.cmpi .sge (IntOp.addi _ (iota .tc S1024x1024 32 [0] iota_S1024x1024_d0_w32 (ix2 r c)))
    (IntOp.addi _ (iota .tc S1024x1024 32 [1] iota_S1024x1024_d1_w32 (ix2 r c))) = _
  rw [iota_single_apply, iota_single_apply]
  show IntOp.cmpi .sge (IntOp.addi _ (BitVec.ofNat 32 r.val)) (IntOp.addi _ (BitVec.ofNat 32 c.val)) = _
  rw [broadcast_apply, broadcast_apply, tile_word, tile_word]
  show BitVec.ofBool ((BitVec.ofNat 32 (j * 1024 + c.val)).sle (BitVec.ofNat 32 (i * 1024 + r.val))) = _
  rw [sle_ofNat _ _ (by have := c.isLt; omega) (by have := r.isLt; omega)]

/-! ## The scores of a tile -/

/-- The masked scaled scores of query tile `i` against key tile `j`: query row `r` against key row `c`, times eight where
    the key row's number is at most the query row's, minus infinity elsewhere. -/
def tileScore (i j : ℕ) (qb kb : Vec Ideal S1x1024x64 .f32) (r c : Fin 1024) : EReal :=
  if j * 1024 + c.val ≤ i * 1024 + r.val then (∑ h : Fin 64, qb (ix3 0 r h) * kb (ix3 0 c h)) * 8 else ⊥

/-- The step's score matrix at `(r, c)`. -/
theorem pay9_apply (i j : ℕ) (hi : i < 2) (hj : j < 2) (qb kb : Vec Ideal S1x1024x64 .f32) (r c : Fin 1024) :
    k1_pay9 (F := Ideal) (BitVec.ofNat 32 i) (BitVec.ofNat 32 j) qb kb (ix2 r c) = tileScore i j qb kb r c := by
  unfold k1_pay9 tileScore
  dsimp only
  rw [select_apply, mask_apply i j hi hj, mulf_apply, qk_apply, broadcast_apply, broadcast_apply, neg_big]
  show Scalar.select _ (_ * Ideal.ofBits .f32 0x41000000#32) ⊥ = _
  rw [ofBits_eight]
  by_cases hc : j * 1024 + c.val ≤ i * 1024 + r.val
  · rw [if_pos hc, decide_eq_true hc]; exact select_one _ _
  · rw [if_neg hc, decide_eq_false hc]; exact select_zero _ _

/-! ## Columns: a vector as a one-column matrix, and a one-column matrix spread over columns -/

/-- A length-`a` vector cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## The two row reductions -/

/-- The fold of `max` from minus infinity is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

/-- The index the row reduction reads: row `r`, column `c`. -/
theorem lift_row (r : Fin 1024) (c : Fin 1024) : reduces_S1024x1024_S1024.lift (ix1 r) c = ix2 r c :=
  funext fun a => Fin.ext (by
    match a with
    | ⟨0, _⟩ => rfl
    | ⟨1, _⟩ => rfl)

/-- The maximum over a row of a `1024 × 1024` matrix, from minus infinity: the supremum of the row. -/
theorem rowMax_apply (src : FVec Ideal S1024x1024 .f32) (r : Fin 1024) :
    multiReduction (F := Ideal) .maximumf [1] S1024 src 0xFF800000#32 reduces_S1024x1024_S1024 (.inl rfl) rfl (ix1 r)
      = Finset.univ.sup fun c : Fin 1024 => src (ix2 r c) := by
  refine (Ideal.multiReduction_maximumf_single src 0xFF800000#32 reduces_S1024x1024_S1024 (.inl rfl) rfl (ix1 r)).trans ?_
  rw [Ideal.ofBits_def, ofBits_negInf]
  refine (fold_max_bot _ _).trans ?_
  exact congrArg (Finset.univ.sup) (funext fun c : Fin 1024 => congrArg src (lift_row r c))

/-- The sum over a row of a `1024 × 1024` matrix, from zero. -/
theorem rowSum_apply (src : FVec Ideal S1024x1024 .f32) (r : Fin 1024) :
    multiReduction (F := Ideal) .add [1] S1024 src 0x00000000#32 reduces_S1024x1024_S1024 (.inl rfl) rfl (ix1 r)
      = ∑ c : Fin 1024, src (ix2 r c) := by
  refine (Ideal.multiReduction_add_single src 0x00000000#32 reduces_S1024x1024_S1024 (.inl rfl) rfl (ix1 r)).trans ?_
  exact Finset.sum_congr rfl fun c _ => congrArg src (lift_row r c)

/-! ## The step, value by value -/

/-- The running state of row `r` as the three scratch buffers hold it. -/
def rowState (m l : Vec Ideal S1024x1 .f32) (acc : Vec Ideal S1024x64 .f32) (r : Fin 1024) : Cert.Attn.RowState :=
  ⟨m (ix2 r (0 : Fin 1)), l (ix2 r (0 : Fin 1)), fun h => acc (ix2 r h)⟩

/-- The new running maximum of row `r`. -/
theorem pay10_apply (i j : ℕ) (hi : i < 2) (hj : j < 2) (qb kb : Vec Ideal S1x1024x64 .f32) (m : Vec Ideal S1024x1 .f32)
    (r : Fin 1024) :
    k1_pay10 (F := Ideal) (BitVec.ofNat 32 i) (BitVec.ofNat 32 j) qb kb m (ix2 r (0 : Fin 1))
      = max (m (ix2 r (0 : Fin 1))) (Finset.univ.sup fun c : Fin 1024 => tileScore i j qb kb r c) := by
  unfold k1_pay10
  dsimp only
  rw [maximumf_apply, shapeCast_a_a1_apply, rowMax_apply]
  exact congrArg (max _) (congrArg Finset.univ.sup (funext fun c => pay9_apply i j hi hj qb kb r c))

/-- The factor the old sums are rescaled by: the exponential of the old maximum minus the new. -/
theorem pay11_apply (i j : ℕ) (hi : i < 2) (hj : j < 2) (qb kb : Vec Ideal S1x1024x64 .f32) (m : Vec Ideal S1024x1 .f32)
    (r : Fin 1024) :
    k1_pay11 (F := Ideal) (BitVec.ofNat 32 i) (BitVec.ofNat 32 j) qb kb m (ix2 r (0 : Fin 1))
      = Ideal.exp (m (ix2 r (0 : Fin 1)) - max (m (ix2 r (0 : Fin 1))) (Finset.univ.sup fun c : Fin 1024 => tileScore i j qb kb r c)) := by
  unfold k1_pay11
  show Ideal.exp (subf m (k1_pay10 (F := Ideal) (BitVec.ofNat 32 i) (BitVec.ofNat 32 j) qb kb m) (ix2 r (0 : Fin 1))) = _
  rw [subf_apply, pay10_apply i j hi hj]

/-- The tile's unnormalised weights: the exponential of each score minus the new maximum of its row. -/
theorem pay12_apply (i j : ℕ) (hi : i < 2) (hj : j < 2) (qb kb : Vec Ideal S1x1024x64 .f32) (m : Vec Ideal S1024x1 .f32)
    (r c : Fin 1024) :
    k1_pay12 (F := Ideal) (BitVec.ofNat 32 i) (BitVec.ofNat 32 j) qb kb m (ix2 r c)
      = Ideal.exp (tileScore i j qb kb r c - max (m (ix2 r (0 : Fin 1))) (Finset.univ.sup fun c : Fin 1024 => tileScore i j qb kb r c)) := by
  unfold k1_pay12
  show Ideal.exp (subf (k1_pay9 (F := Ideal) (BitVec.ofNat 32 i) (BitVec.ofNat 32 j) qb kb)
    (broadcastTo S1024x1024 (k1_pay10 (F := Ideal) (BitVec.ofNat 32 i) (BitVec.ofNat 32 j) qb kb m) broadcasts_S1024x1_S1024x1024) (ix2 r c)) = _
  rw [subf_apply, broadcastTo_a1_ab_apply, pay9_apply i j hi hj, pay10_apply i j hi hj]

/-- The new running denominator of row `r`. -/
theorem pay13_apply (i j : ℕ) (hi : i < 2) (hj : j < 2) (qb kb : Vec Ideal S1x1024x64 .f32) (m l : Vec Ideal S1024x1 .f32)
    (r : Fin 1024) :
    k1_pay13 (F := Ideal) (BitVec.ofNat 32 i) (BitVec.ofNat 32 j) qb kb m l (ix2 r (0 : Fin 1))
      = Ideal.exp (m (ix2 r (0 : Fin 1)) - max (m (ix2 r (0 : Fin 1))) (Finset.univ.sup fun c : Fin 1024 => tileScore i j qb kb r c))
          * l (ix2 r (0 : Fin 1))
        + ∑ c : Fin 1024, Ideal.exp (tileScore i j qb kb r c
            - max (m (ix2 r (0 : Fin 1))) (Finset.univ.sup fun c : Fin 1024 => tileScore i j qb kb r c)) := by
  unfold k1_pay13
  dsimp only
  rw [addf_apply, mulf_apply, pay11_apply i j hi hj, shapeCast_a_a1_apply, rowSum_apply]
  exact congrArg (_ + ·) (Finset.sum_congr rfl fun c _ => pay12_apply i j hi hj qb kb m r c)

/-- The new running numerator of row `r` at column `h`. -/
theorem pay5_apply (i j : ℕ) (hi : i < 2) (hj : j < 2) (qb kb vb : Vec Ideal S1x1024x64 .f32) (m : Vec Ideal S1024x1 .f32)
    (acc : Vec Ideal S1024x64 .f32) (r : Fin 1024) (h : Fin 64) :
    k1_pay5 (F := Ideal) (k1_pay8 vb) (k1_pay11 (BitVec.ofNat 32 i) (BitVec.ofNat 32 j) qb kb m)
        (k1_pay12 (BitVec.ofNat 32 i) (BitVec.ofNat 32 j) qb kb m) acc (ix2 r h)
      = Ideal.exp (m (ix2 r (0 : Fin 1)) - max (m (ix2 r (0 : Fin 1))) (Finset.univ.sup fun c : Fin 1024 => tileScore i j qb kb r c))
          * acc (ix2 r h)
        + ∑ c : Fin 1024, Ideal.exp (tileScore i j qb kb r c
            - max (m (ix2 r (0 : Fin 1))) (Finset.univ.sup fun c : Fin 1024 => tileScore i j qb kb r c)) * vb (ix3 0 c h) := by
  unfold k1_pay5 k1_pay8
  dsimp only
  rw [shapeCast_self, addf_apply, mulf_apply, broadcastTo_a1_ab_apply, pay11_apply i j hi hj, pv_apply]
  exact congrArg (_ + ·) (Finset.sum_congr rfl fun c _ => by rw [pay12_apply i j hi hj])

/-! ## The step is the specification's -/

/-- What the step stores as the running maximum is the specification's new maximum. -/
theorem step_m (i j : ℕ) (hi : i < 2) (hj : j < 2) (qb kb vb : Vec Ideal S1x1024x64 .f32) (m l : Vec Ideal S1024x1 .f32)
    (acc : Vec Ideal S1024x64 .f32) (r : Fin 1024) :
    k1_pay6 (F := Ideal) (k1_pay10 (BitVec.ofNat 32 i) (BitVec.ofNat 32 j) qb kb m) (ix2 r (0 : Fin 1))
      = ((rowState m l acc r).step (fun c => tileScore i j qb kb r c) (fun c h => vb (ix3 0 c h))).m := by
  unfold k1_pay6
  rw [shapeCast_self]
  exact pay10_apply i j hi hj qb kb m r

/-- What it stores as the running denominator is the specification's new denominator. -/
theorem step_l (i j : ℕ) (hi : i < 2) (hj : j < 2) (qb kb vb : Vec Ideal S1x1024x64 .f32) (m l : Vec Ideal S1024x1 .f32)
    (acc : Vec Ideal S1024x64 .f32) (r : Fin 1024) :
    k1_pay4 (F := Ideal) (k1_pay13 (BitVec.ofNat 32 i) (BitVec.ofNat 32 j) qb kb m l) (ix2 r (0 : Fin 1))
      = ((rowState m l acc r).step (fun c => tileScore i j qb kb r c) (fun c h => vb (ix3 0 c h))).l := by
  unfold k1_pay4
  rw [shapeCast_self]
  exact pay13_apply i j hi hj qb kb m l r

/-- What it stores as the running numerator is the specification's new numerator. -/
theorem step_acc (i j : ℕ) (hi : i < 2) (hj : j < 2) (qb kb vb : Vec Ideal S1x1024x64 .f32) (m l : Vec Ideal S1024x1 .f32)
    (acc : Vec Ideal S1024x64 .f32) (r : Fin 1024) (h : Fin 64) :
    k1_pay5 (F := Ideal) (k1_pay8 vb) (k1_pay11 (BitVec.ofNat 32 i) (BitVec.ofNat 32 j) qb kb m)
        (k1_pay12 (BitVec.ofNat 32 i) (BitVec.ofNat 32 j) qb kb m) acc (ix2 r h)
      = ((rowState m l acc r).step (fun c => tileScore i j qb kb r c) (fun c h => vb (ix3 0 c h))).acc h :=
  pay5_apply i j hi hj qb kb vb m acc r h

/-- The three together: the scratch buffers after the step hold the stepped state of every row. -/
theorem step_rowState (i j : ℕ) (hi : i < 2) (hj : j < 2) (qb kb vb : Vec Ideal S1x1024x64 .f32) (m l : Vec Ideal S1024x1 .f32)
    (acc : Vec Ideal S1024x64 .f32) (r : Fin 1024) :
    rowState (k1_pay6 (F := Ideal) (k1_pay10 (BitVec.ofNat 32 i) (BitVec.ofNat 32 j) qb kb m))
        (k1_pay4 (F := Ideal) (k1_pay13 (BitVec.ofNat 32 i) (BitVec.ofNat 32 j) qb kb m l))
        (k1_pay5 (F := Ideal) (k1_pay8 vb) (k1_pay11 (BitVec.ofNat 32 i) (BitVec.ofNat 32 j) qb kb m)
          (k1_pay12 (BitVec.ofNat 32 i) (BitVec.ofNat 32 j) qb kb m) acc) r
      = (rowState m l acc r).step (fun c => tileScore i j qb kb r c) (fun c h => vb (ix3 0 c h)) := by
  unfold rowState
  rw [step_m i j hi hj qb kb vb m l acc r, step_l i j hi hj qb kb vb m l acc r]
  exact congrArg (Cert.Attn.RowState.mk _ _) (funext fun h => step_acc i j hi hj qb kb vb m l acc r h)

/-! ## Before the first tile, and after the last -/

/-- The first tile's step starts from minus infinity, -/
theorem pay1_apply (r : Fin 1024) : k1_pay1 (F := Ideal) (ix2 r (0 : Fin 1)) = ⊥ := by
  unfold k1_pay1
  rw [shapeCast_self, broadcast_apply]
  exact ofBits_negInf

/-- zero, -/
theorem pay2_apply (r : Fin 1024) : k1_pay2 (F := Ideal) (ix2 r (0 : Fin 1)) = 0 := by
  unfold k1_pay2
  rw [shapeCast_self, broadcast_apply]
  exact Ideal.ofBits_zero_f32

/-- and zero. -/
theorem pay3_apply (r : Fin 1024) (h : Fin 64) : k1_pay3 (F := Ideal) (ix2 r h) = 0 := by
  unfold k1_pay3
  rw [shapeCast_self, broadcast_apply]
  exact Ideal.ofBits_zero_f32

/-- The scratch buffers as the first key tile's step initialises them hold the specification's initial state. -/
theorem init_rowState (r : Fin 1024) :
    rowState (k1_pay1 (F := Ideal)) (k1_pay2 (F := Ideal)) (k1_pay3 (F := Ideal)) r = Cert.Attn.RowState.init := by
  unfold rowState Cert.Attn.RowState.init
  rw [pay1_apply, pay2_apply]
  exact congrArg (Cert.Attn.RowState.mk _ _) (funext fun h => pay3_apply r h)

/-- What the last key tile's step writes out: the numerator over the denominator. -/
theorem pay7_apply (acc : Vec Ideal S1024x64 .f32) (l : Vec Ideal S1024x1 .f32) (r : Fin 1024) (h : Fin 64) :
    k1_pay7 (F := Ideal) acc l (ix3 (0 : Fin 1) r h) = Ideal.div (acc (ix2 r h)) (l (ix2 r (0 : Fin 1))) := by
  unfold k1_pay7
  rw [shapeCast_ab_1ab_apply, divf_apply, broadcastTo_a1_ab_apply]

/-- It is the specification's quotient of the row's state. -/
theorem pay7_result (m l : Vec Ideal S1024x1 .f32) (acc : Vec Ideal S1024x64 .f32) (r : Fin 1024) (h : Fin 64) :
    k1_pay7 (F := Ideal) acc l (ix3 (0 : Fin 1) r h) = (rowState m l acc r).result h :=
  pay7_apply acc l r h

end Cert.KernelIdeal.Pay

end
-- ==== Proof.Algebra1.lean ====
/-
  Real-valued bookkeeping for a softmax row on the extended reals.

  A score is either a real number or -infinity (a masked entry).  For a real shift m the weight
  exp (score - m) is the real number exp (x - m) for a real score x and 0 for a masked one; shifting by a
  different real m' multiplies every weight by the same positive factor exp (m - m'), so the normalised
  weighted sum does not depend on the shift.
-/
import proofs.«129131_j53901839564972_2_alg».proof.Proof.Spec

noncomputable section

open scoped BigOperators

namespace Cert.Attn

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real weight of a score `x` (real or -infinity) at the real shift `m`. -/
def wt (x : EReal) (m : ℝ) : ℝ := if x = ⊥ then 0 else Real.exp (x.toReal - m)

theorem wt_bot (m : ℝ) : wt ⊥ m = 0 := by simp [wt]

theorem wt_nonneg (x : EReal) (m : ℝ) : 0 ≤ wt x m := by
  unfold wt; split_ifs
  · exact le_rfl
  · exact (Real.exp_pos _).le

theorem wt_pos {x : EReal} (hx : x ≠ ⊥) (m : ℝ) : 0 < wt x m := by
  unfold wt; rw [if_neg hx]; exact Real.exp_pos _

/-- On the extended reals, `exp (x - m)` is the coercion of the real weight. -/
theorem exp_sub_coe {x : EReal} (hx : x ≠ ⊤) (m : ℝ) : Ideal.exp (x - (m : EReal)) = ((wt x m : ℝ) : EReal) := by
  by_cases hb : x = ⊥
  · subst hb
    rw [wt_bot, EReal.bot_sub]; rfl
  · have hc : ((x.toReal : ℝ) : EReal) = x := EReal.coe_toReal hx hb
    unfold wt; rw [if_neg hb]
    conv_lhs => rw [← hc]
    rw [← EReal.coe_sub]; rfl

/-- Changing the shift from `m1` to `m2` multiplies a weight by `exp (m1 - m2)`. -/
theorem wt_shift (x : EReal) (m1 m2 : ℝ) : Real.exp (m1 - m2) * wt x m1 = wt x m2 := by
  unfold wt; split_ifs
  · simp
  · rw [← Real.exp_add]; congr 1; ring

theorem wsum_shift {ι : Type*} [Fintype ι] (s : ι → EReal) (g : ι → ℝ) (m1 m2 : ℝ) :
    Real.exp (m1 - m2) * ∑ c, wt (s c) m1 * g c = ∑ c, wt (s c) m2 * g c := by
  rw [Finset.mul_sum]
  refine Finset.sum_congr rfl fun c _ => ?_
  rw [← mul_assoc, wt_shift]

theorem dsum_shift {ι : Type*} [Fintype ι] (s : ι → EReal) (m1 m2 : ℝ) :
    Real.exp (m1 - m2) * ∑ c, wt (s c) m1 = ∑ c, wt (s c) m2 := by
  rw [Finset.mul_sum]
  exact Finset.sum_congr rfl fun c _ => wt_shift _ _ _

theorem dsum_pos {ι : Type*} [Fintype ι] (s : ι → EReal) (c0 : ι) (h0 : s c0 ≠ ⊥) (m : ℝ) :
    0 < ∑ c, wt (s c) m :=
  Finset.sum_pos' (fun c _ => wt_nonneg _ _) ⟨c0, Finset.mem_univ _, wt_pos h0 m⟩

/-- The normalised weighted sum does not depend on the shift. -/
theorem ratio_shift {ι : Type*} [Fintype ι] (s : ι → EReal) (g : ι → ℝ) (m1 m2 : ℝ) :
    (∑ c, wt (s c) m1 * g c) / (∑ c, wt (s c) m1) = (∑ c, wt (s c) m2 * g c) / (∑ c, wt (s c) m2) := by
  rw [← wsum_shift s g m1 m2, ← dsum_shift s m1 m2, mul_div_mul_left _ _ (Real.exp_pos _).ne']

/-- A finite supremum of scores none of which is +infinity and one of which is real is a real number. -/
theorem sup_real {ι : Type*} [Fintype ι] (s : ι → EReal) (hs : ∀ c, s c ≠ ⊤) (c0 : ι) (h0 : s c0 ≠ ⊥) :
    ∃ M : ℝ, Finset.univ.sup s = (M : EReal) := by
  have htop : Finset.univ.sup s ≠ ⊤ := by
    have : Finset.univ.sup s < ⊤ := (Finset.sup_lt_iff (bot_lt_top)).2 fun c _ => lt_top_iff_ne_top.2 (hs c)
    exact this.ne
  have hbot : Finset.univ.sup s ≠ ⊥ := by
    intro h
    have : s c0 ≤ ⊥ := h ▸ Finset.le_sup (f := s) (Finset.mem_univ c0)
    exact h0 (le_bot_iff.1 this)
  exact ⟨(Finset.univ.sup s).toReal, (EReal.coe_toReal htop hbot).symm⟩

/-- The whole-row softmax output as the coercion of a real quotient. -/
theorem whole_real {ι : Type*} [Fintype ι] (s : ι → EReal) (hs : ∀ c, s c ≠ ⊤) (c0 : ι) (h0 : s c0 ≠ ⊥)
    (M : ℝ) (g : ι → ℝ) :
    ∑ c, Ideal.div (Ideal.exp (s c - (M : EReal))) (∑ c', Ideal.exp (s c' - (M : EReal))) * (g c : EReal)
      = (((∑ c, wt (s c) M * g c) / (∑ c, wt (s c) M) : ℝ) : EReal) := by
  have hZ : (∑ c, wt (s c) M) ≠ 0 := (dsum_pos s c0 h0 M).ne'
  have hden : (∑ c', Ideal.exp (s c' - (M : EReal))) = ((∑ c, wt (s c) M : ℝ) : EReal) := by
    rw [coe_sum]; exact Finset.sum_congr rfl fun c _ => exp_sub_coe (hs c) M
  rw [hden]
  conv_rhs => rw [Finset.sum_div, coe_sum]
  refine Finset.sum_congr rfl fun c _ => ?_
  rw [Ideal.div_coe hZ, exp_sub_coe (hs c) M, ← EReal.coe_mul, ← EReal.coe_mul]
  congr 1; ring

end Cert.Attn

end
-- ==== Proof.Algebra.lean ====
/-
  The tiled softmax row equals the whole-row softmax.

  A row of 2048 scores is cut into two tiles of 1024.  Adding a tile to the running state multiplies the sums
  collected so far by exp (old maximum - new maximum), which turns every weight taken at the old maximum into the
  same weight taken at the new one; after the last tile the running sums are the whole-row sums taken at the
  final running maximum, and the quotient of the two sums does not depend on which real shift was used.
-/
import proofs.«129131_j53901839564972_2_alg».proof.Proof.Algebra1

noncomputable section

open scoped BigOperators

namespace Cert.Attn

open Idealize.ShloMosaic Idealize.ShloMosaic.ValueIdx

/-- A sum over the 2048 key rows is the sum over tile 0 plus the sum over tile 1. -/
theorem sum_tiles {α : Type*} [AddCommMonoid α] (f : Fin 2048 → α) :
    ∑ c, f c = ∑ c : Fin 1024, f (tileRow 0 c) + ∑ c : Fin 1024, f (tileRow 1 c) := by
  have h := Fin.sum_univ_add (a := 1024) (b := 1024) f
  rw [show (∑ c, f c) = _ from h]
  congr 1 <;> refine Finset.sum_congr rfl fun c _ => congrArg f (Fin.ext ?_) <;> simp [tileRow]

/-- The first tile, added to the empty state. -/
theorem step_init_real (s : Fin 1024 → EReal) (hs : ∀ c, s c ≠ ⊤) (m : ℝ)
    (hm : Finset.univ.sup s = (m : EReal)) (vt : Fin 1024 → Fin 64 → ℝ) :
    RowState.init.step s (fun c h => (vt c h : EReal))
      = ⟨(m : EReal), ((∑ c, wt (s c) m : ℝ) : EReal), fun h => ((∑ c, wt (s c) m * vt c h : ℝ) : EReal)⟩ := by
  simp only [RowState.step, RowState.init, hm, max_bot_left, mul_zero, zero_add]
  congr 1
  · rw [coe_sum]; exact Finset.sum_congr rfl fun c _ => exp_sub_coe (hs c) m
  · funext h
    rw [coe_sum]
    refine Finset.sum_congr rfl fun c _ => ?_
    rw [exp_sub_coe (hs c) m, EReal.coe_mul]

/-- A further tile, added to a state whose three components are real. -/
theorem step_real (m1 L : ℝ) (A : Fin 64 → ℝ) (s : Fin 1024 → EReal) (hs : ∀ c, s c ≠ ⊤) (m2 : ℝ)
    (hm : max (m1 : EReal) (Finset.univ.sup s) = (m2 : EReal)) (vt : Fin 1024 → Fin 64 → ℝ) :
    (⟨(m1 : EReal), (L : EReal), fun h => (A h : EReal)⟩ : RowState).step s (fun c h => (vt c h : EReal))
      = ⟨(m2 : EReal), ((Real.exp (m1 - m2) * L + ∑ c, wt (s c) m2 : ℝ) : EReal),
          fun h => ((Real.exp (m1 - m2) * A h + ∑ c, wt (s c) m2 * vt c h : ℝ) : EReal)⟩ := by
  have he : Ideal.exp ((m1 : EReal) - (m2 : EReal)) = ((Real.exp (m1 - m2) : ℝ) : EReal) := by
    rw [← EReal.coe_sub]; rfl
  simp only [RowState.step, hm, he]
  congr 1
  · rw [EReal.coe_add, EReal.coe_mul, coe_sum]
    congr 1
    exact Finset.sum_congr rfl fun c _ => exp_sub_coe (hs c) m2
  · funext h
    rw [EReal.coe_add, EReal.coe_mul, coe_sum]
    congr 1
    refine Finset.sum_congr rfl fun c _ => ?_
    rw [exp_sub_coe (hs c) m2, EReal.coe_mul]

/-- Query tile 0: only key tile 0 is added; key tile 1 is masked throughout, so its weights vanish. -/
theorem row_tile0 (S : Fin 2048 → EReal) (hS : ∀ c, S c ≠ ⊤) (V : Fin 2048 → Fin 64 → ℝ) (r : Fin 1024)
    (hd : S (tileRow 0 r) ≠ ⊥) (hmask : ∀ c, S (tileRow 1 c) = ⊥) (h : Fin 64) :
    (RowState.init.step (fun c => S (tileRow 0 c)) (fun c h => (V (tileRow 0 c) h : EReal))).result h
      = ∑ c, Ideal.div (Ideal.exp (S c - Finset.univ.sup S)) (∑ c', Ideal.exp (S c' - Finset.univ.sup S))
          * (V c h : EReal) := by
  obtain ⟨M, hM⟩ := sup_real S hS (tileRow 0 r) hd
  obtain ⟨m0, hm0⟩ := sup_real (fun c => S (tileRow 0 c)) (fun c => hS _) r hd
  have hD0 : (∑ c : Fin 1024, wt (S (tileRow 0 c)) m0) ≠ 0 :=
    (dsum_pos (fun c => S (tileRow 0 c)) r hd m0).ne'
  rw [hM, whole_real S hS (tileRow 0 r) hd M (fun c => V c h),
    step_init_real _ (fun c => hS _) m0 hm0 (fun c h => V (tileRow 0 c) h)]
  simp only [RowState.result]
  rw [Ideal.div_coe hD0, ← EReal.coe_mul]
  congr 1
  rw [ratio_shift S (fun c => V c h) M m0, sum_tiles (fun c => wt (S c) m0 * V c h),
    sum_tiles (fun c => wt (S c) m0)]
  simp only [hmask, wt_bot, zero_mul, Finset.sum_const_zero, add_zero]
  rw [mul_one_div]

/-- Query tile 1: both key tiles are added. -/
theorem row_tile1 (S : Fin 2048 → EReal) (hS : ∀ c, S c ≠ ⊤) (V : Fin 2048 → Fin 64 → ℝ) (r : Fin 1024)
    (hd0 : S (tileRow 0 r) ≠ ⊥) (hd : S (tileRow 1 r) ≠ ⊥) (h : Fin 64) :
    ((RowState.init.step (fun c => S (tileRow 0 c)) (fun c h => (V (tileRow 0 c) h : EReal))).step
        (fun c => S (tileRow 1 c)) (fun c h => (V (tileRow 1 c) h : EReal))).result h
      = ∑ c, Ideal.div (Ideal.exp (S c - Finset.univ.sup S)) (∑ c', Ideal.exp (S c' - Finset.univ.sup S))
          * (V c h : EReal) := by
  obtain ⟨M, hM⟩ := sup_real S hS (tileRow 1 r) hd
  obtain ⟨m1, hm1⟩ := sup_real (fun c => S (tileRow 0 c)) (fun c => hS _) r hd0
  obtain ⟨m1', hm1'⟩ := sup_real (fun c => S (tileRow 1 c)) (fun c => hS _) r hd
  have hm2 : max (m1 : EReal) (Finset.univ.sup fun c => S (tileRow 1 c)) = ((max m1 m1' : ℝ) : EReal) := by
    rw [hm1']; exact (EReal.coe_strictMono.monotone.map_max).symm
  rw [hM, whole_real S hS (tileRow 1 r) hd M (fun c => V c h),
    step_init_real _ (fun c => hS _) m1 hm1 (fun c h => V (tileRow 0 c) h),
    step_real m1 _ _ _ (fun c => hS _) _ hm2 (fun c h => V (tileRow 1 c) h)]
  generalize max m1 m1' = m2
  have hL : Real.exp (m1 - m2) * ∑ c : Fin 1024, wt (S (tileRow 0 c)) m1 + ∑ c : Fin 1024, wt (S (tileRow 1 c)) m2
      = ∑ c, wt (S c) m2 := by
    rw [sum_tiles (fun c => wt (S c) m2), dsum_shift (fun c => S (tileRow 0 c)) m1 m2]
  have hA : Real.exp (m1 - m2) * ∑ c : Fin 1024, wt (S (tileRow 0 c)) m1 * V (tileRow 0 c) h
        + ∑ c : Fin 1024, wt (S (tileRow 1 c)) m2 * V (tileRow 1 c) h
      = ∑ c, wt (S c) m2 * V c h := by
    rw [sum_tiles (fun c => wt (S c) m2 * V c h),
      wsum_shift (fun c => S (tileRow 0 c)) (fun c => V (tileRow 0 c) h) m1 m2]
  have hD : (∑ c, wt (S c) m2) ≠ 0 := (dsum_pos S (tileRow 1 r) hd m2).ne'
  simp only [RowState.result]
  rw [hL, hA, Ideal.div_coe hD, ← EReal.coe_mul, ratio_shift S (fun c => V c h) M m2, mul_one_div]

/-! ## The projections are real -/

/-- real-valued arrays -/
def IsReal3 (f : Fin 8 → Fin 2048 → Fin 64 → EReal) : Prop := ∀ b s h, ∃ x : ℝ, f b s h = (x : EReal)

theorem proj_real (x : (⟨3, ![8, 2048, 1024]⟩ : Shape).Idx → EReal) (W : (⟨2, ![64, 1024]⟩ : Shape).Idx → EReal)
    (bias : (⟨1, ![64]⟩ : Shape).Idx → EReal)
    (hx : ∀ i, ∃ r : ℝ, x i = (r : EReal)) (hW : ∀ i, ∃ r : ℝ, W i = (r : EReal))
    (hb : ∀ i, ∃ r : ℝ, bias i = (r : EReal)) : IsReal3 (proj x W bias) := by
  choose X hX using hx
  choose W' hW' using hW
  choose B hB using hb
  intro b s h
  refine ⟨(∑ e : Fin 1024, X (ix3 b s e) * W' (ix2 h e)) + B (ix1 h), ?_⟩
  unfold proj
  rw [EReal.coe_add, coe_sum, hB]
  congr 1
  refine Finset.sum_congr rfl fun e _ => ?_
  rw [hX, hW', EReal.coe_mul]

/-! ## The scores of a real-valued row -/

section Scores

variable (Q K : Fin 8 → Fin 2048 → Fin 64 → ℝ)

/-- An unmasked score of real arrays is the coercion of a real number. -/
theorem score_unmasked (b : Fin 8) (r c : Fin 2048) (hc : c.val ≤ r.val) :
    score (fun b s h => (Q b s h : EReal)) (fun b s h => (K b s h : EReal)) b r c
      = (((∑ h : Fin 64, Q b r h * K b c h) * 8 : ℝ) : EReal) := by
  unfold score
  rw [if_pos hc, EReal.coe_mul, coe_sum]
  congr 1

theorem score_masked (q k : Fin 8 → Fin 2048 → Fin 64 → EReal) (b : Fin 8) (r c : Fin 2048) (hc : ¬ c.val ≤ r.val) :
    score q k b r c = ⊥ := by
  unfold score; rw [if_neg hc]

theorem score_ne_top (b : Fin 8) (r c : Fin 2048) :
    score (fun b s h => (Q b s h : EReal)) (fun b s h => (K b s h : EReal)) b r c ≠ ⊤ := by
  by_cases hc : c.val ≤ r.val
  · rw [score_unmasked Q K b r c hc]; exact EReal.coe_ne_top _
  · rw [score_masked _ _ b r c hc]; exact bot_ne_top

theorem score_ne_bot (b : Fin 8) (r c : Fin 2048) (hc : c.val ≤ r.val) :
    score (fun b s h => (Q b s h : EReal)) (fun b s h => (K b s h : EReal)) b r c ≠ ⊥ := by
  rw [score_unmasked Q K b r c hc]; exact EReal.coe_ne_bot _

end Scores

/-! ## The two arrangements agree -/

theorem tiledState_zero (q k v : Fin 8 → Fin 2048 → Fin 64 → EReal) (b : Fin 8) (r : Fin 1024) :
    tiledState q k v b 0 r 2
      = RowState.init.step (fun c => score q k b (qRow 0 r) (tileRow 0 c)) (fun c => v b (tileRow 0 c)) := by
  simp [tiledState]

theorem tiledState_one (q k v : Fin 8 → Fin 2048 → Fin 64 → EReal) (b : Fin 8) (r : Fin 1024) :
    tiledState q k v b 1 r 2
      = (RowState.init.step (fun c => score q k b (qRow 1 r) (tileRow 0 c)) (fun c => v b (tileRow 0 c))).step
          (fun c => score q k b (qRow 1 r) (tileRow 1 c)) (fun c => v b (tileRow 1 c)) := by
  simp [tiledState]

theorem tiledOut_eq_out (q k v : Fin 8 → Fin 2048 → Fin 64 → EReal) (hq : IsReal3 q) (hk : IsReal3 k) (hv : IsReal3 v)
    (b : Fin 8) (i : Fin 2) (r : Fin 1024) (h : Fin 64) :
    tiledOut q k v b i r h = out q k v b (qRow i r) h := by
  choose Q hQ using hq
  choose K hK using hk
  choose V hV using hv
  obtain rfl : q = fun b s h => (Q b s h : EReal) := by funext b s h; exact hQ b s h
  obtain rfl : k = fun b s h => (K b s h : EReal) := by funext b s h; exact hK b s h
  obtain rfl : v = fun b s h => (V b s h : EReal) := by funext b s h; exact hV b s h
  unfold tiledOut out weight denom rowMax
  have hval : ∀ (j : Fin 2) (c : Fin 1024), (tileRow j c).val = j.val * 1024 + c.val := fun _ _ => rfl
  match i with
  | ⟨0, _⟩ =>
    rw [show (⟨0, by omega⟩ : Fin 2) = 0 from rfl, tiledState_zero]
    refine row_tile0 _ (fun c => score_ne_top Q K b _ c) (V b) r (score_ne_bot Q K b _ _ ?_) (fun c => ?_) h
    · rw [hval]
    · refine score_masked _ _ b _ _ ?_
      rw [hval, hval]; simp; omega
  | ⟨1, _⟩ =>
    rw [show (⟨1, by omega⟩ : Fin 2) = 1 from rfl, tiledState_one]
    refine row_tile1 _ (fun c => score_ne_top Q K b _ c) (V b) r (score_ne_bot Q K b _ _ ?_)
      (score_ne_bot Q K b _ _ ?_) h
    · rw [hval, hval]; simp
    · rw [hval]

end Cert.Attn

end
-- ==== Proof.Value1a.lean ====
import proofs.«129131_j53901839564972_2_alg».proof.Proof.Payload1
import proofs.«129131_j53901839564972_2_alg».proof.Proof.Algebra
import proofs.«129131_j53901839564972_2_alg».proof.Proof.Spec
import Idealize.ShloMosaic.Lib.ValueIdx

noncomputable section

namespace Cert.KernelIdeal.Val1

open Cert.KernelIdeal Cert.KernelIdeal.Gen
open Idealize.ShloMosaic Idealize.ShloMosaic.ValueIdx Idealize.SL.Sem
open Cert.Attn (RowState tileRow qRow score tiledState tiledOut out IsReal3)
open scoped BigOperators

/-! # One step of the kernel on staged blocks is one step of the tiled softmax on the arrays

  Everything here is about VALUES: three staged blocks (a tile of query rows, a tile of key rows, the same tile of value
  rows), read where the arrays hold them, and the running state of the rows. -/

variable (q k v : Fin 8 → Fin 2048 → Fin 64 → EReal) (b : Fin 8) (i : Fin 2)

/-- A staged tile's masked scaled scores and value rows are the arrays' scores and value rows of that tile. -/
theorem tile_eq (jn : ℕ) (hj : jn < 2) (Q K Vb : Vec Ideal S1x1024x64 .f32)
    (hQ : ∀ (r : Fin 1024) (h : Fin 64), Q (ix3 (0 : Fin 1) r h) = q b (qRow i r) h)
    (hK : ∀ (c : Fin 1024) (h : Fin 64), K (ix3 (0 : Fin 1) c h) = k b (tileRow ⟨jn, hj⟩ c) h)
    (hV : ∀ (c : Fin 1024) (h : Fin 64), Vb (ix3 (0 : Fin 1) c h) = v b (tileRow ⟨jn, hj⟩ c) h) (r : Fin 1024) :
    (fun c => Pay.tileScore i.val jn Q K r c) = (fun c => score q k b (qRow i r) (tileRow ⟨jn, hj⟩ c))
    ∧ (fun (c : Fin 1024) (h : Fin 64) => Vb (ix3 (0 : Fin 1) c h)) = (fun c => v b (tileRow ⟨jn, hj⟩ c)) := by
  constructor
  · funext c
    unfold Pay.tileScore Cert.Attn.score
    simp only [hQ, hK]
    rfl
  · funext c h; exact hV c h

/-- After a point of key tile 0 (the state reset, then the tile added): the rows' state is the first step of the tiled
    softmax. -/
theorem evenState (Q K Vb : Vec Ideal S1x1024x64 .f32)
    (hQ : ∀ (r : Fin 1024) (h : Fin 64), Q (ix3 (0 : Fin 1) r h) = q b (qRow i r) h)
    (hK : ∀ (c : Fin 1024) (h : Fin 64), K (ix3 (0 : Fin 1) c h) = k b (tileRow 0 c) h)
    (hV : ∀ (c : Fin 1024) (h : Fin 64), Vb (ix3 (0 : Fin 1) c h) = v b (tileRow 0 c) h) (r : Fin 1024) :
    Pay.rowState (k1_pay6 (F := Ideal) (k1_pay10 (BitVec.ofNat 32 i.val) (BitVec.ofNat 32 0) Q K (k1_pay1 (F := Ideal))))
        (k1_pay4 (F := Ideal) (k1_pay13 (BitVec.ofNat 32 i.val) (BitVec.ofNat 32 0) Q K (k1_pay1 (F := Ideal)) (k1_pay2 (F := Ideal))))
        (k1_pay5 (F := Ideal) (k1_pay8 Vb) (k1_pay11 (BitVec.ofNat 32 i.val) (BitVec.ofNat 32 0) Q K (k1_pay1 (F := Ideal)))
          (k1_pay12 (BitVec.ofNat 32 i.val) (BitVec.ofNat 32 0) Q K (k1_pay1 (F := Ideal))) (k1_pay3 (F := Ideal))) r
      = RowState.init.step (fun c => score q k b (qRow i r) (tileRow 0 c)) (fun c => v b (tileRow 0 c)) := by
  rw [Pay.step_rowState i.val 0 i.isLt (by decide) Q K Vb _ _ _ r, Pay.init_rowState]
  obtain ⟨h1, h2⟩ := tile_eq q k v b i 0 (by decide) Q K Vb hQ hK hV r
  rw [h1, h2]
  rfl

/-- Query tile 0 ends after its one live key tile: the stored quotient is the softmax output of its rows. -/
theorem out_tile0 (hq : IsReal3 q) (hk : IsReal3 k) (hv : IsReal3 v) (xsM xsL : Vec Ideal S1024x1 .f32) (xsA : Vec Ideal S1024x64 .f32)
    (hxs : ∀ r : Fin 1024, Pay.rowState xsM xsL xsA r
      = RowState.init.step (fun c => score q k b (qRow 0 r) (tileRow 0 c)) (fun c => v b (tileRow 0 c)))
    (r : Fin 1024) (h : Fin 64) :
    k1_pay7 (F := Ideal) xsA xsL (ix3 (0 : Fin 1) r h) = out q k v b (qRow 0 r) h := by
  rw [Pay.pay7_result xsM xsL xsA r h, hxs r, ← Cert.Attn.tiledState_zero q k v b r]
  exact Cert.Attn.tiledOut_eq_out q k v hq hk hv b 0 r h

/-- Query tile 1 ends after both key tiles: the second step on the first step's state, then the quotient. -/
theorem out_tile1 (hq : IsReal3 q) (hk : IsReal3 k) (hv : IsReal3 v) (Q K Vb : Vec Ideal S1x1024x64 .f32)
    (hQ : ∀ (r : Fin 1024) (h : Fin 64), Q (ix3 (0 : Fin 1) r h) = q b (qRow 1 r) h)
    (hK : ∀ (c : Fin 1024) (h : Fin 64), K (ix3 (0 : Fin 1) c h) = k b (tileRow 1 c) h)
    (hV : ∀ (c : Fin 1024) (h : Fin 64), Vb (ix3 (0 : Fin 1) c h) = v b (tileRow 1 c) h)
    (xsM xsL : Vec Ideal S1024x1 .f32) (xsA : Vec Ideal S1024x64 .f32)
    (hxs : ∀ r : Fin 1024, Pay.rowState xsM xsL xsA r
      = RowState.init.step (fun c => score q k b (qRow 1 r) (tileRow 0 c)) (fun c => v b (tileRow 0 c)))
    (r : Fin 1024) (h : Fin 64) :
    k1_pay7 (F := Ideal)
        (k1_pay5 (F := Ideal) (k1_pay8 Vb) (k1_pay11 (BitVec.ofNat 32 1) (BitVec.ofNat 32 1) Q K xsM) (k1_pay12 (BitVec.ofNat 32 1) (BitVec.ofNat 32 1) Q K xsM) xsA)
        (k1_pay4 (F := Ideal) (k1_pay13 (BitVec.ofNat 32 1) (BitVec.ofNat 32 1) Q K xsM xsL)) (ix3 (0 : Fin 1) r h)
      = out q k v b (qRow 1 r) h := by
  rw [Pay.pay7_result (k1_pay6 (F := Ideal) (k1_pay10 (BitVec.ofNat 32 1) (BitVec.ofNat 32 1) Q K xsM)) _ _ r h,
    Pay.step_rowState 1 1 (by decide) (by decide) Q K Vb xsM xsL xsA r, hxs r]
  obtain ⟨h1, h2⟩ := tile_eq q k v b 1 1 (by decide) Q K Vb hQ hK hV r
  rw [show (fun c => Pay.tileScore 1 1 Q K r c) = (fun c => score q k b (qRow 1 r) (tileRow ⟨1, by decide⟩ c)) from h1, h2]
  have e := Cert.Attn.tiledState_one q k v b r
  exact (congrArg (fun st : RowState => st.result h) e.symm).trans (Cert.Attn.tiledOut_eq_out q k v hq hk hv b 1 r h)

end Cert.KernelIdeal.Val1

end
-- ==== Proof.Value1.lean ====
import proofs.«129131_j53901839564972_2_alg».proof.Proof.FrameI1
import proofs.«129131_j53901839564972_2_alg».proof.Proof.Pieces1
import proofs.«129131_j53901839564972_2_alg».proof.Proof.Value1a
import Idealize.ShloMosaic.Lib.Pipeline.Value
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.ShloMosaic.ValueIdx Idealize.SL.Sem
open Idealize.ShloMosaic.Pipeline (Dat)
open Cert.Attn (RowState tileRow qRow score tiledState tiledOut out IsReal3)
open scoped BigOperators

variable (V : (c : Dev nD) → (b : Ref sig .tc) → Buf (Elt Ideal) ((c : Thread nD τ).loc b))

/-! # What the attention region leaves in its output array

  Point `t = 4 b + 2 i + j` stages query tile `i` of batch `b`, key and value tile `min j i`, and — at `j = 1` — writes back
  rows `1024 i … 1024 i + 1023` of batch `b` of the output.  What it writes is the tiled softmax of those rows, which for
  real-valued q, k, v is the whole-row softmax attention. -/

/-- The three arrays the region reads, as functions of their coordinates. -/
def qF (c : Dev nD) : Fin 8 → Fin 2048 → Fin 64 → EReal := fun b s h => V c main_v0_0 (ix3 b s h)
def kF (c : Dev nD) : Fin 8 → Fin 2048 → Fin 64 → EReal := fun b s h => V c main_v0_1 (ix3 b s h)
def vF (c : Dev nD) : Fin 8 → Fin 2048 → Fin 64 → EReal := fun b s h => V c main_v0_2 (ix3 b s h)

/-- The attention output of those arrays, index by index. -/
def Gout (c : Dev nD) : S8x2048x64.Idx → EReal := fun i => out (qF V c) (kF V c) (vF V c) (i 0) (i 1) (i 2)

/-- The batch and the query tile of point `t`. -/
def bOf (t : Fin cfg1.N) : Fin 8 := ⟨t.val / 4, by have := lt_of_lt_of_eq t.isLt (show cfg1.N = 32 from N_1); omega⟩
def iOf (t : Fin cfg1.N) : Fin 2 := ⟨(t.val / 2) % 2, by omega⟩

/-- The printed index maps and grid coordinates, decided over the grid. -/
theorem idx_facts : ∀ t : Fin cfg1.N, win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = min (t.val % 2) ((t.val / 2) % 2) ∧ win1_1.index t (2 : Fin 3) = 0
    ∧ win1_2.index t (0 : Fin 3) = t.val / 4 ∧ win1_2.index t (1 : Fin 3) = min (t.val % 2) ((t.val / 2) % 2) ∧ win1_2.index t (2 : Fin 3) = 0
    ∧ win1_3.index t (0 : Fin 3) = t.val / 4 ∧ win1_3.index t (1 : Fin 3) = (t.val / 2) % 2 ∧ win1_3.index t (2 : Fin 3) = 0
    ∧ (grid1.coords t 1).val = (t.val / 2) % 2 ∧ (grid1.coords t 2).val = t.val % 2 :=
  (by decide +kernel : ∀ t : Fin grid1.N, _)

/-- Every output block is some write-back point's. -/
theorem idx_onto : ∀ (q0 : Fin 8) (q1 : Fin 2), ∃ t : Fin cfg1.N, (cfg1.win 3).flush t = true ∧ win1_3.index t = ![q0.val, q1.val, 0] :=
  (by decide +kernel : ∀ (q0 : Fin 8) (q1 : Fin 2), ∃ t : Fin grid1.N, win1_3.flush t = true ∧ win1_3.index t = ![q0.val, q1.val, 0])

/-! ## The staged blocks, read where the arrays hold them -/

theorem blkQ (c : Dev nD) (t : Fin cfg1.N) (r : Fin 1024) (h : Fin 64) :
    (Fr1.iblk V c 0 t) (ix3 (0 : Fin 1) r h) = qF V c (bOf t) (qRow (iOf t) r) h := by
  obtain ⟨a00, a01, a02, a10, a11, a12, a20, a21, a22, a30, a31, a32, hc1, hc2⟩ := idx_facts t
  show V c main_v0_0 (((cfg1.win 0).blk t).view.emb (ix3 (0 : Fin 1) r h)) = V c main_v0_0 (ix3 (bOf t) (qRow (iOf t) r) h)
  refine congrArg _ (funext fun a => Fin.ext ?_)
  match a with
  | ⟨0, _⟩ => show win1_0.index t (0 : Fin 3) * 1 + 1 * 0 = t.val / 4; omega
  | ⟨1, _⟩ => show win1_0.index t (1 : Fin 3) * 1024 + 1 * r.val = (t.val / 2) % 2 * 1024 + r.val; omega
  | ⟨2, _⟩ => show win1_0.index t (2 : Fin 3) * 64 + 1 * h.val = h.val; omega
theorem blkK (c : Dev nD) (t : Fin cfg1.N) (jn : ℕ) (hj : jn < 2) (hjt : min (t.val % 2) ((t.val / 2) % 2) = jn) (r : Fin 1024) (h : Fin 64) :
    (Fr1.iblk V c 1 t) (ix3 (0 : Fin 1) r h) = kF V c (bOf t) (tileRow ⟨jn, hj⟩ r) h := by
  obtain ⟨a00, a01, a02, a10, a11, a12, a20, a21, a22, a30, a31, a32, hc1, hc2⟩ := idx_facts t
  show V c main_v0_1 (((cfg1.win 1).blk t).view.emb (ix3 (0 : Fin 1) r h)) = V c main_v0_1 (ix3 (bOf t) (tileRow ⟨jn, hj⟩ r) h)
  refine congrArg _ (funext fun a => Fin.ext ?_)
  match a with
  | ⟨0, _⟩ => show win1_1.index t (0 : Fin 3) * 1 + 1 * 0 = t.val / 4; omega
  | ⟨1, _⟩ => show win1_1.index t (1 : Fin 3) * 1024 + 1 * r.val = jn * 1024 + r.val; omega
  | ⟨2, _⟩ => show win1_1.index t (2 : Fin 3) * 64 + 1 * h.val = h.val; omega
theorem blkV (c : Dev nD) (t : Fin cfg1.N) (jn : ℕ) (hj : jn < 2) (hjt : min (t.val % 2) ((t.val / 2) % 2) = jn) (r : Fin 1024) (h : Fin 64) :
    (Fr1.iblk V c 2 t) (ix3 (0 : Fin 1) r h) = vF V c (bOf t) (tileRow ⟨jn, hj⟩ r) h := by
  obtain ⟨a00, a01, a02, a10, a11, a12, a20, a21, a22, a30, a31, a32, hc1, hc2⟩ := idx_facts t
  show V c main_v0_2 (((cfg1.win 2).blk t).view.emb (ix3 (0 : Fin 1) r h)) = V c main_v0_2 (ix3 (bOf t) (tileRow ⟨jn, hj⟩ r) h)
  refine congrArg _ (funext fun a => Fin.ext ?_)
  match a with
  | ⟨0, _⟩ => show win1_2.index t (0 : Fin 3) * 1 + 1 * 0 = t.val / 4; omega
  | ⟨1, _⟩ => show win1_2.index t (1 : Fin 3) * 1024 + 1 * r.val = jn * 1024 + r.val; omega
  | ⟨2, _⟩ => show win1_2.index t (2 : Fin 3) * 64 + 1 * h.val = h.val; omega

/-! ## The running state after a point of key tile 0 -/

theorem stateEven (c : Dev nD) (t : Fin cfg1.N) (h0 : t.val % 2 = 0) (r : Fin 1024) :
    Pay.rowState (Fr1.scAt V c t.val t.isLt).1 (Fr1.scAt V c t.val t.isLt).2.1 (Fr1.scAt V c t.val t.isLt).2.2 r
      = RowState.init.step (fun cc => score (qF V c) (kF V c) (bOf t) (qRow (iOf t) r) (tileRow 0 cc)) (fun cc => vF V c (bOf t) (tileRow 0 cc)) := by
  obtain ⟨a00, a01, a02, a10, a11, a12, a20, a21, a22, a30, a31, a32, hc1, hc2⟩ := idx_facts t
  rw [Fr1.scAt_A V c t h0]
  unfold Fr1.caseA
  dsimp only
  rw [Fr1.soutA_M_eq, Fr1.soutA_L_eq, Fr1.soutA_A_eq]
  rw [show (grid1.coords t 1).val = (iOf t).val from hc1, show (grid1.coords t 2).val = 0 from by omega]
  exact evenState (qF V c) (kF V c) (vF V c) (bOf t) (iOf t) _ _ _ (blkQ V c t) (blkK V c t 0 (by decide) (by omega)) (blkV V c t 0 (by decide) (by omega)) r

/-! ## What a write-back point writes -/

/-- Row `r`, column `h` of the output block of point `t` is entry `(b, 1024 i + r, h)` of the array. -/
theorem out_emb (t : Fin cfg1.N) (r : Fin 1024) (h : Fin 64) :
    ((cfg1.win 3).blk t).view.emb (ix3 (0 : Fin 1) r h) = ix3 (bOf t) (qRow (iOf t) r) h := by
  obtain ⟨a00, a01, a02, a10, a11, a12, a20, a21, a22, a30, a31, a32, hc1, hc2⟩ := idx_facts t
  refine funext fun a => Fin.ext ?_
  match a with
  | ⟨0, _⟩ => show win1_3.index t (0 : Fin 3) * 1 + 1 * 0 = t.val / 4; omega
  | ⟨1, _⟩ => show win1_3.index t (1 : Fin 3) * 1024 + 1 * r.val = (t.val / 2) % 2 * 1024 + r.val; omega
  | ⟨2, _⟩ => show win1_3.index t (2 : Fin 3) * 64 + 1 * h.val = h.val; omega

/-- WHAT A WRITE-BACK POINT WRITES is its block of the attention output. -/
theorem flushed3_eq (c : Dev nD) (hq : IsReal3 (qF V c)) (hk : IsReal3 (kF V c)) (hv : IsReal3 (vF V c))
    (t : Fin cfg1.N) (hf : (cfg1.win 3).flush t = true) :
    (Fr1.dat V c).flushed 3 t = ((cfg1.win 3).blk t).view.read (Elt Ideal) (Gout V c) := by
  have hodd : t.val % 2 = 1 := (flush1_3 t).mp hf
  have hN : t.val < 32 := lt_of_lt_of_eq t.isLt (show cfg1.N = 32 from N_1)
  obtain ⟨a00, a01, a02, a10, a11, a12, a20, a21, a22, a30, a31, a32, hc1, hc2⟩ := idx_facts t
  show (cfg1.win 3).cut (grid1.coords t) ((Fr1.dat V c).after 3 t) = _
  rw [Fr1.after3]
  funext j
  obtain ⟨r, h, rfl⟩ : ∃ (r : Fin 1024) (h : Fin 64), j = ix3 (0 : Fin 1) r h :=
    ⟨j 1, j 2, (eq_ix3 j).trans (congrArg (fun z : Fin 1 => ix3 z (j 1) (j 2)) (Fin.ext (by have h0 : (j 0).val < 1 := (j 0).isLt; show (j 0).val = 0; omega)))⟩
  show Fr1.outAt V c t (ix3 (0 : Fin 1) r h) = Gout V c (((cfg1.win 3).blk t).view.emb (ix3 (0 : Fin 1) r h))
  rw [out_emb t r h]
  show _ = out (qF V c) (kF V c) (vF V c) (bOf t) (qRow (iOf t) r) h
  have hlt : t.val - 1 < cfg1.N := Nat.lt_of_le_of_lt (Nat.sub_le _ _) t.isLt
  have hb : bOf ⟨t.val - 1, hlt⟩ = bOf t := Fin.ext (by show (t.val - 1) / 4 = t.val / 4; omega)
  have hi : iOf ⟨t.val - 1, hlt⟩ = iOf t := Fin.ext (by show ((t.val - 1) / 2) % 2 = (t.val / 2) % 2; omega)
  have hxs : ∀ r : Fin 1024, Pay.rowState (Fr1.scAt V c (t.val - 1) hlt).1 (Fr1.scAt V c (t.val - 1) hlt).2.1 (Fr1.scAt V c (t.val - 1) hlt).2.2 r
      = RowState.init.step (fun cc => score (qF V c) (kF V c) (bOf t) (qRow (iOf t) r) (tileRow 0 cc)) (fun cc => vF V c (bOf t) (tileRow 0 cc)) := by
    intro r
    have e := stateEven V c ⟨t.val - 1, hlt⟩ (by show (t.val - 1) % 2 = 0; omega) r
    rw [hb, hi] at e
    exact e
  by_cases h1 : t.val % 4 = 1
  · have hi0 : iOf t = 0 := Fin.ext (by show (t.val / 2) % 2 = 0; omega)
    rw [Fr1.outAt_B V c t h1]
    unfold Fr1.outB
    rw [Fr1.outB_O_eq]
    rw [hi0] at hxs ⊢
    exact out_tile0 (qF V c) (kF V c) (vF V c) (bOf t) hq hk hv _ _ _ hxs r h
  · have h3 : t.val % 4 = 3 := by omega
    have hi1 : iOf t = 1 := Fin.ext (by show (t.val / 2) % 2 = 1; omega)
    rw [Fr1.outAt_C V c t h3]
    unfold Fr1.outC
    rw [Fr1.outC_O_eq]
    rw [show (grid1.coords t 1).val = 1 from by omega, show (grid1.coords t 2).val = 1 from by omega]
    rw [hi1] at hxs ⊢
    have hQ := blkQ V c t
    rw [hi1] at hQ
    exact out_tile1 (qF V c) (kF V c) (vF V c) (bOf t) hq hk hv _ _ _ hQ (blkK V c t 1 (by decide) (by omega)) (blkV V c t 1 (by decide) (by omega)) _ _ _ hxs r h

/-- An index of the array is in point `t`'s block iff each coordinate is in the block's range on its axis. -/
theorem mem_blk3 (t : Fin cfg1.N) (i : S8x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v1).slice (win1_3.rect t)).set ↔ _
  rw [View.set_slice_whole, Rect.mem_set_unit]
  exact Iff.rfl

/-- Every index of the output array lies in some write-back point's block. -/
theorem cover3 (i : S8x2048x64.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 64 := (i 2).isLt
  obtain ⟨t, hft, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, hft, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- THE OUTPUT ARRAY after the region: the softmax attention of the three arrays the region read, index by index. -/
theorem final3 (c : Dev nD) (hq : IsReal3 (qF V c)) (hk : IsReal3 (kF V c)) (hv : IsReal3 (vF V c)) :
    (Fr1.dat V c).arrAt 3 cfg1.N = Gout V c :=
  (Fr1.dat V c).arrAt_eq_of_cover 3 _ (fun t hf => flushed3_eq V c hq hk hv t hf) (cover3)

end Cert.KernelIdeal.Val1

end
-- ==== Proof.KernelValue.lean ====
import proofs.«129131_j53901839564972_2_alg».proof.Proof.FrameI
import proofs.«129131_j53901839564972_2_alg».proof.Proof.Value0
import proofs.«129131_j53901839564972_2_alg».proof.Proof.Value1
import proofs.«129131_j53901839564972_2_alg».proof.Proof.Algebra
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open Cert.Attn (proj out IsReal3)
open scoped BigOperators

variable (m : (ℓ : Loc nD τ sig) → Buf (Elt Ideal) ℓ) (ρ : Dev nD → PrngReg)

/-! # The kernel program's result, as one function of its arguments

  The attention region reads the three arrays the projection region left; so its result is the softmax attention of the
  three projections of the arguments. -/

/-- The q array the attention region reads is the projection the first region wrote. -/
theorem V1_q (c : Dev nD) : Fr.V1 m ρ c main_v0_0 = Val0.Gproj (m ((c.tc : Thread nD τ).loc main_arg0)) (m ((c.tc : Thread nD τ).loc main_arg3)) (m ((c.tc : Thread nD τ).loc main_arg4)) :=
  (Fr.W1_arr m ρ c 7).trans (Val0.final7 (Fr.V0 m ρ) c)

theorem qF_eq (c : Dev nD) : Val1.qF (Fr.V1 m ρ) c = proj (m ((c.tc : Thread nD τ).loc main_arg0)) (m ((c.tc : Thread nD τ).loc main_arg3)) (m ((c.tc : Thread nD τ).loc main_arg4)) := by
  funext b s h
  show Fr.V1 m ρ c main_v0_0 (ix3 b s h) = _
  rw [V1_q]
  rfl

/-- The k array the attention region reads is the projection the first region wrote. -/
theorem V1_k (c : Dev nD) : Fr.V1 m ρ c main_v0_1 = Val0.Gproj (m ((c.tc : Thread nD τ).loc main_arg0)) (m ((c.tc : Thread nD τ).loc main_arg1)) (m ((c.tc : Thread nD τ).loc main_arg2)) :=
  (Fr.W1_arr m ρ c 8).trans (Val0.final8 (Fr.V0 m ρ) c)

theorem kF_eq (c : Dev nD) : Val1.kF (Fr.V1 m ρ) c = proj (m ((c.tc : Thread nD τ).loc main_arg0)) (m ((c.tc : Thread nD τ).loc main_arg1)) (m ((c.tc : Thread nD τ).loc main_arg2)) := by
  funext b s h
  show Fr.V1 m ρ c main_v0_1 (ix3 b s h) = _
  rw [V1_k]
  rfl

/-- The v array the attention region reads is the projection the first region wrote. -/
theorem V1_v (c : Dev nD) : Fr.V1 m ρ c main_v0_2 = Val0.Gproj (m ((c.tc : Thread nD τ).loc main_arg0)) (m ((c.tc : Thread nD τ).loc main_arg5)) (m ((c.tc : Thread nD τ).loc main_arg6)) :=
  (Fr.W1_arr m ρ c 9).trans (Val0.final9 (Fr.V0 m ρ) c)

theorem vF_eq (c : Dev nD) : Val1.vF (Fr.V1 m ρ) c = proj (m ((c.tc : Thread nD τ).loc main_arg0)) (m ((c.tc : Thread nD τ).loc main_arg5)) (m ((c.tc : Thread nD τ).loc main_arg6)) := by
  funext b s h
  show Fr.V1 m ρ c main_v0_2 (ix3 b s h) = _
  rw [V1_v]
  rfl

/-- THE RESULT: for real-valued arguments, the result array is the whole-row softmax attention of the three projections. -/
theorem result_eq (c : Dev nD)
    (hx : ∀ i, ∃ r : ℝ, m ((c.tc : Thread nD τ).loc main_arg0) i = (r : EReal))
    (hWk : ∀ i, ∃ r : ℝ, m ((c.tc : Thread nD τ).loc main_arg1) i = (r : EReal)) (hbk : ∀ i, ∃ r : ℝ, m ((c.tc : Thread nD τ).loc main_arg2) i = (r : EReal))
    (hWq : ∀ i, ∃ r : ℝ, m ((c.tc : Thread nD τ).loc main_arg3) i = (r : EReal)) (hbq : ∀ i, ∃ r : ℝ, m ((c.tc : Thread nD τ).loc main_arg4) i = (r : EReal))
    (hWv : ∀ i, ∃ r : ℝ, m ((c.tc : Thread nD τ).loc main_arg5) i = (r : EReal)) (hbv : ∀ i, ∃ r : ℝ, m ((c.tc : Thread nD τ).loc main_arg6) i = (r : EReal)) :
    (Fr1.dat (Fr.V1 m ρ) c).arrAt 3 cfg1.N
      = fun i : S8x2048x64.Idx => out (proj (m ((c.tc : Thread nD τ).loc main_arg0)) (m ((c.tc : Thread nD τ).loc main_arg3)) (m ((c.tc : Thread nD τ).loc main_arg4)))
          (proj (m ((c.tc : Thread nD τ).loc main_arg0)) (m ((c.tc : Thread nD τ).loc main_arg1)) (m ((c.tc : Thread nD τ).loc main_arg2)))
          (proj (m ((c.tc : Thread nD τ).loc main_arg0)) (m ((c.tc : Thread nD τ).loc main_arg5)) (m ((c.tc : Thread nD τ).loc main_arg6))) (i 0) (i 1) (i 2) := by
  have hq : IsReal3 (Val1.qF (Fr.V1 m ρ) c) := by rw [qF_eq]; exact Cert.Attn.proj_real _ _ _ hx hWq hbq
  have hk : IsReal3 (Val1.kF (Fr.V1 m ρ) c) := by rw [kF_eq]; exact Cert.Attn.proj_real _ _ _ hx hWk hbk
  have hv : IsReal3 (Val1.vF (Fr.V1 m ρ) c) := by rw [vF_eq]; exact Cert.Attn.proj_real _ _ _ hx hWv hbv
  rw [Val1.final3 (Fr.V1 m ρ) c hq hk hv]
  unfold Val1.Gout
  rw [qF_eq, kF_eq, vF_eq]

end Cert.KernelIdeal.Val

end
-- ==== Proof.RefValue1.lean ====
/-
  The reference's constants, its lower-triangular mask and its three linear projections, each read at an index.
-/
import proofs.«129131_j53901839564972_2_alg».proof.Proof.Gen.ReferenceIdeal.Read
import proofs.«129131_j53901839564972_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Constants -/

/-- The pattern of negative infinity denotes the bottom element. -/
theorem ofBits_negInf : Ideal.ofBits .f32 0xFF800000#32 = (⊥ : EReal) := by
  simp [Ideal.ofBits, Ideal.ieee]

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 0.5 denotes the real 1/2. -/
theorem ofBits_half : Ideal.ofBits .f32 0x3F000000#32 = (((1:ℝ)/2 : ℝ) : EReal) := by
  simp [Ideal.ofBits, Ideal.ieee, -EReal.coe_mul]; norm_num

theorem rpow_64_half : Real.rpow 64 (1/2) = 8 := by
  have h : (64 : ℝ) = 8 ^ (2 : ℝ) := by norm_num
  show (64 : ℝ) ^ ((1:ℝ)/2) = 8
  rw [h, ← Real.rpow_mul (by norm_num)]
  norm_num

theorem scale_eq : Ideal.pow (Ideal.ofBits .f32 0x42800000#32) (Ideal.ofBits .f32 0x3F000000#32) = ((8 : ℝ) : EReal) := by
  rw [ofBits_64, ofBits_half]
  show ((Real.rpow 64 (1/2) : ℝ) : EReal) = _
  rw [rpow_64_half]

theorem coe_eight : (((8 : ℝ)) : EReal) = 8 := by norm_cast

/-! ## The mask -/

/-- A word below 2048 read as a signed integer is itself. -/
theorem toInt_ofNat_small (n : Nat) (hn : n < 2048) : (BitVec.ofNat 32 n).toInt = (n : Int) := by
  rw [BitVec.toInt_eq_toNat_cond, BitVec.toNat_ofNat]
  have : n % 2 ^ 32 = n := Nat.mod_eq_of_lt (by omega)
  rw [this]
  split <;> omega

/-- The comparison word of the lower triangle: row index against column index. -/
theorem tril_bit (r c : Fin 2048) :
    IntOp.cmpi .sge (IntOp.addi (BitVec.ofNat 32 r.val) 0#32) (BitVec.ofNat 32 c.val) = if c.val ≤ r.val then 1#1 else 0#1 := by
  have ha : IntOp.addi (BitVec.ofNat 32 r.val) 0#32 = BitVec.ofNat 32 r.val := by
    show BitVec.ofNat 32 r.val + 0#32 = _
    exact BitVec.add_zero _
  rw [ha]
  by_cases h : c.val ≤ r.val
  · rw [if_pos h]
    refine IntOp.cmpi_sge.mpr ?_
    rw [toInt_ofNat_small _ r.isLt, toInt_ofNat_small _ c.isLt]
    exact_mod_cast h
  · rw [if_neg h]
    refine eq_zero_of_ne_one fun hh => h ?_
    have := IntOp.cmpi_sge.mp hh
    rw [toInt_ofNat_small _ r.isLt, toInt_ofNat_small _ c.isLt] at this
    exact_mod_cast this

/-- The mask at row r, column c is set exactly on and below the diagonal. -/
theorem mask_apply (r c : Fin 2048) :
    val_main_v14 (F := Ideal) (ix2 r c) = if c.val ≤ r.val then 1#1 else 0#1 := by
  rw [val_main_v14_apply, val_main_call0_v4_apply, val_main_call0_v2_apply, val_main_call0_v0_apply, val_main_call0_v1_apply,
    val_main_call0_c_apply, val_main_call0_v3_apply, val_main_v13_apply, val_main_c_apply, val_main_call0_v5_apply,
    val_main_call0_c_0_apply]
  show Scalar.select (IntOp.cmpi .sge (IntOp.addi (BitVec.ofNat 32 r.val) 0#32) (BitVec.ofNat 32 c.val)) 1#1 0#1 = _
  rw [tril_bit]
  by_cases h : c.val ≤ r.val
  · rw [if_pos h]; exact select_one _ _
  · rw [if_neg h]; exact select_zero _ _

/-! ## The projections -/

/-- The three argument types: the input, a weight matrix, a bias vector. -/
abbrev XTy := (⟨S8x2048x1024, .f32⟩ : BufTy).Contents (Elt Ideal)
abbrev WTy := (⟨S64x1024, .f32⟩ : BufTy).Contents (Elt Ideal)
abbrev BTy := (⟨S64, .f32⟩ : BufTy).Contents (Elt Ideal)

/-- The key projection `x · Wkᵀ + bk` read at (b, s, h). -/
theorem v3_apply (x : XTy) (W : WTy) (bias : BTy) (b : Fin 8) (s : Fin 2048) (h : Fin 64) :
    val_main_v3 (F := Ideal) x W bias (ix3 b s h) = Cert.Attn.proj x W bias b s h := by
  have el : ∀ k : Fin 1024, lidx_main_v0 (ix3 b s h) k = ix3 b s k := fun k => funext fun a => Fin.ext (by
    match a with | ⟨0, _⟩ => rfl | ⟨1, _⟩ => rfl | ⟨2, _⟩ => rfl)
  have er : ∀ k : Fin 1024, ridx_main_v0 (ix3 b s h) k = ix2 h k := fun k => funext fun a => Fin.ext (by
    match a with | ⟨0, _⟩ => rfl | ⟨1, _⟩ => rfl)
  have eb : idx_main_v1 (idx_main_v2 (ix3 b s h)) = ix1 h := funext fun a => Fin.ext (by
    match a with | ⟨0, _⟩ => rfl)
  rw [val_main_v3_apply, val_main_v0_apply, val_main_v2_apply, val_main_v1_apply, eb]
  simp only [el, er, Ideal.addf_def]
  rfl

/-- The query projection `x · Wqᵀ + bq` read at (b, s, h). -/
theorem v7_apply (x : XTy) (W : WTy) (bias : BTy) (b : Fin 8) (s : Fin 2048) (h : Fin 64) :
    val_main_v7 (F := Ideal) x W bias (ix3 b s h) = Cert.Attn.proj x W bias b s h := by
  have el : ∀ k : Fin 1024, lidx_main_v4 (ix3 b s h) k = ix3 b s k := fun k => funext fun a => Fin.ext (by
    match a with | ⟨0, _⟩ => rfl | ⟨1, _⟩ => rfl | ⟨2, _⟩ => rfl)
  have er : ∀ k : Fin 1024, ridx_main_v4 (ix3 b s h) k = ix2 h k := fun k => funext fun a => Fin.ext (by
    match a with | ⟨0, _⟩ => rfl | ⟨1, _⟩ => rfl)
  have eb : idx_main_v5 (idx_main_v6 (ix3 b s h)) = ix1 h := funext fun a => Fin.ext (by
    match a with | ⟨0, _⟩ => rfl)
  rw [val_main_v7_apply, val_main_v4_apply, val_main_v6_apply, val_main_v5_apply, eb]
  simp only [el, er, Ideal.addf_def]
  rfl

/-- The value projection `x · Wvᵀ + bv` read at (b, s, h). -/
theorem v11_apply (x : XTy) (W : WTy) (bias : BTy) (b : Fin 8) (s : Fin 2048) (h : Fin 64) :
    val_main_v11 (F := Ideal) x W bias (ix3 b s h) = Cert.Attn.proj x W bias b s h := by
  have el : ∀ k : Fin 1024, lidx_main_v8 (ix3 b s h) k = ix3 b s k := fun k => funext fun a => Fin.ext (by
    match a with | ⟨0, _⟩ => rfl | ⟨1, _⟩ => rfl | ⟨2, _⟩ => rfl)
  have er : ∀ k : Fin 1024, ridx_main_v8 (ix3 b s h) k = ix2 h k := fun k => funext fun a => Fin.ext (by
    match a with | ⟨0, _⟩ => rfl | ⟨1, _⟩ => rfl)
  have eb : idx_main_v9 (idx_main_v10 (ix3 b s h)) = ix1 h := funext fun a => Fin.ext (by
    match a with | ⟨0, _⟩ => rfl)
  rw [val_main_v11_apply, val_main_v8_apply, val_main_v10_apply, val_main_v9_apply, eb]
  simp only [el, er, Ideal.addf_def]
  rfl

end Cert.ReferenceIdeal.RefValue

end
-- ==== Proof.RefValue.lean ====
import proofs.«129131_j53901839564972_2_alg».proof.Proof.Gen.ReferenceIdeal.Read
import proofs.«129131_j53901839564972_2_alg».proof.Proof.Spec
import proofs.«129131_j53901839564972_2_alg».proof.Proof.RefValue1

/-! The reference's value, read index by index: the scores (masked to the lower triangle with minus infinity, then
    scaled by 8), each row's maximum, the exponentials and their row sum, the quotient, and the weighted sum of the
    value rows. Together they are the whole-row softmax attention of the three projections. -/

noncomputable section

open scoped BigOperators

namespace Cert.ReferenceIdeal.RefValue

open Cert.ReferenceIdeal Cert.ReferenceIdeal.Gen Cert.ReferenceIdeal.Read Idealize.ShloMosaic Idealize.ShloMosaic.ValueIdx

section Scores

variable (x : XTy) (Wk : WTy) (bk : BTy) (Wq : WTy) (bq : BTy)

/-- The unmasked score: the inner product of query row r and key row c. -/
theorem v12_apply (b : Fin 8) (r c : Fin 2048) :
    val_main_v12 (F := Ideal) x Wk bk Wq bq (ix3 b r c)
      = ∑ h : Fin 64, Cert.Attn.proj x Wq bq b r h * Cert.Attn.proj x Wk bk b c h := by
  have el : ∀ k : Fin 64, lidx_main_v12 (ix3 b r c) k = ix3 b r k := fun k => funext fun a => Fin.ext (by
    match a with | ⟨0, _⟩ => rfl | ⟨1, _⟩ => rfl | ⟨2, _⟩ => rfl)
  have er : ∀ k : Fin 64, ridx_main_v12 (ix3 b r c) k = ix3 b c k := fun k => funext fun a => Fin.ext (by
    match a with | ⟨0, _⟩ => rfl | ⟨1, _⟩ => rfl | ⟨2, _⟩ => rfl)
  rw [val_main_v12_apply]
  simp only [el, er, v7_apply, v3_apply]

/-- The masked and scaled score. The program masks first and scales after; minus infinity times 8 is minus infinity. -/
theorem v18_apply (b : Fin 8) (r c : Fin 2048) :
    val_main_v18 (F := Ideal) x Wk bk Wq bq (ix3 b r c)
      = Cert.Attn.score (Cert.Attn.proj x Wq bq) (Cert.Attn.proj x Wk bk) b r c := by
  have em : idx_main_call1_v1 (ix3 b r c) = ix2 r c := funext fun a => Fin.ext (by
    match a with | ⟨0, _⟩ => rfl | ⟨1, _⟩ => rfl)
  rw [val_main_v18_apply, val_main_v15_apply, val_main_call1_v1_apply, em, mask_apply, v12_apply,
    val_main_call1_v2_apply, val_main_call1_v0_apply, val_main_cst_apply, val_main_v17_apply, val_main_v16_apply,
    val_main_cst_0_apply, val_main_cst_1_apply]
  simp only [Ideal.ofBits_def, Ideal.hostPowf_def, Ideal.mulf_def]
  rw [ofBits_negInf, scale_eq, coe_eight]
  unfold Cert.Attn.score
  by_cases h : c.val ≤ r.val
  · rw [if_pos h, if_pos h, select_one]
  · rw [if_neg h, if_neg h, select_zero]; exact EReal.bot_mul_of_pos (by norm_num)

end Scores

section RowMax

variable (x : XTy) (Wk : WTy) (bk : BTy) (Wq : WTy) (bq : BTy)

/-- Dropping the last axis of an 8 × 2048 × 2048 array leaves an 8 × 2048 one. -/
theorem reduces_d2 : S8x2048x2048.Reduces [2] S8x2048 := by decide

/-- The reduced index (b, r) with column k put back is (b, r, k). -/
theorem lift_ix3 (b : Fin 8) (r : Fin 2048) (k : Fin (S8x2048x2048.size 2)) :
    reduces_d2.lift (ix2 b r) k = ix3 b r (⟨k.val, k.isLt⟩ : Fin 2048) := by
  funext c; apply Fin.ext
  match c with | ⟨0, _⟩ => rfl | ⟨1, _⟩ => rfl | ⟨2, _⟩ => rfl

/-- The maximum-reduction over the last axis, started from minus infinity, is the supremum of the row. -/
theorem reduce_max_apply (y : S8x2048x2048.Idx → EReal) (b : Fin 8) (r : Fin 2048) :
    Host.reduce (α := EReal) (FloatOps.maximumf (F := Ideal) (φ := .f32)) y (val_main_cst_2 (F := Ideal))
        reducesTo_S8x2048x2048_S8x2048_d2 h_S_ (ix2 b r)
      = Finset.univ.sup fun c : Fin 2048 => y (ix3 b r c) := by
  rw [Host.reduce_eq_fold_single (α := EReal) (FloatOps.maximumf (F := Ideal) (φ := .f32)) y _ reducesTo_S8x2048x2048_S8x2048_d2 reduces_d2 h_S_]
  have hf : (y ∘ reduces_d2.lift (ix2 b r)) = fun k : Fin 2048 => y (ix3 b r k) :=
    funext fun k => congrArg y (lift_ix3 b r k)
  have h0 : val_main_cst_2 (F := Ideal) (Shape.Idx.first h_S_) = (⊥ : EReal) := ofBits_negInf
  rw [h0]
  exact congrArg (fun f => Finset.fold max (⊥ : EReal) f (Finset.univ : Finset (Fin 2048))) hf

/-- The row maximum of the scores. -/
theorem v21_apply (b : Fin 8) (r : Fin 2048) :
    val_main_v21 (F := Ideal) x Wk bk Wq bq (ix2 b r)
      = Cert.Attn.rowMax (Cert.Attn.proj x Wq bq) (Cert.Attn.proj x Wk bk) b r := by
  rw [val_main_v21_apply, val_main_v20_apply, val_main_cst_3_apply]
  unfold val_main_v19
  rw [reduce_max_apply]
  simp only [Ideal.ofBits_def, Ideal.maximumf_def, v18_apply]
  rw [ofBits_negInf]
  exact max_eq_right bot_le

end RowMax

section Softmax

variable (x : XTy) (Wk : WTy) (bk : BTy) (Wq : WTy) (bq : BTy)

/-- The unnormalised softmax weight: the exponential of the score less its row's maximum. -/
theorem v25_apply (b : Fin 8) (r c : Fin 2048) :
    val_main_v25 (F := Ideal) x Wk bk Wq bq (ix3 b r c)
      = Cert.Attn.weight (Cert.Attn.proj x Wq bq) (Cert.Attn.proj x Wk bk) b r c := by
  have e : idx_main_v22 (idx_main_v23 (ix3 b r c)) = ix2 b r := funext fun a => Fin.ext (by
    match a with | ⟨0, _⟩ => rfl | ⟨1, _⟩ => rfl)
  rw [val_main_v25_apply, val_main_v24_apply, v18_apply, val_main_v23_apply, val_main_v22_apply, e, v21_apply]
  simp only [Ideal.hostUnary_exp_def, Ideal.subf_def]
  rfl

/-- The row's normaliser: the sum of the weights (the sum starts from zero). -/
theorem v26_apply (b : Fin 8) (r : Fin 2048) :
    val_main_v26 (F := Ideal) x Wk bk Wq bq (ix2 b r)
      = Cert.Attn.denom (Cert.Attn.proj x Wq bq) (Cert.Attn.proj x Wk bk) b r := by
  have e : ∀ k : Fin 2048, idx_main_v26 (ix2 b r) k = ix3 b r k := fun k => funext fun a => Fin.ext (by
    match a with | ⟨0, _⟩ => rfl | ⟨1, _⟩ => rfl | ⟨2, _⟩ => rfl)
  rw [val_main_v26_apply, val_main_cst_4_apply]
  simp only [e, v25_apply, Ideal.ofBits_def]
  rw [Ideal.ofBits_zero_f32, zero_add]
  rfl

/-- The normalised weight. -/
theorem v29_apply (b : Fin 8) (r c : Fin 2048) :
    val_main_v29 (F := Ideal) x Wk bk Wq bq (ix3 b r c)
      = Ideal.div (Cert.Attn.weight (Cert.Attn.proj x Wq bq) (Cert.Attn.proj x Wk bk) b r c)
          (Cert.Attn.denom (Cert.Attn.proj x Wq bq) (Cert.Attn.proj x Wk bk) b r) := by
  have e : idx_main_v27 (idx_main_v28 (ix3 b r c)) = ix2 b r := funext fun a => Fin.ext (by
    match a with | ⟨0, _⟩ => rfl | ⟨1, _⟩ => rfl)
  rw [val_main_v29_apply, v25_apply, val_main_v28_apply, val_main_v27_apply, e, v26_apply]
  rfl

end Softmax

section Output

variable (x : XTy) (Wk : WTy) (bk : BTy) (Wq : WTy) (bq : BTy) (Wv : WTy) (bv : BTy)

/-- The reference's result at (b, r, h): the softmax weights of row r against the value rows. -/
theorem v30_apply (b : Fin 8) (r : Fin 2048) (h : Fin 64) :
    val_main_v30 (F := Ideal) x Wk bk Wq bq Wv bv (ix3 b r h)
      = Cert.Attn.out (Cert.Attn.proj x Wq bq) (Cert.Attn.proj x Wk bk) (Cert.Attn.proj x Wv bv) b r h := by
  have el : ∀ k : Fin 2048, lidx_main_v30 (ix3 b r h) k = ix3 b r k := fun k => funext fun a => Fin.ext (by
    match a with | ⟨0, _⟩ => rfl | ⟨1, _⟩ => rfl | ⟨2, _⟩ => rfl)
  have er : ∀ k : Fin 2048, ridx_main_v30 (ix3 b r h) k = ix3 b k h := fun k => funext fun a => Fin.ext (by
    match a with | ⟨0, _⟩ => rfl | ⟨1, _⟩ => rfl | ⟨2, _⟩ => rfl)
  rw [val_main_v30_apply]
  simp only [el, er, v29_apply, v11_apply]
  rfl

/-- The reference's result, as one function of the seven argument arrays, is the whole-row softmax attention of the
    three projections. -/
theorem result_eq :
    val_main_v30 (F := Ideal) x Wk bk Wq bq Wv bv
      = fun i : S8x2048x64.Idx =>
          Cert.Attn.out (Cert.Attn.proj x Wq bq) (Cert.Attn.proj x Wk bk) (Cert.Attn.proj x Wv bv) (i 0) (i 1) (i 2) := by
  funext i
  obtain ⟨b, r, h, rfl⟩ : ∃ (b : Fin 8) (r : Fin 2048) (h : Fin 64), i = ix3 b r h := ⟨i 0, i 1, i 2, eq_ix3 i⟩
  exact v30_apply x Wk bk Wq bq Wv bv b r h

end Output

open Idealize.ShloMosaic.TcCoe Idealize.SL.Sem Idealize.ShloMosaic.StableHlo in
/-- The run's result buffer, read from the launch contents of the seven arguments (x, Wk, bk, Wq, bq, Wv, bv in the
    program's argument order). -/
theorem res_eq (m : (ℓ : Loc nD τ sig) → Buf (Elt Ideal) ℓ) (c : Dev nD) :
    Cert.ReferenceIdeal.Value.res_main_v30 (F := Ideal) m c
      = fun i : S8x2048x64.Idx =>
          Cert.Attn.out
            (Cert.Attn.proj (m ((c.tc : Thread nD τ).loc main_arg0)) (m ((c.tc : Thread nD τ).loc main_arg3)) (m ((c.tc : Thread nD τ).loc main_arg4)))
            (Cert.Attn.proj (m ((c.tc : Thread nD τ).loc main_arg0)) (m ((c.tc : Thread nD τ).loc main_arg1)) (m ((c.tc : Thread nD τ).loc main_arg2)))
            (Cert.Attn.proj (m ((c.tc : Thread nD τ).loc main_arg0)) (m ((c.tc : Thread nD τ).loc main_arg5)) (m ((c.tc : Thread nD τ).loc main_arg6)))
            (i 0) (i 1) (i 2) :=
  (val_main_v30_eq (F := Ideal) m c).trans (result_eq _ _ _ _ _ _ _)

end Cert.ReferenceIdeal.RefValue

end
-- ==== Proof.Finite.lean ====
/-
  Finiteness of the inputs. The certificate's precondition evaluates, for each of the seven argument
  arrays `x`, the conjunction over all entries of `|x| < +∞`, and-s the seven answers into one bit and
  states that the bit is one. Read back entry by entry: an extended real `a` with `max a (-a) < ⊤`
  is neither `⊤` nor `⊥`, hence the image of a real number.
-/
import proofs.«129131_j53901839564972_2_alg».proof.Defs
import Idealize.ShloMosaic.Lib.ReduceAll
import Idealize.ShloMosaic.Lib.ValueIdx
import Idealize.ShloMosaic.PureOps.Ideal

namespace Cert.Proof.Finite

open Idealize.ShloMosaic Idealize.SL.Sem

/-- The f32 pattern of `+∞` denotes the top of the extended reals. -/
theorem ofBits_inf : Ideal.ofBits .f32 0x7F800000#32 = (⊤ : EReal) := by
  simp [Ideal.ofBits, Ideal.ieee]

/-- One entry: if the comparison `|a| < +∞` answers one, then `a` is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hlt : max a (-a) < ⊤ := by
    by_contra hn
    simp [Ideal.cmp, hn] at h
  rw [max_lt_iff] at hlt
  have h1 : a ≠ ⊤ := ne_of_lt hlt.1
  have h2 : a ≠ ⊥ := by
    intro hb
    rw [hb] at hlt
    simp at hlt
  exact ⟨a.toReal, (EReal.coe_toReal h1 h2).symm⟩

instance subsingleton_idx0 : Subsingleton (⟨0, ![]⟩ : Shape).Idx := ⟨fun a b => funext fun d => d.elim0⟩

/-- One array of any shape: if `jnp.all (|x| < +∞)` answers one, every entry of `x` is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) (j : (⟨0, ![]⟩ : Shape).Idx)
    (e : Host.reduce IntOp.andi
          (cmpf .olt (Host.absf x) (broadcastInDim s ![] hb (constant (⟨0, ![]⟩ : Shape) .f32 0x7F800000#32)))
          (constantI (⟨0, ![]⟩ : Shape) 1 1#1) hr hu j = 1#1) (i : s.Idx) : ∃ r : ℝ, x i = (r : EReal) :=
  real_of_abs_lt_inf (x i) (Host.reduce_andi_all _ _ hr hu j e i)

/-- The conjunction of two bits, read at the one index of a scalar, is one exactly when both are. -/
theorem andi_apply_eq_one {s : Shape} (x y : IVec s 1) (j : s.Idx) :
    andi x y j = 1#1 ↔ x j = 1#1 ∧ y j = 1#1 := IntOp.andi_eq_one

/-- Under the certificate's precondition every entry of each of the seven argument arrays is a real number. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S8x2048x1024.Idx, ∃ r : ℝ, m ((c.tc : Thread Cert.KernelIdeal.nD Cert.KernelIdeal.τ).loc Cert.KernelIdeal.main_arg0) i = (r : EReal))
      ∧ (∀ i : Cert.KernelIdeal.S64x1024.Idx, ∃ r : ℝ, m ((c.tc : Thread Cert.KernelIdeal.nD Cert.KernelIdeal.τ).loc Cert.KernelIdeal.main_arg1) i = (r : EReal))
      ∧ (∀ i : Cert.KernelIdeal.S64.Idx, ∃ r : ℝ, m ((c.tc : Thread Cert.KernelIdeal.nD Cert.KernelIdeal.τ).loc Cert.KernelIdeal.main_arg2) i = (r : EReal))
      ∧ (∀ i : Cert.KernelIdeal.S64x1024.Idx, ∃ r : ℝ, m ((c.tc : Thread Cert.KernelIdeal.nD Cert.KernelIdeal.τ).loc Cert.KernelIdeal.main_arg3) i = (r : EReal))
      ∧ (∀ i : Cert.KernelIdeal.S64.Idx, ∃ r : ℝ, m ((c.tc : Thread Cert.KernelIdeal.nD Cert.KernelIdeal.τ).loc Cert.KernelIdeal.main_arg4) i = (r : EReal))
      ∧ (∀ i : Cert.KernelIdeal.S64x1024.Idx, ∃ r : ℝ, m ((c.tc : Thread Cert.KernelIdeal.nD Cert.KernelIdeal.τ).loc Cert.KernelIdeal.main_arg5) i = (r : EReal))
      ∧ (∀ i : Cert.KernelIdeal.S64.Idx, ∃ r : ℝ, m ((c.tc : Thread Cert.KernelIdeal.nD Cert.KernelIdeal.τ).loc Cert.KernelIdeal.main_arg6) i = (r : EReal)) := by
  have e := congrFun (h c) ValueIdx.ix0
  dsimp only [Cert.Pre_finite_inputs.fn, Cert.Pre_finite_inputs.fn_part1] at e
  simp only [andi_apply_eq_one] at e
  obtain ⟨⟨⟨⟨⟨⟨e0, e1⟩, e2⟩, e3⟩, e4⟩, e5⟩, e6⟩ := e
  exact ⟨real_of_all _ _ _ _ _ e0, real_of_all _ _ _ _ _ e1, real_of_all _ _ _ _ _ e2, real_of_all _ _ _ _ _ e3,
    real_of_all _ _ _ _ _ e4, real_of_all _ _ _ _ _ e5, real_of_all _ _ _ _ _ e6⟩

end Cert.Proof.Finite
-- ==== Proof.lean ====
/-
  Single-head causal self-attention over f32[8, 2048, 1024] inputs: a kernel program of two regions against a plain
  reference, equal on the extended reals.

  The kernel first projects x with the three weight matrices and biases into q, k, v (one region, a block of 1024 rows per
  grid point), then runs an online softmax (one region, grid point (batch, query tile, key tile)): it keeps a running row
  maximum, denominator and numerator in scratch buffers, resets them at key tile 0, adds a key tile when it is on or below
  the diagonal — masked scores are the kernel's stand-in for minus infinity, named so at the ideal instance —, rescaling the
  two sums by exp (old maximum - new maximum), and at the last key tile stores numerator / denominator.  The reference
  computes the same projections, all 2048 × 2048 scores masked with minus infinity and scaled by 64 ^ (1/2) = 8, a row
  softmax and the weighted sum of value rows.

  The three frames: the reference's run is its generated reading with the result dropped; each kernel program's frame is
  the launch of its two regions over proof data that names every buffer's contents (the projection body's stores; the
  attention body's three control cases, the scratch buffers carried in the invariant).  The value claim: the projection
  region's arrays are the projections; the attention region's write-backs are the tiled softmax of its rows, which for
  real-valued inputs — the precondition — is the whole-row softmax the reference computes.
-/
import proofs.«129131_j53901839564972_2_alg».proof.Defs
import proofs.«129131_j53901839564972_2_alg».proof.Proof.Gen.Kernel
import proofs.«129131_j53901839564972_2_alg».proof.Proof.Gen.KernelIdeal
import proofs.«129131_j53901839564972_2_alg».proof.Proof.Gen.ReferenceIdeal
import proofs.«129131_j53901839564972_2_alg».proof.Proof.Gen.Pre_finite_inputs
import proofs.«129131_j53901839564972_2_alg».proof.Proof.FrameK
import proofs.«129131_j53901839564972_2_alg».proof.Proof.FrameI
import proofs.«129131_j53901839564972_2_alg».proof.Proof.KernelValue
import proofs.«129131_j53901839564972_2_alg».proof.Proof.RefValue
import proofs.«129131_j53901839564972_2_alg».proof.Proof.Finite
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_p : Cert.frame_Kernel := fun m ρ _ => Cert.Kernel.Fr.frame m ρ

/-- So does its idealization. -/
theorem frame_pi : Cert.frame_KernelIdeal := fun m ρ _ => Cert.KernelIdeal.Fr.frame m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask's finite stand-in denotes minus infinity at the ideal instance. -/
theorem preserves : Cert.preserves_Kernel_KernelIdeal :=
  IdealRules.named_const.statement Cert.KernelIdeal.κ "neg_big" .f32 0xFF333332#32 ⊥ rfl

/-- Both programs end with the softmax attention of the three projections of the (real-valued) arguments. -/
theorem algebraic : Cert.algebraic_KernelIdeal_ReferenceIdeal := by
  intro m ρ m' ρ' hpre hagree
  refine ⟨fun c => fun i : Cert.KernelIdeal.S8x2048x64.Idx =>
    Cert.Attn.out (Cert.Attn.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.Attn.proj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.Attn.proj (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (i 0) (i 1) (i 2), ?_, ?_⟩
  · refine (θ_run Cert.KernelIdeal.defs _ _).mono (fun r h c => ⟨(h c).1.trans ?_, (h c).2⟩)
      (Cert.KernelIdeal.Fr.run_value (F := Ideal) m ρ)
    obtain ⟨hx, hWk, hbk, hWq, hbq, hWv, hbv⟩ := Cert.Proof.Finite.real_of_pre m hpre c
    exact Cert.KernelIdeal.Val.result_eq m ρ c hx hWk hbk hWq hbq hWv hbv
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq m' c]
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
